-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S8192 : Shape := ⟨1, ![8192]⟩
abbrev S4096x1024 : Shape := ⟨2, ![4096, 1024]⟩
abbrev S4096 : Shape := ⟨1, ![4096]⟩
abbrev S4096x1 : Shape := ⟨2, ![4096, 1]⟩
abbrev S1x4096 : Shape := ⟨2, ![1, 4096]⟩
abbrev S1024x1024 : Shape := ⟨2, ![1024, 1024]⟩
abbrev S512x1024 : Shape := ⟨2, ![512, 1024]⟩
abbrev S1024x1 : Shape := ⟨2, ![1024, 1]⟩
abbrev S1x512 : Shape := ⟨2, ![1, 512]⟩
abbrev S1024 : Shape := ⟨1, ![1024]⟩
abbrev S512 : Shape := ⟨1, ![512]⟩
abbrev S1024x512 : Shape := ⟨2, ![1024, 512]⟩
abbrev S_ : Shape := ⟨0, ![]⟩

abbrev nBuf : Space → Nat
  | .hbm => 41
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S4096x1024, .f32⟩
  | .hbm, ⟨3, _⟩ => ⟨S4096x1024, .f32⟩
  | .hbm, ⟨4, _⟩ => ⟨S4096, .i32⟩
  | .hbm, ⟨5, _⟩ => ⟨S4096, .i32⟩
  | .hbm, ⟨6, _⟩ => ⟨S4096x1, .i32⟩
  | .hbm, ⟨7, _⟩ => ⟨S1x4096, .i32⟩
  | .hbm, ⟨8, _⟩ => ⟨S4096x1, .i32⟩
  | .hbm, ⟨9, _⟩ => ⟨S1x4096, .i32⟩
  | .hbm, ⟨10, _⟩ => ⟨S4096x1, .f32⟩
  | .hbm, ⟨11, _⟩ => ⟨S4096x1, .f32⟩
  | .hbm, ⟨12, _⟩ => ⟨S4096, .f32⟩
  | .hbm, ⟨13, _⟩ => ⟨S4096, .f32⟩
  | .hbm, ⟨14, _⟩ => ⟨S4096x1, .f32⟩
  | .hbm, ⟨15, _⟩ => ⟨S4096x1, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1024, .f32⟩
  | .local _ .vmem, ⟨15, _⟩ => ⟨S1024x1024, .f32⟩
  | .local _ .vmem, ⟨16, _⟩ => ⟨S512x1024, .f32⟩
  | .local _ .vmem, ⟨17, _⟩ => ⟨S512x1024, .f32⟩
  | .local _ .vmem, ⟨18, _⟩ => ⟨S1024x1, .i32⟩
  | .local _ .vmem, ⟨19, _⟩ => ⟨S1024x1, .i32⟩
  | .local _ .vmem, ⟨20, _⟩ => ⟨S1x512, .i32⟩
  | .local _ .vmem, ⟨21, _⟩ => ⟨S1x512, .i32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_call0_cst : Ref sig .tc := ⟨.hbm, 22, rfl⟩
abbrev main_call0_v0 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_call1_cst : Ref sig .tc := ⟨.hbm, 33, rfl⟩
abbrev main_call1_v0 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_scratch0 : Ref sig .tc := ⟨.vmem, 26, rfl⟩
abbrev cc1_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_24 : BitVec 32 := 0#32
  let v52 : BitVec 1 := Scalar.cmpi .ne v51 c0_i32_24
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_24 : BitVec 32 := 0#32
  let v52 : BitVec 1 := Scalar.cmpi .ne v51 c0_i32_24
  v52

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  slices_S8192x1024_S4096x1024_0_0 : S8192x1024.Slices ![0, 0] S4096x1024
  slices_S8192x1024_S4096x1024_4096_0 : S8192x1024.Slices ![4096, 0] S4096x1024
  slices_S8192_S4096_0 : S8192.Slices ![0] S4096
  slices_S8192_S4096_4096 : S8192.Slices ![4096] S4096
  shapeCasts_S4096_S4096x1 : S4096.ShapeCasts S4096x1
  shapeCasts_S4096_S1x4096 : S4096.ShapeCasts S1x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S1024x1024_S1024 : S1024x1024.Reduces [1] S1024
  shapeCasts_S1024_S1024x1 : S1024.ShapeCasts S1024x1
  reduces_S512x1024_S512 : S512x1024.Reduces [1] S512
  shapeCasts_S512_S1x512 : S512.ShapeCasts S1x512
  bitsLt_bf16_f32 : FTy.bits .bf16 < FTy.bits .f32
  broadcasts_S1024x1_S1024x512 : S1024x1.Broadcasts S1024x512
  broadcasts_S1x512_S1024x512 : S1x512.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1024x512_S1024 : S1024x512.Reduces [1] S1024
  shapeCasts_S4096x1_S4096 : S4096x1.ShapeCasts S4096
  bcast_S_S4096 : S_.BroadcastsInDim S4096 (![] : Fin 0 → Fin S4096.rank)
  reducesTo_S4096_S_d0 : S4096.ReducesTo [0] S_
  h_S_ : 0 < S_.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .f32 = 32 ∨ (Rect.block (s := S4096x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .i32 = 32 ∨ (Rect.block (s := S4096x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .i32 = 32 ∨ (Rect.block (s := S1x4096) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S4096x1.size a
  hwx1_4 : ∀ i : grid1.Coords, EltTy.bits .f32 = 32 ∨ (Rect.block (s := S4096x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S4096x1.size a
  hwx1_5 : ∀ i : grid1.Coords, EltTy.bits .f32 = 32 ∨ (Rect.block (s := S4096x1) S1024x1.size (cc1_transform_5 i) (hinb1_5 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11_0) S1024x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11_1) S1024x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192 : Shape := ⟨1, ![8192]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1024x4096 : Shape := ⟨2, ![1024, 4096]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1024x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096, .i32⟩
  | .hbm, ⟨27, _⟩ => ⟨S1x4096, .i32⟩
  | .hbm, ⟨28, _⟩ => ⟨S4096, .i32⟩
  | .hbm, ⟨29, _⟩ => ⟨S4096x1, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4096, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_call2_v0 : Ref sig .tc := ⟨.hbm, 40, rfl⟩
abbrev main_call2_v1 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_cst_7 : Ref sig .tc := ⟨.hbm, 45, rfl⟩
abbrev main_call3_v0 : Ref sig .tc := ⟨.hbm, 46, rfl⟩
abbrev main_call3_v1 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_cst_9 : Ref sig .tc := ⟨.hbm, 51, rfl⟩
abbrev main_call4_v0 : Ref sig .tc := ⟨.hbm, 52, rfl⟩
abbrev main_call4_v1 : Ref sig .tc := ⟨.hbm, 53, rfl⟩
abbrev main_v31 : Ref sig .tc := ⟨.hbm, 54, rfl⟩
abbrev main_cst_10 : Ref sig .tc := ⟨.hbm, 55, rfl⟩
abbrev main_v32 : Ref sig .tc := ⟨.hbm, 56, rfl⟩
abbrev main_v33 : Ref sig .tc := ⟨.hbm, 57, rfl⟩
abbrev main_cst_11 : Ref sig .tc := ⟨.hbm, 58, rfl⟩
abbrev main_v34 : Ref sig .tc := ⟨.hbm, 59, rfl⟩
abbrev main_v35 : Ref sig .tc := ⟨.hbm, 60, rfl⟩
abbrev main_call5_cst : Ref sig .tc := ⟨.hbm, 61, rfl⟩
abbrev main_call5_v0 : Ref sig .tc := ⟨.hbm, 62, rfl⟩
abbrev main_v36 : Ref sig .tc := ⟨.hbm, 63, rfl⟩
abbrev main_cst_12 : Ref sig .tc := ⟨.hbm, 64, rfl⟩
abbrev main_v37 : Ref sig .tc := ⟨.hbm, 65, rfl⟩
abbrev main_cst_13 : Ref sig .tc := ⟨.hbm, 66, rfl⟩
abbrev main_v38 : Ref sig .tc := ⟨.hbm, 67, rfl⟩
abbrev main_v39 : Ref sig .tc := ⟨.hbm, 68, rfl⟩
abbrev main_cst_14 : Ref sig .tc := ⟨.hbm, 69, rfl⟩
abbrev main_v40 : Ref sig .tc := ⟨.hbm, 70, rfl⟩
abbrev main_v41 : Ref sig .tc := ⟨.hbm, 71, rfl⟩
abbrev main_call6_cst : Ref sig .tc := ⟨.hbm, 72, rfl⟩
abbrev main_call6_v0 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_cst_16 : Ref sig .tc := ⟨.hbm, 77, rfl⟩
abbrev main_v44 : Ref sig .tc := ⟨.hbm, 78, rfl⟩
abbrev main_v45 : Ref sig .tc := ⟨.hbm, 79, rfl⟩

abbrev nD : Nat := 1
abbrev τ : Topo := Topo.v7x

variable {F : FTy → Type} [FloatOps F]

class Facts₀ : Prop where
  slices_S8192x1024_S4096x1024_0_0 : S8192x1024.Slices ![0, 0] S4096x1024
  slices_S8192x1024_S4096x1024_4096_0 : S8192x1024.Slices ![4096, 0] S4096x1024
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x1024_S1024x4096_1_0 : S4096x1024.Transposes [1, 0] S1024x4096
  bcast_S_S4096x4096 : S_.BroadcastsInDim S4096x4096 (![] : Fin 0 → Fin S4096x4096.rank)
  slices_S8192_S4096_0 : S8192.Slices ![0] S4096
  slices_S8192_S4096_4096 : S8192.Slices ![4096] S4096
  reducesTo_S4096x4096_S4096_d1 : S4096x4096.ReducesTo [1] S4096
  reducesTo_S4096x4096_S4096_d0 : S4096x4096.ReducesTo [0] S4096
  bcast_S_S4096 : S_.BroadcastsInDim S4096 (![] : Fin 0 → Fin S4096.rank)
  reducesTo_S4096_S_d0 : S4096.ReducesTo [0] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KB.R0Cases.lean ====
import proofs.«127731_j5145370820780_1_alg».proof.Proof.Gen.Kernel.Launch
import proofs.«127731_j5145370820780_1_alg».proof.Proof.Gen.Kernel.Skeleton
import proofs.«127731_j5145370820780_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: which control case a grid point is in, and where the output windows are idle

The grid is 4 × 8, a point `t` has column coordinate `t % 8`. At column 0 the body first resets its two running
columns (the running maximum to the bottom element, the running minimum to the top element); at every column it folds
the tile's row maxima and minima into them; at column 7 it copies them into the two output blocks. So there are three
cases: the first column (A), the middle columns (B), the last column (C). The output windows hold nothing the body
wrote except at column 7, which is also the only column after which they are written back. -/

/-- The first conditional's test, as the body computes it from the column coordinate: "column = 0". -/
abbrev condA0 (i : grid0.Coords) : Prop := (Scalar.cmpi .ne (Scalar.extui (Scalar.cmpi .eq (BitVec.ofNat 32 (i 1).val) 0#32)) 0#32) = 1#1
theorem hcondA0 : ∀ t : Fin cfg0.N, condA0 (grid0.coords t) ↔ t.val % 8 = 0 :=
  (by decide +kernel : ∀ t : Fin grid0.N, condA0 (grid0.coords t) ↔ t.val % 8 = 0)
/-- The second conditional's test: "column = 7". -/
abbrev condC0 (i : grid0.Coords) : Prop := k0_cond2 i = 1#1
theorem hcondC0 : ∀ t : Fin cfg0.N, condC0 (grid0.coords t) ↔ t.val % 8 = 7 :=
  (by decide +kernel : ∀ t : Fin grid0.N, condC0 (grid0.coords t) ↔ t.val % 8 = 7)

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column the two output windows are idle and not written back; -/
theorem idleAt0_4 : ∀ t : Fin cfg0.N, ¬condC0 (grid0.coords t) → cfg0.idle 4 (grid0.coords t) = true := by decide +kernel
theorem noFlush0_4 : ∀ t : Fin cfg0.N, ¬condC0 (grid0.coords t) → (cfg0.win 4).flush t = false := by decide +kernel
theorem idleAt0_5 : ∀ t : Fin cfg0.N, ¬condC0 (grid0.coords t) → cfg0.idle 5 (grid0.coords t) = true := by decide +kernel
theorem noFlush0_5 : ∀ t : Fin cfg0.N, ¬condC0 (grid0.coords t) → (cfg0.win 5).flush t = false := by decide +kernel
/-- at the last column they are live. -/
theorem liveAt0_4 : ∀ t : Fin cfg0.N, condC0 (grid0.coords t) → cfg0.idle 4 (grid0.coords t) = false := by decide +kernel
theorem liveAt0_5 : ∀ t : Fin cfg0.N, condC0 (grid0.coords t) → cfg0.idle 5 (grid0.coords t) = false := by decide +kernel

/-- The current staging memref of each window at a point, as the pipeline passes it to the body, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The two running columns: whole scoped buffers of the kernel's own. -/
abbrev scM0_0 : Memref sig .tc .vmem S1024x1 .f32 := Memref.whole cc0_scratch0
abbrev scM0_1 : Memref sig .tc .vmem S1024x1 .f32 := Memref.whole cc0_scratch1
/-- Views through which buffer contents are stated. -/
abbrev VS0_0 : View sig .tc .vmem S1024x1 .f32 := scM0_0.view
abbrev VS0_1 : View sig .tc .vmem S1024x1 .f32 := scM0_1.view
abbrev VO0_4 : View sig .tc .vmem S1024x1 .f32 := (Memref.whole cc0_stg4_0 : Memref sig .tc .vmem S1024x1 .f32).view
abbrev VO0_5 : View sig .tc .vmem S1024x1 .f32 := (Memref.whole cc0_stg5_0 : Memref sig .tc .vmem S1024x1 .f32).view

end Cert.Kernel.Hand

end
-- ==== Proof.KB.R0RunA.lean ====
import proofs.«127731_j5145370820780_1_alg».proof.Proof.KB.R0Cases
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point of the FIRST column (the reset taken, the copy-out not): on whole memrefs, the four input blocks at
    their contents, the two idle output blocks at any contents (handed back untouched) and the two running columns at
    anything, it runs to the continuation with the inputs and outputs as they were and each running column holding the
    pieces the stores left — found by running the body; the pieces are the witness. -/
noncomputable def kernelRunA0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : condA0 i) (hc1 : ¬condC0 i)
    (x0 : Vec F S1024x1024 .f32) (x1 : Vec F S512x1024 .f32) (x2 : Vec F S1024x1 .i32) (x3 : Vec F S1x512 .i32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__mining_kernel i arg2 harg2 arg3 harg3 arg4 harg4 arg5 harg5 arg6 harg6 arg7 harg7 arg8 harg8 arg9 harg9) K } := by
  refine ⟨?_, ?_, fun xi4 xi5 E K => ?run⟩
  case run =>
    simp only [cc0__mining_kernel_eq_skeleton]; unfold cc0__mining_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.KB.R0RunB.lean ====
import proofs.«127731_j5145370820780_1_alg».proof.Proof.KB.R0RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point of a MIDDLE column (neither conditional taken): as in the first column, but the two running
    columns are handed over at the contents the point before left (`xs0`, `xs1`). -/
noncomputable def kernelRunB0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : ¬condC0 i)
    (x0 : Vec F S1024x1024 .f32) (x1 : Vec F S512x1024 .f32) (x2 : Vec F S1024x1 .i32) (x3 : Vec F S1x512 .i32) (xs0 xs1 : Vec F S1024x1 .f32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__mining_kernel i arg2 harg2 arg3 harg3 arg4 harg4 arg5 harg5 arg6 harg6 arg7 harg7 arg8 harg8 arg9 harg9) K } := by
  refine ⟨?_, ?_, fun xi4 xi5 E K => ?run⟩
  case run =>
    simp only [cc0__mining_kernel_eq_skeleton]; unfold cc0__mining_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.KB.R0RunC.lean ====
import proofs.«127731_j5145370820780_1_alg».proof.Proof.KB.R0RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point of the LAST column (the reset not taken, the copy-out taken): the running columns at what the
    point before left, the two output blocks at anything; it ends with each output block and each running column
    holding the pieces its stores left. -/
noncomputable def kernelRunC0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : condC0 i)
    (x0 : Vec F S1024x1024 .f32) (x1 : Vec F S512x1024 .f32) (x2 : Vec F S1024x1 .i32) (x3 : Vec F S1x512 .i32) (xs0 xs1 : Vec F S1024x1 .f32) :
    Σ' (L4 : List (View.Piece (Elt F) S1024x1 .f32)) (L5 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__mining_kernel i arg2 harg2 arg3 harg3 arg4 harg4 arg5 harg5 arg6 harg6 arg7 harg7 arg8 harg8 arg9 harg9) K } := by
  refine ⟨?_, ?_, ?_, ?_, fun E K => ?run⟩
  case run =>
    simp only [cc0__mining_kernel_eq_skeleton]; unfold cc0__mining_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.Kernel.Hand

end
-- ==== Proof.KB.R0Frame.lean ====
import proofs.«127731_j5145370820780_1_alg».proof.Proof.KB.R0RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0 at the contents `V` it is entered from: what its buffers hold after every grid point

`V c b` is what buffer `b` of core `c` holds when the region is entered. Everything below is stated at any `V`. -/

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: the pieces its stores wrote, read back -/

/-- A list of pieces written over anything and read back (when the pieces cover the block the start does not matter). -/
def rdP (L : List (View.Piece (Elt F) S1024x1 .f32)) : Vec F S1024x1 .f32 := VS0_0.read (Elt F) (VS0_0.writes (Elt F) VS0_0.junk L)

theorem scoverA0_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : condA0 i) (hc1 : ¬condC0 i) (x0 : Vec F S1024x1024 .f32) (x1 : Vec F S512x1024 .f32) (x2 : Vec F S1024x1 .i32) (x3 : Vec F S1x512 .i32) (y : S1024x1.Idx) :
    ∃ pc ∈ (kernelRunA0 c i arg2 harg2 arg3 harg3 arg4 harg4 arg5 harg5 arg6 harg6 arg7 harg7 arg8 harg8 arg9 harg9 hc0 hc1 x0 x1 x2 x3).1, y ∈ pc.1.set :=
  View.cover_of_tiledL (kernelRunA0 c i arg2 harg2 arg3 harg3 arg4 harg4 arg5 harg5 arg6 harg6 arg7 harg7 arg8 harg8 arg9 harg9 hc0 hc1 x0 x1 x2 x3).1 S1024x1.size (by sl_kernel_rfl) y
theorem scoverA0_1 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : condA0 i) (hc1 : ¬condC0 i) (x0 : Vec F S1024x1024 .f32) (x1 : Vec F S512x1024 .f32) (x2 : Vec F S1024x1 .i32) (x3 : Vec F S1x512 .i32) (y : S1024x1.Idx) :
    ∃ pc ∈ (kernelRunA0 c i arg2 harg2 arg3 harg3 arg4 harg4 arg5 harg5 arg6 harg6 arg7 harg7 arg8 harg8 arg9 harg9 hc0 hc1 x0 x1 x2 x3).2.1, y ∈ pc.1.set :=
  View.cover_of_tiledL (kernelRunA0 c i arg2 harg2 arg3 harg3 arg4 harg4 arg5 harg5 arg6 harg6 arg7 harg7 arg8 harg8 arg9 harg9 hc0 hc1 x0 x1 x2 x3).2.1 S1024x1.size (by sl_kernel_rfl) y
theorem scoverB0_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : ¬condC0 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunB0 c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRunB0 c i arg2 harg2 arg3 harg3 arg4 harg4 arg5 harg5 arg6 harg6 arg7 harg7 arg8 harg8 arg9 harg9 hc0 hc1 x0 x1 x2 x3 xs0 xs1).1 S1024x1.size (by sl_kernel_rfl) y
theorem scoverB0_1 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : ¬condC0 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunB0 c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRunB0 c i arg2 harg2 arg3 harg3 arg4 harg4 arg5 harg5 arg6 harg6 arg7 harg7 arg8 harg8 arg9 harg9 hc0 hc1 x0 x1 x2 x3 xs0 xs1).2.1 S1024x1.size (by sl_kernel_rfl) y
theorem coverC0_4 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : condC0 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunC0 c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRunC0 c i arg2 harg2 arg3 harg3 arg4 harg4 arg5 harg5 arg6 harg6 arg7 harg7 arg8 harg8 arg9 harg9 hc0 hc1 x0 x1 x2 x3 xs0 xs1).1 S1024x1.size (by sl_kernel_rfl) y
theorem coverC0_5 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : condC0 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunC0 c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRunC0 c i arg2 harg2 arg3 harg3 arg4 harg4 arg5 harg5 arg6 harg6 arg7 harg7 arg8 harg8 arg9 harg9 hc0 hc1 x0 x1 x2 x3 xs0 xs1).2.1 S1024x1.size (by sl_kernel_rfl) y
theorem scoverC0_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : condC0 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunC0 c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRunC0 c i arg2 harg2 arg3 harg3 arg4 harg4 arg5 harg5 arg6 harg6 arg7 harg7 arg8 harg8 arg9 harg9 hc0 hc1 x0 x1 x2 x3 xs0 xs1).2.2.1 S1024x1.size (by sl_kernel_rfl) y
theorem scoverC0_1 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : condC0 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunC0 c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRunC0 c i arg2 harg2 arg3 harg3 arg4 harg4 arg5 harg5 arg6 harg6 arg7 harg7 arg8 harg8 arg9 harg9 hc0 hc1 x0 x1 x2 x3 xs0 xs1).2.2.2.1 S1024x1.size (by sl_kernel_rfl) y

/-- The four buffers after a point, in the order: output block 4, output block 5, running maximum, running minimum. -/
abbrev Quad (F : FTy → Type) [FloatOps F] : Type := Vec F S1024x1 .f32 × Vec F S1024x1 .f32 × Vec F S1024x1 .f32 × Vec F S1024x1 .f32

/-- A point of the first column: the outputs hold nothing of the body's (a placeholder nothing consults); the running
    columns what the reset and the first fold left. -/
def ptA0 (c : Dev nD) (t : Fin cfg0.N) (h0 : t.val % 8 = 0) : Quad F :=
  have hc0 : condA0 (grid0.coords t) := (hcondA0 t).mpr h0
  have hc1 : ¬condC0 (grid0.coords t) := fun h => by have := (hcondC0 t).mp h; omega
  (rdP [], rdP [],
   rdP (kernelRunA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t)).1,
   rdP (kernelRunA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t)).2.1)
/-- A point of a middle column, from what the point before left in the running columns. -/
def ptB0 (c : Dev nD) (t : Fin cfg0.N) (h0 : ¬t.val % 8 = 0) (h1 : ¬t.val % 8 = 7) (xs0 xs1 : Vec F S1024x1 .f32) : Quad F :=
  have hc0 : ¬condA0 (grid0.coords t) := fun h => h0 ((hcondA0 t).mp h)
  have hc1 : ¬condC0 (grid0.coords t) := fun h => h1 ((hcondC0 t).mp h)
  (rdP [], rdP [],
   rdP (kernelRunB0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) xs0 xs1).1,
   rdP (kernelRunB0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) xs0 xs1).2.1)
/-- A point of the last column. -/
def ptC0 (c : Dev nD) (t : Fin cfg0.N) (h0 : ¬t.val % 8 = 0) (h1 : t.val % 8 = 7) (xs0 xs1 : Vec F S1024x1 .f32) : Quad F :=
  have hc0 : ¬condA0 (grid0.coords t) := fun h => h0 ((hcondA0 t).mp h)
  have hc1 : condC0 (grid0.coords t) := (hcondC0 t).mpr h1
  (rdP (kernelRunC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) xs0 xs1).1,
   rdP (kernelRunC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) xs0 xs1).2.1,
   rdP (kernelRunC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) xs0 xs1).2.2.1,
   rdP (kernelRunC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) xs0 xs1).2.2.2.1)

/-- THE ACCUMULATION: the four buffers after the body at position `n`, by recursion on the position — the case the
    column selects, a later column taking the running columns as the position before left them. -/
def outsAt0 (c : Dev nD) : (n : ℕ) → n < cfg0.N → Quad F
  | 0, hn => ptA0 V c ⟨0, hn⟩ (Nat.zero_mod _)
  | n + 1, hn =>
    if h0 : (n + 1) % 8 = 0 then ptA0 V c ⟨n + 1, hn⟩ h0
    else if h1 : (n + 1) % 8 = 7 then
      ptC0 V c ⟨n + 1, hn⟩ h0 h1 (outsAt0 c n (Nat.lt_of_succ_lt hn)).2.2.1 (outsAt0 c n (Nat.lt_of_succ_lt hn)).2.2.2
    else
      ptB0 V c ⟨n + 1, hn⟩ h0 h1 (outsAt0 c n (Nat.lt_of_succ_lt hn)).2.2.1 (outsAt0 c n (Nat.lt_of_succ_lt hn)).2.2.2

theorem outsAt0_A (c : Dev nD) (t : Fin cfg0.N) (h0 : t.val % 8 = 0) : outsAt0 V c t.val t.isLt = ptA0 V c t h0 := by
  obtain ⟨n, hn⟩ := t
  cases n with
  | zero => rfl
  | succ n => exact dif_pos h0
theorem outsAt0_B (c : Dev nD) (t : Fin cfg0.N) (h0 : ¬t.val % 8 = 0) (h1 : ¬t.val % 8 = 7) :
    outsAt0 V c t.val t.isLt = ptB0 V c t h0 h1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 8 = 0) (h1 : t.val % 8 = 7) :
    outsAt0 V c t.val t.isLt = ptC0 V c t h0 h1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-! ## The region invariant -/

/-- The scoped buffers of the other call, each whole at some contents: they ride through this region untouched. -/
def restR0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class invariant spelt out: the two running columns at anything, the other call's scoped buffers, the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restR0 (F := F) c) ∗ (∃ r, prngReg c r)) := by
  unfold Pipeline.ΦA restR0; rw [scopedRest0_eq]; simp only [scM0_0, scM0_1, owns_whole]; try rfl

theorem PhiA0_split (c : Dev nD) :
    (Pipeline.ΦA spec0 c : sProp 𝕄)
      ⊢ iprop(iprop((∃ d, owns (c : Thread nD τ) scM0_0 fullShare d) ∗ (∃ d, owns (c : Thread nD τ) scM0_1 fullShare d) ∗ restR0 (F := F) c) ∗ (∃ r, prngReg c r)) := by
  rw [PhiA0_eq]
theorem PhiA0_join (c : Dev nD) :
    (iprop(iprop((∃ d, owns (c : Thread nD τ) scM0_0 fullShare d) ∗ (∃ d, owns (c : Thread nD τ) scM0_1 fullShare d) ∗ restR0 (F := F) c) ∗ (∃ r, prngReg c r)) : sProp 𝕄)
      ⊢ Pipeline.ΦA spec0 c := by
  rw [PhiA0_eq]

/-- The invariant before position `n`: before the first point the class's; afterwards the running columns at what the
    point before left in them. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restR0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ restR0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ restR0 (F := F) c) ∗ (∃ r, prngReg c r)) := by
  cases n with
  | zero => exact absurd rfl hz
  | succ n => rfl

/-! ## The proof data -/

/-- The proof data of this pipeline on core `c`: the arrays as the region finds them; after the body at a point each
    input's buffer at its block and the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Region

end Cert.Kernel.Hand

end
-- ==== Proof.KB.R0Body.lean ====
import proofs.«127731_j5145370820780_1_alg».proof.Proof.KB.R0Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: the body obligation at every grid point -/

section Region
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 8000000 in
/-- The body at any point. The inputs' memrefs hold their blocks; the column says which case the point is in; the
    invariant hands the body the running columns at what the point before left (at anything at the very first point)
    and takes them back at this point's contents; away from the last column the output buffers are handed back
    untouched, at the last column they are taken back at what the copy-out stored; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · have hc0 : condA0 (grid0.coords t) := (hcondA0 t).mpr h0
    have hc1 : ¬condC0 (grid0.coords t) := fun h => by have := (hcondC0 t).mp h; omega
    rw [Dat.leavesExact_idle (dat0 V c) 4 t (idleAt0_4 t hc1) (noFlush0_4 t hc1),
      Dat.leavesExact_idle (dat0 V c) 5 t (idleAt0_5 t hc1) (noFlush0_5 t hc1)]
    rw [outsAt0_A V c t h0]
    unfold ptA0 rdP; dsimp only
    by_cases hz : t.val = 0
    · rw [PhiS0_castSucc V c t, PhiS0_zero V c _ _ hz]
      iintro ⟨HP, Ho, ⟨%d0, H0⟩, ⟨%d1, H1⟩, ⟨%d2, H2⟩, ⟨%d3, H3⟩, ⟨%d4, H4⟩, ⟨%d5, H5⟩⟩
      have hsplitA := PhiA0_split (F := F) c
      ihave HQ := hsplitA $$ HP
      icases HQ with ⟨⟨HS0, HS1, HR⟩, Hg⟩
      iapply ((kernelRunA0 c (grid0.coords t) _ _ _ _ _ _ _ _ _ _ _ _ _ _ _ _ hc0 hc1 (iblk0 V c 0 t) (iblk0 V c 1 t) (iblk0 V c 2 t) (iblk0 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA0_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA0_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRunA0 c (grid0.coords t) _ _ _ _ _ _ _ _ _ _ _ _ _ _ _ _ hc0 hc1 (iblk0 V c 0 t) (iblk0 V c 1 t) (iblk0 V c 2 t) (iblk0 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA0_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA0_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hc0 : ¬condA0 (grid0.coords t) := fun h => h0 ((hcondA0 t).mp h)
    by_cases h1 : t.val % 8 = 7
    · have hc1 : condC0 (grid0.coords t) := (hcondC0 t).mpr h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      rw [outsAt0_C V c t h0 h1]
      unfold ptC0 rdP; dsimp only
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRunC0 c (grid0.coords t) _ _ _ _ _ _ _ _ _ _ _ _ _ _ _ _ hc0 hc1 (iblk0 V c 0 t) (iblk0 V c 1 t) (iblk0 V c 2 t) (iblk0 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverC0_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverC0_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC0_4 c _ _ _ _ _ _ _ _ _ _ _ _ _ _ _ _ _ _ _ _ _ _ _ _ _)
      unfold owns; iexists _; isplitr
      swap; · iexact H5
      ipureintro; exact View.read_writes_of_cover _ _ _ _ _ (coverC0_5 c _ _ _ _ _ _ _ _ _ _ _ _ _ _ _ _ _ _ _ _ _ _ _ _ _)
    · have hc1 : ¬condC0 (grid0.coords t) := fun h => h1 ((hcondC0 t).mp h)
      rw [Dat.leavesExact_idle (dat0 V c) 4 t (idleAt0_4 t hc1) (noFlush0_4 t hc1),
        Dat.leavesExact_idle (dat0 V c) 5 t (idleAt0_5 t hc1) (noFlush0_5 t hc1)]
      rw [outsAt0_B V c t h0 h1]
      unfold ptB0 rdP; dsimp only
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRunB0 c (grid0.coords t) _ _ _ _ _ _ _ _ _ _ _ _ _ _ _ _ hc0 hc1 (iblk0 V c 0 t) (iblk0 V c 1 t) (iblk0 V c 2 t) (iblk0 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverB0_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB0_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the running columns' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega)]
  exact (show _ ⊢ _ from by
    iintro ⟨⟨HS0, HS1, HR⟩, Hg⟩
    isplitl [HS0 HS1 HR]
    · isplitl [HS0]; · iexists _; iexact HS0
      isplitl [HS1]; · iexists _; iexact HS1
      iexact HR
    iexact Hg).trans (PhiA0_join (F := F) c)

end Region

end Cert.Kernel.Hand

end
-- ==== Proof.KB.R1Cases.lean ====
import proofs.«127731_j5145370820780_1_alg».proof.Proof.Gen.Kernel.Launch
import proofs.«127731_j5145370820780_1_alg».proof.Proof.Gen.Kernel.Skeleton
import proofs.«127731_j5145370820780_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: which control case a grid point is in, and where the output windows are idle

The grid is 4 × 8, a point `t` has column coordinate `t % 8`. At column 0 the body first resets its two running
columns (the running maximum to the bottom element, the running minimum to the top element); at every column it folds
the tile's row maxima and minima into them; at column 7 it copies them into the two output blocks. So there are three
cases: the first column (A), the middle columns (B), the last column (C). The output windows hold nothing the body
wrote except at column 7, which is also the only column after which they are written back. -/

/-- The first conditional's test, as the body computes it from the column coordinate: "column = 0". -/
abbrev condA1 (i : grid1.Coords) : Prop := (Scalar.cmpi .ne (Scalar.extui (Scalar.cmpi .eq (BitVec.ofNat 32 (i 1).val) 0#32)) 0#32) = 1#1
theorem hcondA1 : ∀ t : Fin cfg1.N, condA1 (grid1.coords t) ↔ t.val % 8 = 0 :=
  (by decide +kernel : ∀ t : Fin grid1.N, condA1 (grid1.coords t) ↔ t.val % 8 = 0)
/-- The second conditional's test: "column = 7". -/
abbrev condC1 (i : grid1.Coords) : Prop := k1_cond2 i = 1#1
theorem hcondC1 : ∀ t : Fin cfg1.N, condC1 (grid1.coords t) ↔ t.val % 8 = 7 :=
  (by decide +kernel : ∀ t : Fin grid1.N, condC1 (grid1.coords t) ↔ t.val % 8 = 7)

/-- The four input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last column the two output windows are idle and not written back; -/
theorem idleAt1_4 : ∀ t : Fin cfg1.N, ¬condC1 (grid1.coords t) → cfg1.idle 4 (grid1.coords t) = true := by decide +kernel
theorem noFlush1_4 : ∀ t : Fin cfg1.N, ¬condC1 (grid1.coords t) → (cfg1.win 4).flush t = false := by decide +kernel
theorem idleAt1_5 : ∀ t : Fin cfg1.N, ¬condC1 (grid1.coords t) → cfg1.idle 5 (grid1.coords t) = true := by decide +kernel
theorem noFlush1_5 : ∀ t : Fin cfg1.N, ¬condC1 (grid1.coords t) → (cfg1.win 5).flush t = false := by decide +kernel
/-- at the last column they are live. -/
theorem liveAt1_4 : ∀ t : Fin cfg1.N, condC1 (grid1.coords t) → cfg1.idle 4 (grid1.coords t) = false := by decide +kernel
theorem liveAt1_5 : ∀ t : Fin cfg1.N, condC1 (grid1.coords t) → cfg1.idle 5 (grid1.coords t) = false := by decide +kernel

/-- The current staging memref of each window at a point, as the pipeline passes it to the body, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
/-- The two running columns: whole scoped buffers of the kernel's own. -/
abbrev scM1_0 : Memref sig .tc .vmem S1024x1 .f32 := Memref.whole cc1_scratch0
abbrev scM1_1 : Memref sig .tc .vmem S1024x1 .f32 := Memref.whole cc1_scratch1
/-- Views through which buffer contents are stated. -/
abbrev VS1_0 : View sig .tc .vmem S1024x1 .f32 := scM1_0.view
abbrev VS1_1 : View sig .tc .vmem S1024x1 .f32 := scM1_1.view
abbrev VO1_4 : View sig .tc .vmem S1024x1 .f32 := (Memref.whole cc1_stg4_0 : Memref sig .tc .vmem S1024x1 .f32).view
abbrev VO1_5 : View sig .tc .vmem S1024x1 .f32 := (Memref.whole cc1_stg5_0 : Memref sig .tc .vmem S1024x1 .f32).view

end Cert.Kernel.Hand

end
-- ==== Proof.KB.R1RunA.lean ====
import proofs.«127731_j5145370820780_1_alg».proof.Proof.KB.R1Cases
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point of the FIRST column (the reset taken, the copy-out not): on whole memrefs, the four input blocks at
    their contents, the two idle output blocks at any contents (handed back untouched) and the two running columns at
    anything, it runs to the continuation with the inputs and outputs as they were and each running column holding the
    pieces the stores left — found by running the body; the pieces are the witness. -/
noncomputable def kernelRunA1 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : condA1 i) (hc1 : ¬condC1 i)
    (x0 : Vec F S1024x1024 .f32) (x1 : Vec F S512x1024 .f32) (x2 : Vec F S1024x1 .i32) (x3 : Vec F S1x512 .i32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__mining_kernel i arg2 harg2 arg3 harg3 arg4 harg4 arg5 harg5 arg6 harg6 arg7 harg7 arg8 harg8 arg9 harg9) K } := by
  refine ⟨?_, ?_, fun xi4 xi5 E K => ?run⟩
  case run =>
    simp only [cc1__mining_kernel_eq_skeleton]; unfold cc1__mining_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.KB.R1RunB.lean ====
import proofs.«127731_j5145370820780_1_alg».proof.Proof.KB.R1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point of a MIDDLE column (neither conditional taken): as in the first column, but the two running
    columns are handed over at the contents the point before left (`xs0`, `xs1`). -/
noncomputable def kernelRunB1 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : ¬condC1 i)
    (x0 : Vec F S1024x1024 .f32) (x1 : Vec F S512x1024 .f32) (x2 : Vec F S1024x1 .i32) (x3 : Vec F S1x512 .i32) (xs0 xs1 : Vec F S1024x1 .f32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__mining_kernel i arg2 harg2 arg3 harg3 arg4 harg4 arg5 harg5 arg6 harg6 arg7 harg7 arg8 harg8 arg9 harg9) K } := by
  refine ⟨?_, ?_, fun xi4 xi5 E K => ?run⟩
  case run =>
    simp only [cc1__mining_kernel_eq_skeleton]; unfold cc1__mining_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.KB.R1RunC.lean ====
import proofs.«127731_j5145370820780_1_alg».proof.Proof.KB.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point of the LAST column (the reset not taken, the copy-out taken): the running columns at what the
    point before left, the two output blocks at anything; it ends with each output block and each running column
    holding the pieces its stores left. -/
noncomputable def kernelRunC1 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : condC1 i)
    (x0 : Vec F S1024x1024 .f32) (x1 : Vec F S512x1024 .f32) (x2 : Vec F S1024x1 .i32) (x3 : Vec F S1x512 .i32) (xs0 xs1 : Vec F S1024x1 .f32) :
    Σ' (L4 : List (View.Piece (Elt F) S1024x1 .f32)) (L5 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__mining_kernel i arg2 harg2 arg3 harg3 arg4 harg4 arg5 harg5 arg6 harg6 arg7 harg7 arg8 harg8 arg9 harg9) K } := by
  refine ⟨?_, ?_, ?_, ?_, fun E K => ?run⟩
  case run =>
    simp only [cc1__mining_kernel_eq_skeleton]; unfold cc1__mining_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.Kernel.Hand

end
-- ==== Proof.KB.R1Frame.lean ====
import proofs.«127731_j5145370820780_1_alg».proof.Proof.KB.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1 at the contents `V` it is entered from: what its buffers hold after every grid point

`V c b` is what buffer `b` of core `c` holds when the region is entered. Everything below is stated at any `V`. -/

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: the pieces its stores wrote, read back -/

/-- A list of pieces written over anything and read back (when the pieces cover the block the start does not matter). -/
def rdP1 (L : List (View.Piece (Elt F) S1024x1 .f32)) : Vec F S1024x1 .f32 := VS1_0.read (Elt F) (VS1_0.writes (Elt F) VS1_0.junk L)

theorem scoverA1_0 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : condA1 i) (hc1 : ¬condC1 i) (x0 : Vec F S1024x1024 .f32) (x1 : Vec F S512x1024 .f32) (x2 : Vec F S1024x1 .i32) (x3 : Vec F S1x512 .i32) (y : S1024x1.Idx) :
    ∃ pc ∈ (kernelRunA1 c i arg2 harg2 arg3 harg3 arg4 harg4 arg5 harg5 arg6 harg6 arg7 harg7 arg8 harg8 arg9 harg9 hc0 hc1 x0 x1 x2 x3).1, y ∈ pc.1.set :=
  View.cover_of_tiledL (kernelRunA1 c i arg2 harg2 arg3 harg3 arg4 harg4 arg5 harg5 arg6 harg6 arg7 harg7 arg8 harg8 arg9 harg9 hc0 hc1 x0 x1 x2 x3).1 S1024x1.size (by sl_kernel_rfl) y
theorem scoverA1_1 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : condA1 i) (hc1 : ¬condC1 i) (x0 : Vec F S1024x1024 .f32) (x1 : Vec F S512x1024 .f32) (x2 : Vec F S1024x1 .i32) (x3 : Vec F S1x512 .i32) (y : S1024x1.Idx) :
    ∃ pc ∈ (kernelRunA1 c i arg2 harg2 arg3 harg3 arg4 harg4 arg5 harg5 arg6 harg6 arg7 harg7 arg8 harg8 arg9 harg9 hc0 hc1 x0 x1 x2 x3).2.1, y ∈ pc.1.set :=
  View.cover_of_tiledL (kernelRunA1 c i arg2 harg2 arg3 harg3 arg4 harg4 arg5 harg5 arg6 harg6 arg7 harg7 arg8 harg8 arg9 harg9 hc0 hc1 x0 x1 x2 x3).2.1 S1024x1.size (by sl_kernel_rfl) y
theorem scoverB1_0 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : ¬condC1 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunB1 c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRunB1 c i arg2 harg2 arg3 harg3 arg4 harg4 arg5 harg5 arg6 harg6 arg7 harg7 arg8 harg8 arg9 harg9 hc0 hc1 x0 x1 x2 x3 xs0 xs1).1 S1024x1.size (by sl_kernel_rfl) y
theorem scoverB1_1 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : ¬condC1 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunB1 c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRunB1 c i arg2 harg2 arg3 harg3 arg4 harg4 arg5 harg5 arg6 harg6 arg7 harg7 arg8 harg8 arg9 harg9 hc0 hc1 x0 x1 x2 x3 xs0 xs1).2.1 S1024x1.size (by sl_kernel_rfl) y
theorem coverC1_4 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : condC1 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunC1 c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRunC1 c i arg2 harg2 arg3 harg3 arg4 harg4 arg5 harg5 arg6 harg6 arg7 harg7 arg8 harg8 arg9 harg9 hc0 hc1 x0 x1 x2 x3 xs0 xs1).1 S1024x1.size (by sl_kernel_rfl) y
theorem coverC1_5 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : condC1 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunC1 c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRunC1 c i arg2 harg2 arg3 harg3 arg4 harg4 arg5 harg5 arg6 harg6 arg7 harg7 arg8 harg8 arg9 harg9 hc0 hc1 x0 x1 x2 x3 xs0 xs1).2.1 S1024x1.size (by sl_kernel_rfl) y
theorem scoverC1_0 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : condC1 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunC1 c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRunC1 c i arg2 harg2 arg3 harg3 arg4 harg4 arg5 harg5 arg6 harg6 arg7 harg7 arg8 harg8 arg9 harg9 hc0 hc1 x0 x1 x2 x3 xs0 xs1).2.2.1 S1024x1.size (by sl_kernel_rfl) y
theorem scoverC1_1 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : condC1 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunC1 c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRunC1 c i arg2 harg2 arg3 harg3 arg4 harg4 arg5 harg5 arg6 harg6 arg7 harg7 arg8 harg8 arg9 harg9 hc0 hc1 x0 x1 x2 x3 xs0 xs1).2.2.2.1 S1024x1.size (by sl_kernel_rfl) y

/-- The four buffers after a point, in the order: output block 4, output block 5, running maximum, running minimum. -/
abbrev Quad1 (F : FTy → Type) [FloatOps F] : Type := Vec F S1024x1 .f32 × Vec F S1024x1 .f32 × Vec F S1024x1 .f32 × Vec F S1024x1 .f32

/-- A point of the first column: the outputs hold nothing of the body's (a placeholder nothing consults); the running
    columns what the reset and the first fold left. -/
def ptA1 (c : Dev nD) (t : Fin cfg1.N) (h0 : t.val % 8 = 0) : Quad1 F :=
  have hc0 : condA1 (grid1.coords t) := (hcondA1 t).mpr h0
  have hc1 : ¬condC1 (grid1.coords t) := fun h => by have := (hcondC1 t).mp h; omega
  (rdP1 [], rdP1 [],
   rdP1 (kernelRunA1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (iblk1 V c 0 t) (iblk1 V c 1 t) (iblk1 V c 2 t) (iblk1 V c 3 t)).1,
   rdP1 (kernelRunA1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (iblk1 V c 0 t) (iblk1 V c 1 t) (iblk1 V c 2 t) (iblk1 V c 3 t)).2.1)
/-- A point of a middle column, from what the point before left in the running columns. -/
def ptB1 (c : Dev nD) (t : Fin cfg1.N) (h0 : ¬t.val % 8 = 0) (h1 : ¬t.val % 8 = 7) (xs0 xs1 : Vec F S1024x1 .f32) : Quad1 F :=
  have hc0 : ¬condA1 (grid1.coords t) := fun h => h0 ((hcondA1 t).mp h)
  have hc1 : ¬condC1 (grid1.coords t) := fun h => h1 ((hcondC1 t).mp h)
  (rdP1 [], rdP1 [],
   rdP1 (kernelRunB1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (iblk1 V c 0 t) (iblk1 V c 1 t) (iblk1 V c 2 t) (iblk1 V c 3 t) xs0 xs1).1,
   rdP1 (kernelRunB1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (iblk1 V c 0 t) (iblk1 V c 1 t) (iblk1 V c 2 t) (iblk1 V c 3 t) xs0 xs1).2.1)
/-- A point of the last column. -/
def ptC1 (c : Dev nD) (t : Fin cfg1.N) (h0 : ¬t.val % 8 = 0) (h1 : t.val % 8 = 7) (xs0 xs1 : Vec F S1024x1 .f32) : Quad1 F :=
  have hc0 : ¬condA1 (grid1.coords t) := fun h => h0 ((hcondA1 t).mp h)
  have hc1 : condC1 (grid1.coords t) := (hcondC1 t).mpr h1
  (rdP1 (kernelRunC1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (iblk1 V c 0 t) (iblk1 V c 1 t) (iblk1 V c 2 t) (iblk1 V c 3 t) xs0 xs1).1,
   rdP1 (kernelRunC1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (iblk1 V c 0 t) (iblk1 V c 1 t) (iblk1 V c 2 t) (iblk1 V c 3 t) xs0 xs1).2.1,
   rdP1 (kernelRunC1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (iblk1 V c 0 t) (iblk1 V c 1 t) (iblk1 V c 2 t) (iblk1 V c 3 t) xs0 xs1).2.2.1,
   rdP1 (kernelRunC1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (iblk1 V c 0 t) (iblk1 V c 1 t) (iblk1 V c 2 t) (iblk1 V c 3 t) xs0 xs1).2.2.2.1)

/-- THE ACCUMULATION: the four buffers after the body at position `n`, by recursion on the position — the case the
    column selects, a later column taking the running columns as the position before left them. -/
def outsAt1 (c : Dev nD) : (n : ℕ) → n < cfg1.N → Quad1 F
  | 0, hn => ptA1 V c ⟨0, hn⟩ (Nat.zero_mod _)
  | n + 1, hn =>
    if h0 : (n + 1) % 8 = 0 then ptA1 V c ⟨n + 1, hn⟩ h0
    else if h1 : (n + 1) % 8 = 7 then
      ptC1 V c ⟨n + 1, hn⟩ h0 h1 (outsAt1 c n (Nat.lt_of_succ_lt hn)).2.2.1 (outsAt1 c n (Nat.lt_of_succ_lt hn)).2.2.2
    else
      ptB1 V c ⟨n + 1, hn⟩ h0 h1 (outsAt1 c n (Nat.lt_of_succ_lt hn)).2.2.1 (outsAt1 c n (Nat.lt_of_succ_lt hn)).2.2.2

theorem outsAt1_A (c : Dev nD) (t : Fin cfg1.N) (h0 : t.val % 8 = 0) : outsAt1 V c t.val t.isLt = ptA1 V c t h0 := by
  obtain ⟨n, hn⟩ := t
  cases n with
  | zero => rfl
  | succ n => exact dif_pos h0
theorem outsAt1_B (c : Dev nD) (t : Fin cfg1.N) (h0 : ¬t.val % 8 = 0) (h1 : ¬t.val % 8 = 7) :
    outsAt1 V c t.val t.isLt = ptB1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)
theorem outsAt1_C (c : Dev nD) (t : Fin cfg1.N) (h0 : ¬t.val % 8 = 0) (h1 : t.val % 8 = 7) :
    outsAt1 V c t.val t.isLt = ptC1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-! ## The region invariant -/

/-- The scoped buffers of the other call, each whole at some contents: they ride through this region untouched. -/
def restR1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The class invariant spelt out: the two running columns at anything, the other call's scoped buffers, the
    generator register at some state (the scoped buffers re-ordered: the columns come last in the launch's list). -/
theorem PhiA1_split (c : Dev nD) :
    (Pipeline.ΦA spec1 c : sProp 𝕄)
      ⊢ iprop(iprop((∃ d, owns (c : Thread nD τ) scM1_0 fullShare d) ∗ (∃ d, owns (c : Thread nD τ) scM1_1 fullShare d) ∗ restR1 (F := F) c) ∗ (∃ r, prngReg c r)) := by
  unfold Pipeline.ΦA restR1; rw [scopedRest1_eq]; simp only [scM1_0, scM1_1, owns_whole]
  iintro ⟨⟨A1, A2, A3, A4, A5, A6, A7, A8, A9, A10, A11, A12, A13, A14, S0, S1⟩, Hg⟩
  isplitr [Hg]
  · isplitl [S0]; · iexact S0
    isplitl [S1]; · iexact S1
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    iexact A14
  iexact Hg
theorem PhiA1_join (c : Dev nD) :
    (iprop(iprop((∃ d, owns (c : Thread nD τ) scM1_0 fullShare d) ∗ (∃ d, owns (c : Thread nD τ) scM1_1 fullShare d) ∗ restR1 (F := F) c) ∗ (∃ r, prngReg c r)) : sProp 𝕄)
      ⊢ Pipeline.ΦA spec1 c := by
  unfold Pipeline.ΦA restR1; rw [scopedRest1_eq]; simp only [scM1_0, scM1_1, owns_whole]
  iintro ⟨⟨S0, S1, A1, A2, A3, A4, A5, A6, A7, A8, A9, A10, A11, A12, A13, A14⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [S0]; · iexact S0
    iexact S1
  iexact Hg

/-- The invariant before position `n`: before the first point the class's; afterwards the running columns at what the
    point before left in them. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2.1) ∗ owns (c : Thread nD τ) scM1_1 fullShare ((outsAt1 V c n hn).2.2.2) ∗ restR1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.2.1) ∗ owns (c : Thread nD τ) scM1_1 fullShare ((outsAt1 V c n hn).2.2.2) ∗ restR1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2.1) ∗ owns (c : Thread nD τ) scM1_1 fullShare ((outsAt1 V c (n - 1) (by omega)).2.2.2) ∗ restR1 (F := F) c) ∗ (∃ r, prngReg c r)) := by
  cases n with
  | zero => exact absurd rfl hz
  | succ n => rfl

/-! ## The proof data -/

/-- The proof data of this pipeline on core `c`: the arrays as the region finds them; after the body at a point each
    input's buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Region

end Cert.Kernel.Hand

end
-- ==== Proof.KB.R1Body.lean ====
import proofs.«127731_j5145370820780_1_alg».proof.Proof.KB.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: the body obligation at every grid point -/

section Region
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 8000000 in
/-- The body at any point. The inputs' memrefs hold their blocks; the column says which case the point is in; the
    invariant hands the body the running columns at what the point before left (at anything at the very first point)
    and takes them back at this point's contents; away from the last column the output buffers are handed back
    untouched, at the last column they are taken back at what the copy-out stored; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · have hc0 : condA1 (grid1.coords t) := (hcondA1 t).mpr h0
    have hc1 : ¬condC1 (grid1.coords t) := fun h => by have := (hcondC1 t).mp h; omega
    rw [Dat.leavesExact_idle (dat1 V c) 4 t (idleAt1_4 t hc1) (noFlush1_4 t hc1),
      Dat.leavesExact_idle (dat1 V c) 5 t (idleAt1_5 t hc1) (noFlush1_5 t hc1)]
    rw [outsAt1_A V c t h0]
    unfold ptA1 rdP1; dsimp only
    by_cases hz : t.val = 0
    · rw [PhiS1_castSucc V c t, PhiS1_zero V c _ _ hz]
      iintro ⟨HP, Ho, ⟨%d0, H0⟩, ⟨%d1, H1⟩, ⟨%d2, H2⟩, ⟨%d3, H3⟩, ⟨%d4, H4⟩, ⟨%d5, H5⟩⟩
      have hsplitA := PhiA1_split (F := F) c
      ihave HQ := hsplitA $$ HP
      icases HQ with ⟨⟨HS0, HS1, HR⟩, Hg⟩
      iapply ((kernelRunA1 c (grid1.coords t) _ _ _ _ _ _ _ _ _ _ _ _ _ _ _ _ hc0 hc1 (iblk1 V c 0 t) (iblk1 V c 1 t) (iblk1 V c 2 t) (iblk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA1_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA1_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS1_castSucc V c t, PhiS1_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRunA1 c (grid1.coords t) _ _ _ _ _ _ _ _ _ _ _ _ _ _ _ _ hc0 hc1 (iblk1 V c 0 t) (iblk1 V c 1 t) (iblk1 V c 2 t) (iblk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA1_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA1_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hc0 : ¬condA1 (grid1.coords t) := fun h => h0 ((hcondA1 t).mp h)
    by_cases h1 : t.val % 8 = 7
    · have hc1 : condC1 (grid1.coords t) := (hcondC1 t).mpr h1
      rw [show (dat1 V c).leavesExact 4 t = owns (c : Thread nD τ) (ms1_4 t) fullShare ((dat1 V c).after 4 t) from by
        unfold Dat.leavesExact; rw [liveAt1_4 t hc1], after1_4]
      rw [show (dat1 V c).leavesExact 5 t = owns (c : Thread nD τ) (ms1_5 t) fullShare ((dat1 V c).after 5 t) from by
        unfold Dat.leavesExact; rw [liveAt1_5 t hc1], after1_5]
      rw [outsAt1_C V c t h0 h1]
      unfold ptC1 rdP1; dsimp only
      rw [PhiS1_castSucc V c t, PhiS1_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRunC1 c (grid1.coords t) _ _ _ _ _ _ _ _ _ _ _ _ _ _ _ _ hc0 hc1 (iblk1 V c 0 t) (iblk1 V c 1 t) (iblk1 V c 2 t) (iblk1 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverC1_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverC1_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC1_4 c _ _ _ _ _ _ _ _ _ _ _ _ _ _ _ _ _ _ _ _ _ _ _ _ _)
      unfold owns; iexists _; isplitr
      swap; · iexact H5
      ipureintro; exact View.read_writes_of_cover _ _ _ _ _ (coverC1_5 c _ _ _ _ _ _ _ _ _ _ _ _ _ _ _ _ _ _ _ _ _ _ _ _ _)
    · have hc1 : ¬condC1 (grid1.coords t) := fun h => h1 ((hcondC1 t).mp h)
      rw [Dat.leavesExact_idle (dat1 V c) 4 t (idleAt1_4 t hc1) (noFlush1_4 t hc1),
        Dat.leavesExact_idle (dat1 V c) 5 t (idleAt1_5 t hc1) (noFlush1_5 t hc1)]
      rw [outsAt1_B V c t h0 h1]
      unfold ptB1 rdP1; dsimp only
      rw [PhiS1_castSucc V c t, PhiS1_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRunB1 c (grid1.coords t) _ _ _ _ _ _ _ _ _ _ _ _ _ _ _ _ hc0 hc1 (iblk1 V c 0 t) (iblk1 V c 1 t) (iblk1 V c 2 t) (iblk1 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverB1_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB1_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the running columns' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  exact (show _ ⊢ _ from by
    iintro ⟨⟨HS0, HS1, HR⟩, Hg⟩
    isplitl [HS0 HS1 HR]
    · isplitl [HS0]; · iexists _; iexact HS0
      isplitl [HS1]; · iexists _; iexact HS1
      iexact HR
    iexact Hg).trans (PhiA1_join (F := F) c)

end Region

end Cert.Kernel.Hand

end
-- ==== Proof.KB.Run.lean ====
import proofs.«127731_j5145370820780_1_alg».proof.Proof.KB.R0Body
import proofs.«127731_j5145370820780_1_alg».proof.Proof.KB.R1Body
import proofs.«127731_j5145370820780_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run: @main's nine segments from the launch to the return

The buffer contents at each segment boundary are a fold from the launch memory: a stretch of host operations applies
them; a region replaces its arrays by what its write-backs leave. Every weakly fair execution ends with every unscoped
buffer at the last boundary's contents (`run_all`). -/

variable (m : (ℓ : Loc nD τ sig) → Buf (Elt F) ℓ) (ρ : Dev nD → PrngReg)

/-- Core `c`'s buffers at launch, -/
abbrev W0 : Dev nD → Valuation τ sig (Elt F) := fun c b => (s₀ m ρ).mem ((c : Dev nD), b)
/-- after the first stretch of host operations (region 0's entry), -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- after the second stretch (region 1's entry), -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- and after each of the five stretches that follow. -/
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev W8 : Dev nD → Valuation τ sig (Elt F) := fun c => StableHlo.after hostOps2_3 (W7 m ρ c)
abbrev W9 : Dev nD → Valuation τ sig (Elt F) := fun c => StableHlo.after hostOps2_4 (W8 m ρ c)

/-! ## The proof data family and the thread state -/

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W9 m ρ c) ∗ ∃ r, prngReg c r)

/-! ## The regions as segments -/

-- a library lemma stated over the pinned configuration unifies with the printed one only when unification may unfold plain
-- definitions in a metavariable's type
set_option backward.isDefEq.respectTransparency.types false in
/-- REGION 0 as a segment: entered from every unscoped buffer at `W1`, left at `W2`. Its arrays are split out of
    the unscoped buffers and put back at the contents the write-backs leave; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec0 c from by
    unfold Pipeline.ΦA
    iintro ⟨Hp, -, Hr⟩
    isplitl [Hr]; · iexact Hr
    iexact Hp).trans (hin0 (V1 m ρ) c)
  hout c := (hout0 (V1 m ρ) c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- REGION 1 as a segment: entered from every unscoped buffer at `W3`, left at `W4`. Its arrays are split out of
    the unscoped buffers and put back at the contents the write-backs leave; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec1 c from by
    unfold Pipeline.ΦA
    iintro ⟨Hp, -, Hr⟩
    isplitl [Hr]; · iexact Hr
    iexact Hp).trans (hin1 (V3 m ρ) c)
  hout c := (hout1 (V3 m ρ) c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last stretch's segment ends at the last thread state beside the core owing nothing. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .host (hseg hostOps2_4 hostOps2_4_sub hostOps2_4_fresh (W8 m ρ)) ]
/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of @main on the TensorCores terminates,
    nothing faulting, and every final state has every unscoped buffer at the last boundary's contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.Kernel.Hand

end
-- ==== Proof.KB.FrameOf.lean ====
import proofs.«127731_j5145370820780_1_alg».proof.Proof.KB.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The frame claim, read off the run

No stretch of host operations writes an argument and no region's windows move one, so the last boundary's contents
at an argument's buffer walk back to the launch memory. -/

variable (m : (ℓ : Loc nD τ sig) → Buf (Elt F) ℓ) (ρ : Dev nD → PrngReg)

/-- A buffer that no stretch writes and that is no array of either region ends as launched. -/
theorem W9_keep (c : Dev nD) (b : Ref sig .tc) (h0 : b ∉ hostOps0_W) (h1 : b ∉ hostOps1_W) (h2 : b ∉ hostOps2_W)
    (h21 : b ∉ hostOps2_1_W) (h22 : b ∉ hostOps2_2_W) (h23 : b ∉ hostOps2_3_W) (h24 : b ∉ hostOps2_4_W)
    (hs0 : ∀ w, Pipeline.arrRef spec0 w ≠ b) (hs1 : ∀ w, Pipeline.arrRef spec1 w ≠ b) :
    W9 m ρ c (Proc.devRef .tc b) = m ((c : Thread nD τ).loc b) :=
  calc W9 m ρ c (Proc.devRef .tc b)
    _ = W8 m ρ c (Proc.devRef .tc b) := StableHlo.after_of_writes_sub hostOps2_4 _ hostOps2_4_writes h24
    _ = W7 m ρ c (Proc.devRef .tc b) := StableHlo.after_of_writes_sub hostOps2_3 _ hostOps2_3_writes h23
    _ = W6 m ρ c (Proc.devRef .tc b) := StableHlo.after_of_writes_sub hostOps2_2 _ hostOps2_2_writes h22
    _ = W5 m ρ c (Proc.devRef .tc b) := StableHlo.after_of_writes_sub hostOps2_1 _ hostOps2_1_writes h21
    _ = W4 m ρ c (Proc.devRef .tc b) := StableHlo.after_of_writes_sub hostOps2 _ hostOps2_writes h2
    _ = W3 m ρ c (Proc.devRef .tc b) := W4_of_ne m ρ c b hs1
    _ = W2 m ρ c (Proc.devRef .tc b) := StableHlo.after_of_writes_sub hostOps1 _ hostOps1_writes h1
    _ = W1 m ρ c (Proc.devRef .tc b) := W2_of_ne m ρ c b hs0
    _ = W0 m ρ c (Proc.devRef .tc b) := StableHlo.after_of_writes_sub hostOps0 _ hostOps0_writes h0
    _ = m ((c : Thread nD τ).loc b) := rfl

/-- THE FRAME: every weakly fair execution of @main terminates, nothing faulting, and the two argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W9_keep m ρ c main_arg0 (by decide) (by decide) (by decide) (by decide) (by decide) (by decide) (by decide) (by decide) (by decide)),
     (h c _ (mem_uc main_arg1 (by decide))).trans (W9_keep m ρ c main_arg1 (by decide) (by decide) (by decide) (by decide) (by decide) (by decide) (by decide) (by decide) (by decide))⟩) (run_all m ρ)

end Cert.Kernel.Hand

end
-- ==== Proof.KI.R0Cases.lean ====
import proofs.«127731_j5145370820780_1_alg».proof.Proof.Gen.KernelIdeal.Launch
import proofs.«127731_j5145370820780_1_alg».proof.Proof.Gen.KernelIdeal.Skeleton
import proofs.«127731_j5145370820780_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: which control case a grid point is in, and where the output windows are idle

The grid is 4 × 8, a point `t` has column coordinate `t % 8`. At column 0 the body first resets its two running
columns (the running maximum to the bottom element, the running minimum to the top element); at every column it folds
the tile's row maxima and minima into them; at column 7 it copies them into the two output blocks. So there are three
cases: the first column (A), the middle columns (B), the last column (C). The output windows hold nothing the body
wrote except at column 7, which is also the only column after which they are written back. -/

/-- The first conditional's test, as the body computes it from the column coordinate: "column = 0". -/
abbrev condA0 (i : grid0.Coords) : Prop := (Scalar.cmpi .ne (Scalar.extui (Scalar.cmpi .eq (BitVec.ofNat 32 (i 1).val) 0#32)) 0#32) = 1#1
theorem hcondA0 : ∀ t : Fin cfg0.N, condA0 (grid0.coords t) ↔ t.val % 8 = 0 :=
  (by decide +kernel : ∀ t : Fin grid0.N, condA0 (grid0.coords t) ↔ t.val % 8 = 0)
/-- The second conditional's test: "column = 7". -/
abbrev condC0 (i : grid0.Coords) : Prop := k0_cond2 i = 1#1
theorem hcondC0 : ∀ t : Fin cfg0.N, condC0 (grid0.coords t) ↔ t.val % 8 = 7 :=
  (by decide +kernel : ∀ t : Fin grid0.N, condC0 (grid0.coords t) ↔ t.val % 8 = 7)

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column the two output windows are idle and not written back; -/
theorem idleAt0_4 : ∀ t : Fin cfg0.N, ¬condC0 (grid0.coords t) → cfg0.idle 4 (grid0.coords t) = true := by decide +kernel
theorem noFlush0_4 : ∀ t : Fin cfg0.N, ¬condC0 (grid0.coords t) → (cfg0.win 4).flush t = false := by decide +kernel
theorem idleAt0_5 : ∀ t : Fin cfg0.N, ¬condC0 (grid0.coords t) → cfg0.idle 5 (grid0.coords t) = true := by decide +kernel
theorem noFlush0_5 : ∀ t : Fin cfg0.N, ¬condC0 (grid0.coords t) → (cfg0.win 5).flush t = false := by decide +kernel
/-- at the last column they are live. -/
theorem liveAt0_4 : ∀ t : Fin cfg0.N, condC0 (grid0.coords t) → cfg0.idle 4 (grid0.coords t) = false := by decide +kernel
theorem liveAt0_5 : ∀ t : Fin cfg0.N, condC0 (grid0.coords t) → cfg0.idle 5 (grid0.coords t) = false := by decide +kernel

/-- The current staging memref of each window at a point, as the pipeline passes it to the body, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The two running columns: whole scoped buffers of the kernel's own. -/
abbrev scM0_0 : Memref sig .tc .vmem S1024x1 .f32 := Memref.whole cc0_scratch0
abbrev scM0_1 : Memref sig .tc .vmem S1024x1 .f32 := Memref.whole cc0_scratch1
/-- Views through which buffer contents are stated. -/
abbrev VS0_0 : View sig .tc .vmem S1024x1 .f32 := scM0_0.view
abbrev VS0_1 : View sig .tc .vmem S1024x1 .f32 := scM0_1.view
abbrev VO0_4 : View sig .tc .vmem S1024x1 .f32 := (Memref.whole cc0_stg4_0 : Memref sig .tc .vmem S1024x1 .f32).view
abbrev VO0_5 : View sig .tc .vmem S1024x1 .f32 := (Memref.whole cc0_stg5_0 : Memref sig .tc .vmem S1024x1 .f32).view

end Cert.KernelIdeal.Hand

end
-- ==== Proof.KI.R0RunA.lean ====
import proofs.«127731_j5145370820780_1_alg».proof.Proof.KI.R0Cases
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point of the FIRST column (the reset taken, the copy-out not): on whole memrefs, the four input blocks at
    their contents, the two idle output blocks at any contents (handed back untouched) and the two running columns at
    anything, it runs to the continuation with the inputs and outputs as they were and each running column holding the
    pieces the stores left — found by running the body; the pieces are the witness. -/
noncomputable def kernelRunA0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : condA0 i) (hc1 : ¬condC0 i)
    (x0 : Vec F S1024x1024 .f32) (x1 : Vec F S512x1024 .f32) (x2 : Vec F S1024x1 .i32) (x3 : Vec F S1x512 .i32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__mining_kernel i arg2 harg2 arg3 harg3 arg4 harg4 arg5 harg5 arg6 harg6 arg7 harg7 arg8 harg8 arg9 harg9) K } := by
  refine ⟨?_, ?_, fun xi4 xi5 E K => ?run⟩
  case run =>
    simp only [cc0__mining_kernel_eq_skeleton]; unfold cc0__mining_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.R0RunB.lean ====
import proofs.«127731_j5145370820780_1_alg».proof.Proof.KI.R0RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point of a MIDDLE column (neither conditional taken): as in the first column, but the two running
    columns are handed over at the contents the point before left (`xs0`, `xs1`). -/
noncomputable def kernelRunB0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : ¬condC0 i)
    (x0 : Vec F S1024x1024 .f32) (x1 : Vec F S512x1024 .f32) (x2 : Vec F S1024x1 .i32) (x3 : Vec F S1x512 .i32) (xs0 xs1 : Vec F S1024x1 .f32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__mining_kernel i arg2 harg2 arg3 harg3 arg4 harg4 arg5 harg5 arg6 harg6 arg7 harg7 arg8 harg8 arg9 harg9) K } := by
  refine ⟨?_, ?_, fun xi4 xi5 E K => ?run⟩
  case run =>
    simp only [cc0__mining_kernel_eq_skeleton]; unfold cc0__mining_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.R0RunC.lean ====
import proofs.«127731_j5145370820780_1_alg».proof.Proof.KI.R0RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point of the LAST column (the reset not taken, the copy-out taken): the running columns at what the
    point before left, the two output blocks at anything; it ends with each output block and each running column
    holding the pieces its stores left. -/
noncomputable def kernelRunC0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : condC0 i)
    (x0 : Vec F S1024x1024 .f32) (x1 : Vec F S512x1024 .f32) (x2 : Vec F S1024x1 .i32) (x3 : Vec F S1x512 .i32) (xs0 xs1 : Vec F S1024x1 .f32) :
    Σ' (L4 : List (View.Piece (Elt F) S1024x1 .f32)) (L5 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__mining_kernel i arg2 harg2 arg3 harg3 arg4 harg4 arg5 harg5 arg6 harg6 arg7 harg7 arg8 harg8 arg9 harg9) K } := by
  refine ⟨?_, ?_, ?_, ?_, fun E K => ?run⟩
  case run =>
    simp only [cc0__mining_kernel_eq_skeleton]; unfold cc0__mining_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Hand

end
-- ==== Proof.KI.R0Frame.lean ====
import proofs.«127731_j5145370820780_1_alg».proof.Proof.KI.R0RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0 at the contents `V` it is entered from: what its buffers hold after every grid point

`V c b` is what buffer `b` of core `c` holds when the region is entered. Everything below is stated at any `V`. -/

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: the pieces its stores wrote, read back -/

/-- A list of pieces written over anything and read back (when the pieces cover the block the start does not matter). -/
def rdP (L : List (View.Piece (Elt F) S1024x1 .f32)) : Vec F S1024x1 .f32 := VS0_0.read (Elt F) (VS0_0.writes (Elt F) VS0_0.junk L)

theorem scoverA0_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : condA0 i) (hc1 : ¬condC0 i) (x0 : Vec F S1024x1024 .f32) (x1 : Vec F S512x1024 .f32) (x2 : Vec F S1024x1 .i32) (x3 : Vec F S1x512 .i32) (y : S1024x1.Idx) :
    ∃ pc ∈ (kernelRunA0 c i arg2 harg2 arg3 harg3 arg4 harg4 arg5 harg5 arg6 harg6 arg7 harg7 arg8 harg8 arg9 harg9 hc0 hc1 x0 x1 x2 x3).1, y ∈ pc.1.set :=
  View.cover_of_tiledL (kernelRunA0 c i arg2 harg2 arg3 harg3 arg4 harg4 arg5 harg5 arg6 harg6 arg7 harg7 arg8 harg8 arg9 harg9 hc0 hc1 x0 x1 x2 x3).1 S1024x1.size (by sl_kernel_rfl) y
theorem scoverA0_1 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : condA0 i) (hc1 : ¬condC0 i) (x0 : Vec F S1024x1024 .f32) (x1 : Vec F S512x1024 .f32) (x2 : Vec F S1024x1 .i32) (x3 : Vec F S1x512 .i32) (y : S1024x1.Idx) :
    ∃ pc ∈ (kernelRunA0 c i arg2 harg2 arg3 harg3 arg4 harg4 arg5 harg5 arg6 harg6 arg7 harg7 arg8 harg8 arg9 harg9 hc0 hc1 x0 x1 x2 x3).2.1, y ∈ pc.1.set :=
  View.cover_of_tiledL (kernelRunA0 c i arg2 harg2 arg3 harg3 arg4 harg4 arg5 harg5 arg6 harg6 arg7 harg7 arg8 harg8 arg9 harg9 hc0 hc1 x0 x1 x2 x3).2.1 S1024x1.size (by sl_kernel_rfl) y
theorem scoverB0_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : ¬condC0 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunB0 c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRunB0 c i arg2 harg2 arg3 harg3 arg4 harg4 arg5 harg5 arg6 harg6 arg7 harg7 arg8 harg8 arg9 harg9 hc0 hc1 x0 x1 x2 x3 xs0 xs1).1 S1024x1.size (by sl_kernel_rfl) y
theorem scoverB0_1 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : ¬condC0 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunB0 c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRunB0 c i arg2 harg2 arg3 harg3 arg4 harg4 arg5 harg5 arg6 harg6 arg7 harg7 arg8 harg8 arg9 harg9 hc0 hc1 x0 x1 x2 x3 xs0 xs1).2.1 S1024x1.size (by sl_kernel_rfl) y
theorem coverC0_4 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : condC0 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunC0 c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRunC0 c i arg2 harg2 arg3 harg3 arg4 harg4 arg5 harg5 arg6 harg6 arg7 harg7 arg8 harg8 arg9 harg9 hc0 hc1 x0 x1 x2 x3 xs0 xs1).1 S1024x1.size (by sl_kernel_rfl) y
theorem coverC0_5 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : condC0 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunC0 c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRunC0 c i arg2 harg2 arg3 harg3 arg4 harg4 arg5 harg5 arg6 harg6 arg7 harg7 arg8 harg8 arg9 harg9 hc0 hc1 x0 x1 x2 x3 xs0 xs1).2.1 S1024x1.size (by sl_kernel_rfl) y
theorem scoverC0_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : condC0 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunC0 c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRunC0 c i arg2 harg2 arg3 harg3 arg4 harg4 arg5 harg5 arg6 harg6 arg7 harg7 arg8 harg8 arg9 harg9 hc0 hc1 x0 x1 x2 x3 xs0 xs1).2.2.1 S1024x1.size (by sl_kernel_rfl) y
theorem scoverC0_1 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : condC0 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunC0 c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRunC0 c i arg2 harg2 arg3 harg3 arg4 harg4 arg5 harg5 arg6 harg6 arg7 harg7 arg8 harg8 arg9 harg9 hc0 hc1 x0 x1 x2 x3 xs0 xs1).2.2.2.1 S1024x1.size (by sl_kernel_rfl) y

/-- The four buffers after a point, in the order: output block 4, output block 5, running maximum, running minimum. -/
abbrev Quad (F : FTy → Type) [FloatOps F] : Type := Vec F S1024x1 .f32 × Vec F S1024x1 .f32 × Vec F S1024x1 .f32 × Vec F S1024x1 .f32

/-- A point of the first column: the outputs hold nothing of the body's (a placeholder nothing consults); the running
    columns what the reset and the first fold left. -/
def ptA0 (c : Dev nD) (t : Fin cfg0.N) (h0 : t.val % 8 = 0) : Quad F :=
  have hc0 : condA0 (grid0.coords t) := (hcondA0 t).mpr h0
  have hc1 : ¬condC0 (grid0.coords t) := fun h => by have := (hcondC0 t).mp h; omega
  (rdP [], rdP [],
   rdP (kernelRunA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t)).1,
   rdP (kernelRunA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t)).2.1)
/-- A point of a middle column, from what the point before left in the running columns. -/
def ptB0 (c : Dev nD) (t : Fin cfg0.N) (h0 : ¬t.val % 8 = 0) (h1 : ¬t.val % 8 = 7) (xs0 xs1 : Vec F S1024x1 .f32) : Quad F :=
  have hc0 : ¬condA0 (grid0.coords t) := fun h => h0 ((hcondA0 t).mp h)
  have hc1 : ¬condC0 (grid0.coords t) := fun h => h1 ((hcondC0 t).mp h)
  (rdP [], rdP [],
   rdP (kernelRunB0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) xs0 xs1).1,
   rdP (kernelRunB0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) xs0 xs1).2.1)
/-- A point of the last column. -/
def ptC0 (c : Dev nD) (t : Fin cfg0.N) (h0 : ¬t.val % 8 = 0) (h1 : t.val % 8 = 7) (xs0 xs1 : Vec F S1024x1 .f32) : Quad F :=
  have hc0 : ¬condA0 (grid0.coords t) := fun h => h0 ((hcondA0 t).mp h)
  have hc1 : condC0 (grid0.coords t) := (hcondC0 t).mpr h1
  (rdP (kernelRunC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) xs0 xs1).1,
   rdP (kernelRunC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) xs0 xs1).2.1,
   rdP (kernelRunC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) xs0 xs1).2.2.1,
   rdP (kernelRunC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) xs0 xs1).2.2.2.1)

/-- THE ACCUMULATION: the four buffers after the body at position `n`, by recursion on the position — the case the
    column selects, a later column taking the running columns as the position before left them. -/
def outsAt0 (c : Dev nD) : (n : ℕ) → n < cfg0.N → Quad F
  | 0, hn => ptA0 V c ⟨0, hn⟩ (Nat.zero_mod _)
  | n + 1, hn =>
    if h0 : (n + 1) % 8 = 0 then ptA0 V c ⟨n + 1, hn⟩ h0
    else if h1 : (n + 1) % 8 = 7 then
      ptC0 V c ⟨n + 1, hn⟩ h0 h1 (outsAt0 c n (Nat.lt_of_succ_lt hn)).2.2.1 (outsAt0 c n (Nat.lt_of_succ_lt hn)).2.2.2
    else
      ptB0 V c ⟨n + 1, hn⟩ h0 h1 (outsAt0 c n (Nat.lt_of_succ_lt hn)).2.2.1 (outsAt0 c n (Nat.lt_of_succ_lt hn)).2.2.2

theorem outsAt0_A (c : Dev nD) (t : Fin cfg0.N) (h0 : t.val % 8 = 0) : outsAt0 V c t.val t.isLt = ptA0 V c t h0 := by
  obtain ⟨n, hn⟩ := t
  cases n with
  | zero => rfl
  | succ n => exact dif_pos h0
theorem outsAt0_B (c : Dev nD) (t : Fin cfg0.N) (h0 : ¬t.val % 8 = 0) (h1 : ¬t.val % 8 = 7) :
    outsAt0 V c t.val t.isLt = ptB0 V c t h0 h1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 8 = 0) (h1 : t.val % 8 = 7) :
    outsAt0 V c t.val t.isLt = ptC0 V c t h0 h1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-! ## The region invariant -/

/-- The scoped buffers of the other call, each whole at some contents: they ride through this region untouched. -/
def restR0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class invariant spelt out: the two running columns at anything, the other call's scoped buffers, the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restR0 (F := F) c) ∗ (∃ r, prngReg c r)) := by
  unfold Pipeline.ΦA restR0; rw [scopedRest0_eq]; simp only [scM0_0, scM0_1, owns_whole]; try rfl

theorem PhiA0_split (c : Dev nD) :
    (Pipeline.ΦA spec0 c : sProp 𝕄)
      ⊢ iprop(iprop((∃ d, owns (c : Thread nD τ) scM0_0 fullShare d) ∗ (∃ d, owns (c : Thread nD τ) scM0_1 fullShare d) ∗ restR0 (F := F) c) ∗ (∃ r, prngReg c r)) := by
  rw [PhiA0_eq]
theorem PhiA0_join (c : Dev nD) :
    (iprop(iprop((∃ d, owns (c : Thread nD τ) scM0_0 fullShare d) ∗ (∃ d, owns (c : Thread nD τ) scM0_1 fullShare d) ∗ restR0 (F := F) c) ∗ (∃ r, prngReg c r)) : sProp 𝕄)
      ⊢ Pipeline.ΦA spec0 c := by
  rw [PhiA0_eq]

/-- The invariant before position `n`: before the first point the class's; afterwards the running columns at what the
    point before left in them. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restR0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ restR0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ restR0 (F := F) c) ∗ (∃ r, prngReg c r)) := by
  cases n with
  | zero => exact absurd rfl hz
  | succ n => rfl

/-! ## The proof data -/

/-- The proof data of this pipeline on core `c`: the arrays as the region finds them; after the body at a point each
    input's buffer at its block and the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Region

end Cert.KernelIdeal.Hand

end
-- ==== Proof.KI.R0Body.lean ====
import proofs.«127731_j5145370820780_1_alg».proof.Proof.KI.R0Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the body obligation at every grid point -/

section Region
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 8000000 in
/-- The body at any point. The inputs' memrefs hold their blocks; the column says which case the point is in; the
    invariant hands the body the running columns at what the point before left (at anything at the very first point)
    and takes them back at this point's contents; away from the last column the output buffers are handed back
    untouched, at the last column they are taken back at what the copy-out stored; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · have hc0 : condA0 (grid0.coords t) := (hcondA0 t).mpr h0
    have hc1 : ¬condC0 (grid0.coords t) := fun h => by have := (hcondC0 t).mp h; omega
    rw [Dat.leavesExact_idle (dat0 V c) 4 t (idleAt0_4 t hc1) (noFlush0_4 t hc1),
      Dat.leavesExact_idle (dat0 V c) 5 t (idleAt0_5 t hc1) (noFlush0_5 t hc1)]
    rw [outsAt0_A V c t h0]
    unfold ptA0 rdP; dsimp only
    by_cases hz : t.val = 0
    · rw [PhiS0_castSucc V c t, PhiS0_zero V c _ _ hz]
      iintro ⟨HP, Ho, ⟨%d0, H0⟩, ⟨%d1, H1⟩, ⟨%d2, H2⟩, ⟨%d3, H3⟩, ⟨%d4, H4⟩, ⟨%d5, H5⟩⟩
      have hsplitA := PhiA0_split (F := F) c
      ihave HQ := hsplitA $$ HP
      icases HQ with ⟨⟨HS0, HS1, HR⟩, Hg⟩
      iapply ((kernelRunA0 c (grid0.coords t) _ _ _ _ _ _ _ _ _ _ _ _ _ _ _ _ hc0 hc1 (iblk0 V c 0 t) (iblk0 V c 1 t) (iblk0 V c 2 t) (iblk0 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA0_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA0_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRunA0 c (grid0.coords t) _ _ _ _ _ _ _ _ _ _ _ _ _ _ _ _ hc0 hc1 (iblk0 V c 0 t) (iblk0 V c 1 t) (iblk0 V c 2 t) (iblk0 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA0_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA0_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hc0 : ¬condA0 (grid0.coords t) := fun h => h0 ((hcondA0 t).mp h)
    by_cases h1 : t.val % 8 = 7
    · have hc1 : condC0 (grid0.coords t) := (hcondC0 t).mpr h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      rw [outsAt0_C V c t h0 h1]
      unfold ptC0 rdP; dsimp only
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRunC0 c (grid0.coords t) _ _ _ _ _ _ _ _ _ _ _ _ _ _ _ _ hc0 hc1 (iblk0 V c 0 t) (iblk0 V c 1 t) (iblk0 V c 2 t) (iblk0 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverC0_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverC0_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC0_4 c _ _ _ _ _ _ _ _ _ _ _ _ _ _ _ _ _ _ _ _ _ _ _ _ _)
      unfold owns; iexists _; isplitr
      swap; · iexact H5
      ipureintro; exact View.read_writes_of_cover _ _ _ _ _ (coverC0_5 c _ _ _ _ _ _ _ _ _ _ _ _ _ _ _ _ _ _ _ _ _ _ _ _ _)
    · have hc1 : ¬condC0 (grid0.coords t) := fun h => h1 ((hcondC0 t).mp h)
      rw [Dat.leavesExact_idle (dat0 V c) 4 t (idleAt0_4 t hc1) (noFlush0_4 t hc1),
        Dat.leavesExact_idle (dat0 V c) 5 t (idleAt0_5 t hc1) (noFlush0_5 t hc1)]
      rw [outsAt0_B V c t h0 h1]
      unfold ptB0 rdP; dsimp only
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRunB0 c (grid0.coords t) _ _ _ _ _ _ _ _ _ _ _ _ _ _ _ _ hc0 hc1 (iblk0 V c 0 t) (iblk0 V c 1 t) (iblk0 V c 2 t) (iblk0 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverB0_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB0_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the running columns' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega)]
  exact (show _ ⊢ _ from by
    iintro ⟨⟨HS0, HS1, HR⟩, Hg⟩
    isplitl [HS0 HS1 HR]
    · isplitl [HS0]; · iexists _; iexact HS0
      isplitl [HS1]; · iexists _; iexact HS1
      iexact HR
    iexact Hg).trans (PhiA0_join (F := F) c)

end Region

end Cert.KernelIdeal.Hand

end
-- ==== Proof.KI.R1Cases.lean ====
import proofs.«127731_j5145370820780_1_alg».proof.Proof.Gen.KernelIdeal.Launch
import proofs.«127731_j5145370820780_1_alg».proof.Proof.Gen.KernelIdeal.Skeleton
import proofs.«127731_j5145370820780_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: which control case a grid point is in, and where the output windows are idle

The grid is 4 × 8, a point `t` has column coordinate `t % 8`. At column 0 the body first resets its two running
columns (the running maximum to the bottom element, the running minimum to the top element); at every column it folds
the tile's row maxima and minima into them; at column 7 it copies them into the two output blocks. So there are three
cases: the first column (A), the middle columns (B), the last column (C). The output windows hold nothing the body
wrote except at column 7, which is also the only column after which they are written back. -/

/-- The first conditional's test, as the body computes it from the column coordinate: "column = 0". -/
abbrev condA1 (i : grid1.Coords) : Prop := (Scalar.cmpi .ne (Scalar.extui (Scalar.cmpi .eq (BitVec.ofNat 32 (i 1).val) 0#32)) 0#32) = 1#1
theorem hcondA1 : ∀ t : Fin cfg1.N, condA1 (grid1.coords t) ↔ t.val % 8 = 0 :=
  (by decide +kernel : ∀ t : Fin grid1.N, condA1 (grid1.coords t) ↔ t.val % 8 = 0)
/-- The second conditional's test: "column = 7". -/
abbrev condC1 (i : grid1.Coords) : Prop := k1_cond2 i = 1#1
theorem hcondC1 : ∀ t : Fin cfg1.N, condC1 (grid1.coords t) ↔ t.val % 8 = 7 :=
  (by decide +kernel : ∀ t : Fin grid1.N, condC1 (grid1.coords t) ↔ t.val % 8 = 7)

/-- The four input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last column the two output windows are idle and not written back; -/
theorem idleAt1_4 : ∀ t : Fin cfg1.N, ¬condC1 (grid1.coords t) → cfg1.idle 4 (grid1.coords t) = true := by decide +kernel
theorem noFlush1_4 : ∀ t : Fin cfg1.N, ¬condC1 (grid1.coords t) → (cfg1.win 4).flush t = false := by decide +kernel
theorem idleAt1_5 : ∀ t : Fin cfg1.N, ¬condC1 (grid1.coords t) → cfg1.idle 5 (grid1.coords t) = true := by decide +kernel
theorem noFlush1_5 : ∀ t : Fin cfg1.N, ¬condC1 (grid1.coords t) → (cfg1.win 5).flush t = false := by decide +kernel
/-- at the last column they are live. -/
theorem liveAt1_4 : ∀ t : Fin cfg1.N, condC1 (grid1.coords t) → cfg1.idle 4 (grid1.coords t) = false := by decide +kernel
theorem liveAt1_5 : ∀ t : Fin cfg1.N, condC1 (grid1.coords t) → cfg1.idle 5 (grid1.coords t) = false := by decide +kernel

/-- The current staging memref of each window at a point, as the pipeline passes it to the body, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
/-- The two running columns: whole scoped buffers of the kernel's own. -/
abbrev scM1_0 : Memref sig .tc .vmem S1024x1 .f32 := Memref.whole cc1_scratch0
abbrev scM1_1 : Memref sig .tc .vmem S1024x1 .f32 := Memref.whole cc1_scratch1
/-- Views through which buffer contents are stated. -/
abbrev VS1_0 : View sig .tc .vmem S1024x1 .f32 := scM1_0.view
abbrev VS1_1 : View sig .tc .vmem S1024x1 .f32 := scM1_1.view
abbrev VO1_4 : View sig .tc .vmem S1024x1 .f32 := (Memref.whole cc1_stg4_0 : Memref sig .tc .vmem S1024x1 .f32).view
abbrev VO1_5 : View sig .tc .vmem S1024x1 .f32 := (Memref.whole cc1_stg5_0 : Memref sig .tc .vmem S1024x1 .f32).view

end Cert.KernelIdeal.Hand

end
-- ==== Proof.KI.R1RunA.lean ====
import proofs.«127731_j5145370820780_1_alg».proof.Proof.KI.R1Cases
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point of the FIRST column (the reset taken, the copy-out not): on whole memrefs, the four input blocks at
    their contents, the two idle output blocks at any contents (handed back untouched) and the two running columns at
    anything, it runs to the continuation with the inputs and outputs as they were and each running column holding the
    pieces the stores left — found by running the body; the pieces are the witness. -/
noncomputable def kernelRunA1 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : condA1 i) (hc1 : ¬condC1 i)
    (x0 : Vec F S1024x1024 .f32) (x1 : Vec F S512x1024 .f32) (x2 : Vec F S1024x1 .i32) (x3 : Vec F S1x512 .i32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__mining_kernel i arg2 harg2 arg3 harg3 arg4 harg4 arg5 harg5 arg6 harg6 arg7 harg7 arg8 harg8 arg9 harg9) K } := by
  refine ⟨?_, ?_, fun xi4 xi5 E K => ?run⟩
  case run =>
    simp only [cc1__mining_kernel_eq_skeleton]; unfold cc1__mining_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.R1RunB.lean ====
import proofs.«127731_j5145370820780_1_alg».proof.Proof.KI.R1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point of a MIDDLE column (neither conditional taken): as in the first column, but the two running
    columns are handed over at the contents the point before left (`xs0`, `xs1`). -/
noncomputable def kernelRunB1 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : ¬condC1 i)
    (x0 : Vec F S1024x1024 .f32) (x1 : Vec F S512x1024 .f32) (x2 : Vec F S1024x1 .i32) (x3 : Vec F S1x512 .i32) (xs0 xs1 : Vec F S1024x1 .f32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__mining_kernel i arg2 harg2 arg3 harg3 arg4 harg4 arg5 harg5 arg6 harg6 arg7 harg7 arg8 harg8 arg9 harg9) K } := by
  refine ⟨?_, ?_, fun xi4 xi5 E K => ?run⟩
  case run =>
    simp only [cc1__mining_kernel_eq_skeleton]; unfold cc1__mining_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.R1RunC.lean ====
import proofs.«127731_j5145370820780_1_alg».proof.Proof.KI.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point of the LAST column (the reset not taken, the copy-out taken): the running columns at what the
    point before left, the two output blocks at anything; it ends with each output block and each running column
    holding the pieces its stores left. -/
noncomputable def kernelRunC1 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : condC1 i)
    (x0 : Vec F S1024x1024 .f32) (x1 : Vec F S512x1024 .f32) (x2 : Vec F S1024x1 .i32) (x3 : Vec F S1x512 .i32) (xs0 xs1 : Vec F S1024x1 .f32) :
    Σ' (L4 : List (View.Piece (Elt F) S1024x1 .f32)) (L5 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__mining_kernel i arg2 harg2 arg3 harg3 arg4 harg4 arg5 harg5 arg6 harg6 arg7 harg7 arg8 harg8 arg9 harg9) K } := by
  refine ⟨?_, ?_, ?_, ?_, fun E K => ?run⟩
  case run =>
    simp only [cc1__mining_kernel_eq_skeleton]; unfold cc1__mining_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Hand

end
-- ==== Proof.KI.R1Frame.lean ====
import proofs.«127731_j5145370820780_1_alg».proof.Proof.KI.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1 at the contents `V` it is entered from: what its buffers hold after every grid point

`V c b` is what buffer `b` of core `c` holds when the region is entered. Everything below is stated at any `V`. -/

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: the pieces its stores wrote, read back -/

/-- A list of pieces written over anything and read back (when the pieces cover the block the start does not matter). -/
def rdP1 (L : List (View.Piece (Elt F) S1024x1 .f32)) : Vec F S1024x1 .f32 := VS1_0.read (Elt F) (VS1_0.writes (Elt F) VS1_0.junk L)

theorem scoverA1_0 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : condA1 i) (hc1 : ¬condC1 i) (x0 : Vec F S1024x1024 .f32) (x1 : Vec F S512x1024 .f32) (x2 : Vec F S1024x1 .i32) (x3 : Vec F S1x512 .i32) (y : S1024x1.Idx) :
    ∃ pc ∈ (kernelRunA1 c i arg2 harg2 arg3 harg3 arg4 harg4 arg5 harg5 arg6 harg6 arg7 harg7 arg8 harg8 arg9 harg9 hc0 hc1 x0 x1 x2 x3).1, y ∈ pc.1.set :=
  View.cover_of_tiledL (kernelRunA1 c i arg2 harg2 arg3 harg3 arg4 harg4 arg5 harg5 arg6 harg6 arg7 harg7 arg8 harg8 arg9 harg9 hc0 hc1 x0 x1 x2 x3).1 S1024x1.size (by sl_kernel_rfl) y
theorem scoverA1_1 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : condA1 i) (hc1 : ¬condC1 i) (x0 : Vec F S1024x1024 .f32) (x1 : Vec F S512x1024 .f32) (x2 : Vec F S1024x1 .i32) (x3 : Vec F S1x512 .i32) (y : S1024x1.Idx) :
    ∃ pc ∈ (kernelRunA1 c i arg2 harg2 arg3 harg3 arg4 harg4 arg5 harg5 arg6 harg6 arg7 harg7 arg8 harg8 arg9 harg9 hc0 hc1 x0 x1 x2 x3).2.1, y ∈ pc.1.set :=
  View.cover_of_tiledL (kernelRunA1 c i arg2 harg2 arg3 harg3 arg4 harg4 arg5 harg5 arg6 harg6 arg7 harg7 arg8 harg8 arg9 harg9 hc0 hc1 x0 x1 x2 x3).2.1 S1024x1.size (by sl_kernel_rfl) y
theorem scoverB1_0 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : ¬condC1 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunB1 c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRunB1 c i arg2 harg2 arg3 harg3 arg4 harg4 arg5 harg5 arg6 harg6 arg7 harg7 arg8 harg8 arg9 harg9 hc0 hc1 x0 x1 x2 x3 xs0 xs1).1 S1024x1.size (by sl_kernel_rfl) y
theorem scoverB1_1 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : ¬condC1 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunB1 c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRunB1 c i arg2 harg2 arg3 harg3 arg4 harg4 arg5 harg5 arg6 harg6 arg7 harg7 arg8 harg8 arg9 harg9 hc0 hc1 x0 x1 x2 x3 xs0 xs1).2.1 S1024x1.size (by sl_kernel_rfl) y
theorem coverC1_4 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : condC1 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunC1 c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRunC1 c i arg2 harg2 arg3 harg3 arg4 harg4 arg5 harg5 arg6 harg6 arg7 harg7 arg8 harg8 arg9 harg9 hc0 hc1 x0 x1 x2 x3 xs0 xs1).1 S1024x1.size (by sl_kernel_rfl) y
theorem coverC1_5 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : condC1 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunC1 c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRunC1 c i arg2 harg2 arg3 harg3 arg4 harg4 arg5 harg5 arg6 harg6 arg7 harg7 arg8 harg8 arg9 harg9 hc0 hc1 x0 x1 x2 x3 xs0 xs1).2.1 S1024x1.size (by sl_kernel_rfl) y
theorem scoverC1_0 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : condC1 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunC1 c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRunC1 c i arg2 harg2 arg3 harg3 arg4 harg4 arg5 harg5 arg6 harg6 arg7 harg7 arg8 harg8 arg9 harg9 hc0 hc1 x0 x1 x2 x3 xs0 xs1).2.2.1 S1024x1.size (by sl_kernel_rfl) y
theorem scoverC1_1 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : condC1 i) (x0 : Vec F S1024x1024 .f32) (x1 : Vec F S512x1024 .f32) (x2 : Vec F S1024x1 .i32) (x3 : Vec F S1x512 .i32) (xs0 xs1 : Vec F S1024x1 .f32) (y : S1024x1.Idx) :
    ∃ pc ∈ (kernelRunC1 c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRunC1 c i arg2 harg2 arg3 harg3 arg4 harg4 arg5 harg5 arg6 harg6 arg7 harg7 arg8 harg8 arg9 harg9 hc0 hc1 x0 x1 x2 x3 xs0 xs1).2.2.2.1 S1024x1.size (by sl_kernel_rfl) y

/-- The four buffers after a point, in the order: output block 4, output block 5, running maximum, running minimum. -/
abbrev Quad1 (F : FTy → Type) [FloatOps F] : Type := Vec F S1024x1 .f32 × Vec F S1024x1 .f32 × Vec F S1024x1 .f32 × Vec F S1024x1 .f32

/-- A point of the first column: the outputs hold nothing of the body's (a placeholder nothing consults); the running
    columns what the reset and the first fold left. -/
def ptA1 (c : Dev nD) (t : Fin cfg1.N) (h0 : t.val % 8 = 0) : Quad1 F :=
  have hc0 : condA1 (grid1.coords t) := (hcondA1 t).mpr h0
  have hc1 : ¬condC1 (grid1.coords t) := fun h => by have := (hcondC1 t).mp h; omega
  (rdP1 [], rdP1 [],
   rdP1 (kernelRunA1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (iblk1 V c 0 t) (iblk1 V c 1 t) (iblk1 V c 2 t) (iblk1 V c 3 t)).1,
   rdP1 (kernelRunA1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (iblk1 V c 0 t) (iblk1 V c 1 t) (iblk1 V c 2 t) (iblk1 V c 3 t)).2.1)
/-- A point of a middle column, from what the point before left in the running columns. -/
def ptB1 (c : Dev nD) (t : Fin cfg1.N) (h0 : ¬t.val % 8 = 0) (h1 : ¬t.val % 8 = 7) (xs0 xs1 : Vec F S1024x1 .f32) : Quad1 F :=
  have hc0 : ¬condA1 (grid1.coords t) := fun h => h0 ((hcondA1 t).mp h)
  have hc1 : ¬condC1 (grid1.coords t) := fun h => h1 ((hcondC1 t).mp h)
  (rdP1 [], rdP1 [],
   rdP1 (kernelRunB1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (iblk1 V c 0 t) (iblk1 V c 1 t) (iblk1 V c 2 t) (iblk1 V c 3 t) xs0 xs1).1,
   rdP1 (kernelRunB1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (iblk1 V c 0 t) (iblk1 V c 1 t) (iblk1 V c 2 t) (iblk1 V c 3 t) xs0 xs1).2.1)
/-- A point of the last column. -/
def ptC1 (c : Dev nD) (t : Fin cfg1.N) (h0 : ¬t.val % 8 = 0) (h1 : t.val % 8 = 7) (xs0 xs1 : Vec F S1024x1 .f32) : Quad1 F :=
  have hc0 : ¬condA1 (grid1.coords t) := fun h => h0 ((hcondA1 t).mp h)
  have hc1 : condC1 (grid1.coords t) := (hcondC1 t).mpr h1
  (rdP1 (kernelRunC1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (iblk1 V c 0 t) (iblk1 V c 1 t) (iblk1 V c 2 t) (iblk1 V c 3 t) xs0 xs1).1,
   rdP1 (kernelRunC1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (iblk1 V c 0 t) (iblk1 V c 1 t) (iblk1 V c 2 t) (iblk1 V c 3 t) xs0 xs1).2.1,
   rdP1 (kernelRunC1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (iblk1 V c 0 t) (iblk1 V c 1 t) (iblk1 V c 2 t) (iblk1 V c 3 t) xs0 xs1).2.2.1,
   rdP1 (kernelRunC1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (iblk1 V c 0 t) (iblk1 V c 1 t) (iblk1 V c 2 t) (iblk1 V c 3 t) xs0 xs1).2.2.2.1)

/-- THE ACCUMULATION: the four buffers after the body at position `n`, by recursion on the position — the case the
    column selects, a later column taking the running columns as the position before left them. -/
def outsAt1 (c : Dev nD) : (n : ℕ) → n < cfg1.N → Quad1 F
  | 0, hn => ptA1 V c ⟨0, hn⟩ (Nat.zero_mod _)
  | n + 1, hn =>
    if h0 : (n + 1) % 8 = 0 then ptA1 V c ⟨n + 1, hn⟩ h0
    else if h1 : (n + 1) % 8 = 7 then
      ptC1 V c ⟨n + 1, hn⟩ h0 h1 (outsAt1 c n (Nat.lt_of_succ_lt hn)).2.2.1 (outsAt1 c n (Nat.lt_of_succ_lt hn)).2.2.2
    else
      ptB1 V c ⟨n + 1, hn⟩ h0 h1 (outsAt1 c n (Nat.lt_of_succ_lt hn)).2.2.1 (outsAt1 c n (Nat.lt_of_succ_lt hn)).2.2.2

theorem outsAt1_A (c : Dev nD) (t : Fin cfg1.N) (h0 : t.val % 8 = 0) : outsAt1 V c t.val t.isLt = ptA1 V c t h0 := by
  obtain ⟨n, hn⟩ := t
  cases n with
  | zero => rfl
  | succ n => exact dif_pos h0
theorem outsAt1_B (c : Dev nD) (t : Fin cfg1.N) (h0 : ¬t.val % 8 = 0) (h1 : ¬t.val % 8 = 7) :
    outsAt1 V c t.val t.isLt = ptB1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)
theorem outsAt1_C (c : Dev nD) (t : Fin cfg1.N) (h0 : ¬t.val % 8 = 0) (h1 : t.val % 8 = 7) :
    outsAt1 V c t.val t.isLt = ptC1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-! ## The region invariant -/

/-- The scoped buffers of the other call, each whole at some contents: they ride through this region untouched. -/
def restR1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The class invariant spelt out: the two running columns at anything, the other call's scoped buffers, the
    generator register at some state (the scoped buffers re-ordered: the columns come last in the launch's list). -/
theorem PhiA1_split (c : Dev nD) :
    (Pipeline.ΦA spec1 c : sProp 𝕄)
      ⊢ iprop(iprop((∃ d, owns (c : Thread nD τ) scM1_0 fullShare d) ∗ (∃ d, owns (c : Thread nD τ) scM1_1 fullShare d) ∗ restR1 (F := F) c) ∗ (∃ r, prngReg c r)) := by
  unfold Pipeline.ΦA restR1; rw [scopedRest1_eq]; simp only [scM1_0, scM1_1, owns_whole]
  iintro ⟨⟨A1, A2, A3, A4, A5, A6, A7, A8, A9, A10, A11, A12, A13, A14, S0, S1⟩, Hg⟩
  isplitr [Hg]
  · isplitl [S0]; · iexact S0
    isplitl [S1]; · iexact S1
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    iexact A14
  iexact Hg
theorem PhiA1_join (c : Dev nD) :
    (iprop(iprop((∃ d, owns (c : Thread nD τ) scM1_0 fullShare d) ∗ (∃ d, owns (c : Thread nD τ) scM1_1 fullShare d) ∗ restR1 (F := F) c) ∗ (∃ r, prngReg c r)) : sProp 𝕄)
      ⊢ Pipeline.ΦA spec1 c := by
  unfold Pipeline.ΦA restR1; rw [scopedRest1_eq]; simp only [scM1_0, scM1_1, owns_whole]
  iintro ⟨⟨S0, S1, A1, A2, A3, A4, A5, A6, A7, A8, A9, A10, A11, A12, A13, A14⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [S0]; · iexact S0
    iexact S1
  iexact Hg

/-- The invariant before position `n`: before the first point the class's; afterwards the running columns at what the
    point before left in them. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2.1) ∗ owns (c : Thread nD τ) scM1_1 fullShare ((outsAt1 V c n hn).2.2.2) ∗ restR1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.2.1) ∗ owns (c : Thread nD τ) scM1_1 fullShare ((outsAt1 V c n hn).2.2.2) ∗ restR1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2.1) ∗ owns (c : Thread nD τ) scM1_1 fullShare ((outsAt1 V c (n - 1) (by omega)).2.2.2) ∗ restR1 (F := F) c) ∗ (∃ r, prngReg c r)) := by
  cases n with
  | zero => exact absurd rfl hz
  | succ n => rfl

/-! ## The proof data -/

/-- The proof data of this pipeline on core `c`: the arrays as the region finds them; after the body at a point each
    input's buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Region

end Cert.KernelIdeal.Hand

end
-- ==== Proof.KI.R1Body.lean ====
import proofs.«127731_j5145370820780_1_alg».proof.Proof.KI.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: the body obligation at every grid point -/

section Region
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 8000000 in
/-- The body at any point. The inputs' memrefs hold their blocks; the column says which case the point is in; the
    invariant hands the body the running columns at what the point before left (at anything at the very first point)
    and takes them back at this point's contents; away from the last column the output buffers are handed back
    untouched, at the last column they are taken back at what the copy-out stored; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · have hc0 : condA1 (grid1.coords t) := (hcondA1 t).mpr h0
    have hc1 : ¬condC1 (grid1.coords t) := fun h => by have := (hcondC1 t).mp h; omega
    rw [Dat.leavesExact_idle (dat1 V c) 4 t (idleAt1_4 t hc1) (noFlush1_4 t hc1),
      Dat.leavesExact_idle (dat1 V c) 5 t (idleAt1_5 t hc1) (noFlush1_5 t hc1)]
    rw [outsAt1_A V c t h0]
    unfold ptA1 rdP1; dsimp only
    by_cases hz : t.val = 0
    · rw [PhiS1_castSucc V c t, PhiS1_zero V c _ _ hz]
      iintro ⟨HP, Ho, ⟨%d0, H0⟩, ⟨%d1, H1⟩, ⟨%d2, H2⟩, ⟨%d3, H3⟩, ⟨%d4, H4⟩, ⟨%d5, H5⟩⟩
      have hsplitA := PhiA1_split (F := F) c
      ihave HQ := hsplitA $$ HP
      icases HQ with ⟨⟨HS0, HS1, HR⟩, Hg⟩
      iapply ((kernelRunA1 c (grid1.coords t) _ _ _ _ _ _ _ _ _ _ _ _ _ _ _ _ hc0 hc1 (iblk1 V c 0 t) (iblk1 V c 1 t) (iblk1 V c 2 t) (iblk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA1_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA1_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS1_castSucc V c t, PhiS1_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRunA1 c (grid1.coords t) _ _ _ _ _ _ _ _ _ _ _ _ _ _ _ _ hc0 hc1 (iblk1 V c 0 t) (iblk1 V c 1 t) (iblk1 V c 2 t) (iblk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA1_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA1_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hc0 : ¬condA1 (grid1.coords t) := fun h => h0 ((hcondA1 t).mp h)
    by_cases h1 : t.val % 8 = 7
    · have hc1 : condC1 (grid1.coords t) := (hcondC1 t).mpr h1
      rw [show (dat1 V c).leavesExact 4 t = owns (c : Thread nD τ) (ms1_4 t) fullShare ((dat1 V c).after 4 t) from by
        unfold Dat.leavesExact; rw [liveAt1_4 t hc1], after1_4]
      rw [show (dat1 V c).leavesExact 5 t = owns (c : Thread nD τ) (ms1_5 t) fullShare ((dat1 V c).after 5 t) from by
        unfold Dat.leavesExact; rw [liveAt1_5 t hc1], after1_5]
      rw [outsAt1_C V c t h0 h1]
      unfold ptC1 rdP1; dsimp only
      rw [PhiS1_castSucc V c t, PhiS1_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRunC1 c (grid1.coords t) _ _ _ _ _ _ _ _ _ _ _ _ _ _ _ _ hc0 hc1 (iblk1 V c 0 t) (iblk1 V c 1 t) (iblk1 V c 2 t) (iblk1 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverC1_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverC1_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC1_4 c _ _ _ _ _ _ _ _ _ _ _ _ _ _ _ _ _ _ _ _ _ _ _ _ _)
      unfold owns; iexists _; isplitr
      swap; · iexact H5
      ipureintro; exact View.read_writes_of_cover _ _ _ _ _ (coverC1_5 c _ _ _ _ _ _ _ _ _ _ _ _ _ _ _ _ _ _ _ _ _ _ _ _ _)
    · have hc1 : ¬condC1 (grid1.coords t) := fun h => h1 ((hcondC1 t).mp h)
      rw [Dat.leavesExact_idle (dat1 V c) 4 t (idleAt1_4 t hc1) (noFlush1_4 t hc1),
        Dat.leavesExact_idle (dat1 V c) 5 t (idleAt1_5 t hc1) (noFlush1_5 t hc1)]
      rw [outsAt1_B V c t h0 h1]
      unfold ptB1 rdP1; dsimp only
      rw [PhiS1_castSucc V c t, PhiS1_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRunB1 c (grid1.coords t) _ _ _ _ _ _ _ _ _ _ _ _ _ _ _ _ hc0 hc1 (iblk1 V c 0 t) (iblk1 V c 1 t) (iblk1 V c 2 t) (iblk1 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverB1_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB1_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the running columns' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  exact (show _ ⊢ _ from by
    iintro ⟨⟨HS0, HS1, HR⟩, Hg⟩
    isplitl [HS0 HS1 HR]
    · isplitl [HS0]; · iexists _; iexact HS0
      isplitl [HS1]; · iexists _; iexact HS1
      iexact HR
    iexact Hg).trans (PhiA1_join (F := F) c)

end Region

end Cert.KernelIdeal.Hand

end
-- ==== Proof.KI.Run.lean ====
import proofs.«127731_j5145370820780_1_alg».proof.Proof.KI.R0Body
import proofs.«127731_j5145370820780_1_alg».proof.Proof.KI.R1Body
import proofs.«127731_j5145370820780_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run: @main's nine segments from the launch to the return

The buffer contents at each segment boundary are a fold from the launch memory: a stretch of host operations applies
them; a region replaces its arrays by what its write-backs leave. Every weakly fair execution ends with every unscoped
buffer at the last boundary's contents (`run_all`). -/

variable (m : (ℓ : Loc nD τ sig) → Buf (Elt F) ℓ) (ρ : Dev nD → PrngReg)

/-- Core `c`'s buffers at launch, -/
abbrev W0 : Dev nD → Valuation τ sig (Elt F) := fun c b => (s₀ m ρ).mem ((c : Dev nD), b)
/-- after the first stretch of host operations (region 0's entry), -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- after the second stretch (region 1's entry), -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- and after each of the five stretches that follow. -/
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev W8 : Dev nD → Valuation τ sig (Elt F) := fun c => StableHlo.after hostOps2_3 (W7 m ρ c)
abbrev W9 : Dev nD → Valuation τ sig (Elt F) := fun c => StableHlo.after hostOps2_4 (W8 m ρ c)

/-! ## The proof data family and the thread state -/

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W9 m ρ c) ∗ ∃ r, prngReg c r)

/-! ## The regions as segments -/

-- a library lemma stated over the pinned configuration unifies with the printed one only when unification may unfold plain
-- definitions in a metavariable's type
set_option backward.isDefEq.respectTransparency.types false in
/-- REGION 0 as a segment: entered from every unscoped buffer at `W1`, left at `W2`. Its arrays are split out of
    the unscoped buffers and put back at the contents the write-backs leave; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec0 c from by
    unfold Pipeline.ΦA
    iintro ⟨Hp, -, Hr⟩
    isplitl [Hr]; · iexact Hr
    iexact Hp).trans (hin0 (V1 m ρ) c)
  hout c := (hout0 (V1 m ρ) c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- REGION 1 as a segment: entered from every unscoped buffer at `W3`, left at `W4`. Its arrays are split out of
    the unscoped buffers and put back at the contents the write-backs leave; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec1 c from by
    unfold Pipeline.ΦA
    iintro ⟨Hp, -, Hr⟩
    isplitl [Hr]; · iexact Hr
    iexact Hp).trans (hin1 (V3 m ρ) c)
  hout c := (hout1 (V3 m ρ) c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last stretch's segment ends at the last thread state beside the core owing nothing. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .host (hseg hostOps2_4 hostOps2_4_sub hostOps2_4_fresh (W8 m ρ)) ]
/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of @main on the TensorCores terminates,
    nothing faulting, and every final state has every unscoped buffer at the last boundary's contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.Hand

end
-- ==== Proof.KI.FrameOf.lean ====
import proofs.«127731_j5145370820780_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The frame claim, read off the run

No stretch of host operations writes an argument and no region's windows move one, so the last boundary's contents
at an argument's buffer walk back to the launch memory. -/

variable (m : (ℓ : Loc nD τ sig) → Buf (Elt F) ℓ) (ρ : Dev nD → PrngReg)

/-- A buffer that no stretch writes and that is no array of either region ends as launched. -/
theorem W9_keep (c : Dev nD) (b : Ref sig .tc) (h0 : b ∉ hostOps0_W) (h1 : b ∉ hostOps1_W) (h2 : b ∉ hostOps2_W)
    (h21 : b ∉ hostOps2_1_W) (h22 : b ∉ hostOps2_2_W) (h23 : b ∉ hostOps2_3_W) (h24 : b ∉ hostOps2_4_W)
    (hs0 : ∀ w, Pipeline.arrRef spec0 w ≠ b) (hs1 : ∀ w, Pipeline.arrRef spec1 w ≠ b) :
    W9 m ρ c (Proc.devRef .tc b) = m ((c : Thread nD τ).loc b) :=
  calc W9 m ρ c (Proc.devRef .tc b)
    _ = W8 m ρ c (Proc.devRef .tc b) := StableHlo.after_of_writes_sub hostOps2_4 _ hostOps2_4_writes h24
    _ = W7 m ρ c (Proc.devRef .tc b) := StableHlo.after_of_writes_sub hostOps2_3 _ hostOps2_3_writes h23
    _ = W6 m ρ c (Proc.devRef .tc b) := StableHlo.after_of_writes_sub hostOps2_2 _ hostOps2_2_writes h22
    _ = W5 m ρ c (Proc.devRef .tc b) := StableHlo.after_of_writes_sub hostOps2_1 _ hostOps2_1_writes h21
    _ = W4 m ρ c (Proc.devRef .tc b) := StableHlo.after_of_writes_sub hostOps2 _ hostOps2_writes h2
    _ = W3 m ρ c (Proc.devRef .tc b) := W4_of_ne m ρ c b hs1
    _ = W2 m ρ c (Proc.devRef .tc b) := StableHlo.after_of_writes_sub hostOps1 _ hostOps1_writes h1
    _ = W1 m ρ c (Proc.devRef .tc b) := W2_of_ne m ρ c b hs0
    _ = W0 m ρ c (Proc.devRef .tc b) := StableHlo.after_of_writes_sub hostOps0 _ hostOps0_writes h0
    _ = m ((c : Thread nD τ).loc b) := rfl

/-- THE FRAME: every weakly fair execution of @main terminates, nothing faulting, and the two argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W9_keep m ρ c main_arg0 (by decide) (by decide) (by decide) (by decide) (by decide) (by decide) (by decide) (by decide) (by decide)),
     (h c _ (mem_uc main_arg1 (by decide))).trans (W9_keep m ρ c main_arg1 (by decide) (by decide) (by decide) (by decide) (by decide) (by decide) (by decide) (by decide) (by decide))⟩) (run_all m ρ)

end Cert.KernelIdeal.Hand

end
-- ==== Proof.KI.R0Pieces.lean ====
import proofs.«127731_j5145370820780_1_alg».proof.Proof.KI.R0Frame
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: what each case leaves, as payload terms

The pieces the runs found, read back: in every case the running maximum ends at `max (what it held) (the tile's row
maxima)` and the running minimum at `min (what it held) (the tile's row minima)`, where "what it held" is the reset
value in the first column and the previous point's contents otherwise; in the last column the two output blocks end at
those same two columns. Stated over the payload names, at any float instance. -/

theorem hz2 : (![0, 0] : Fin 2 → Nat) = fun _ => 0 := funext fun a => by fin_cases a <;> rfl

theorem pieceA0_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : condA0 i) (hc1 : ¬condC0 i) (x0 : Vec F S1024x1024 .f32) (x1 : Vec F S512x1024 .f32) (x2 : Vec F S1024x1 .i32) (x3 : Vec F S1x512 .i32) :
    rdP (kernelRunA0 c i arg2 harg2 arg3 harg3 arg4 harg4 arg5 harg5 arg6 harg6 arg7 harg7 arg8 harg8 arg9 harg9 hc0 hc1 x0 x1 x2 x3).1 = k0_pay1 (k0_pay7 x0 x1 x2 x3) (k0_pay3 (F := F)) := by
  unfold rdP
  rw [View.read_writes_eq_canon _ _ _ (scoverA0_0 c i arg2 harg2 arg3 harg3 arg4 harg4 arg5 harg5 arg6 harg6 arg7 harg7 arg8 harg8 arg9 harg9 hc0 hc1 x0 x1 x2 x3)]
  unfold kernelRunA0
  dsimp only
  sl_unfold_words
  first
    | rw [View.canon_cons_unit_zero (S := S1024x1) hz2, View.readCov_unit_zero (S := S1024x1) _ hz2]
    | rw [View.canon_unit_zero hz2, View.readCov_unit_zero (S := S1024x1) _ hz2]
    | rw [View.canon_unit_zero hz2]
  simp only [View.readAt_eq_ld, harg2.read_unread, harg3.read_unread, harg4.read_unread, harg5.read_unread, harg8.read_unread, harg9.read_unread,
    View.ld_unit_zero (S := S1024x1024) hz2, View.ld_unit_zero (S := S512x1024) hz2, View.ld_unit_zero (S := S1024x1) hz2, View.ld_unit_zero (S := S1x512) hz2]

theorem pieceA0_1 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : condA0 i) (hc1 : ¬condC0 i) (x0 : Vec F S1024x1024 .f32) (x1 : Vec F S512x1024 .f32) (x2 : Vec F S1024x1 .i32) (x3 : Vec F S1x512 .i32) :
    rdP (kernelRunA0 c i arg2 harg2 arg3 harg3 arg4 harg4 arg5 harg5 arg6 harg6 arg7 harg7 arg8 harg8 arg9 harg9 hc0 hc1 x0 x1 x2 x3).2.1 = k0_pay2 (k0_pay8 x0 x1 x2 x3) (k0_pay4 (F := F)) := by
  unfold rdP
  rw [View.read_writes_eq_canon _ _ _ (scoverA0_1 c i arg2 harg2 arg3 harg3 arg4 harg4 arg5 harg5 arg6 harg6 arg7 harg7 arg8 harg8 arg9 harg9 hc0 hc1 x0 x1 x2 x3)]
  unfold kernelRunA0
  dsimp only
  sl_unfold_words
  first
    | rw [View.canon_cons_unit_zero (S := S1024x1) hz2, View.readCov_unit_zero (S := S1024x1) _ hz2]
    | rw [View.canon_unit_zero hz2, View.readCov_unit_zero (S := S1024x1) _ hz2]
    | rw [View.canon_unit_zero hz2]
  simp only [View.readAt_eq_ld, harg2.read_unread, harg3.read_unread, harg4.read_unread, harg5.read_unread, harg8.read_unread, harg9.read_unread,
    View.ld_unit_zero (S := S1024x1024) hz2, View.ld_unit_zero (S := S512x1024) hz2, View.ld_unit_zero (S := S1024x1) hz2, View.ld_unit_zero (S := S1x512) hz2]

theorem pieceB0_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : ¬condC0 i) (x0 : Vec F S1024x1024 .f32) (x1 : Vec F S512x1024 .f32) (x2 : Vec F S1024x1 .i32) (x3 : Vec F S1x512 .i32) (xs0 xs1 : Vec F S1024x1 .f32) :
    rdP (kernelRunB0 c i arg2 harg2 arg3 harg3 arg4 harg4 arg5 harg5 arg6 harg6 arg7 harg7 arg8 harg8 arg9 harg9 hc0 hc1 x0 x1 x2 x3 xs0 xs1).1 = k0_pay1 (k0_pay7 x0 x1 x2 x3) xs0 := by
  unfold rdP
  rw [View.read_writes_eq_canon _ _ _ (scoverB0_0 c i arg2 harg2 arg3 harg3 arg4 harg4 arg5 harg5 arg6 harg6 arg7 harg7 arg8 harg8 arg9 harg9 hc0 hc1 x0 x1 x2 x3 xs0 xs1)]
  unfold kernelRunB0
  dsimp only
  sl_unfold_words
  first
    | rw [View.canon_cons_unit_zero (S := S1024x1) hz2, View.readCov_unit_zero (S := S1024x1) _ hz2]
    | rw [View.canon_unit_zero hz2, View.readCov_unit_zero (S := S1024x1) _ hz2]
    | rw [View.canon_unit_zero hz2]
  simp only [View.readAt_eq_ld, harg2.read_unread, harg3.read_unread, harg4.read_unread, harg5.read_unread, harg8.read_unread, harg9.read_unread,
    View.ld_unit_zero (S := S1024x1024) hz2, View.ld_unit_zero (S := S512x1024) hz2, View.ld_unit_zero (S := S1024x1) hz2, View.ld_unit_zero (S := S1x512) hz2]

theorem pieceB0_1 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : ¬condC0 i) (x0 : Vec F S1024x1024 .f32) (x1 : Vec F S512x1024 .f32) (x2 : Vec F S1024x1 .i32) (x3 : Vec F S1x512 .i32) (xs0 xs1 : Vec F S1024x1 .f32) :
    rdP (kernelRunB0 c i arg2 harg2 arg3 harg3 arg4 harg4 arg5 harg5 arg6 harg6 arg7 harg7 arg8 harg8 arg9 harg9 hc0 hc1 x0 x1 x2 x3 xs0 xs1).2.1 = k0_pay2 (k0_pay8 x0 x1 x2 x3) xs1 := by
  unfold rdP
  rw [View.read_writes_eq_canon _ _ _ (scoverB0_1 c i arg2 harg2 arg3 harg3 arg4 harg4 arg5 harg5 arg6 harg6 arg7 harg7 arg8 harg8 arg9 harg9 hc0 hc1 x0 x1 x2 x3 xs0 xs1)]
  unfold kernelRunB0
  dsimp only
  sl_unfold_words
  first
    | rw [View.canon_cons_unit_zero (S := S1024x1) hz2, View.readCov_unit_zero (S := S1024x1) _ hz2]
    | rw [View.canon_unit_zero hz2, View.readCov_unit_zero (S := S1024x1) _ hz2]
    | rw [View.canon_unit_zero hz2]
  simp only [View.readAt_eq_ld, harg2.read_unread, harg3.read_unread, harg4.read_unread, harg5.read_unread, harg8.read_unread, harg9.read_unread,
    View.ld_unit_zero (S := S1024x1024) hz2, View.ld_unit_zero (S := S512x1024) hz2, View.ld_unit_zero (S := S1024x1) hz2, View.ld_unit_zero (S := S1x512) hz2]

theorem pieceC0_4 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : condC0 i) (x0 : Vec F S1024x1024 .f32) (x1 : Vec F S512x1024 .f32) (x2 : Vec F S1024x1 .i32) (x3 : Vec F S1x512 .i32) (xs0 xs1 : Vec F S1024x1 .f32) :
    rdP (kernelRunC0 c i arg2 harg2 arg3 harg3 arg4 harg4 arg5 harg5 arg6 harg6 arg7 harg7 arg8 harg8 arg9 harg9 hc0 hc1 x0 x1 x2 x3 xs0 xs1).1 = k0_pay1 (k0_pay7 x0 x1 x2 x3) xs0 := by
  unfold rdP
  rw [View.read_writes_eq_canon _ _ _ (coverC0_4 c i arg2 harg2 arg3 harg3 arg4 harg4 arg5 harg5 arg6 harg6 arg7 harg7 arg8 harg8 arg9 harg9 hc0 hc1 x0 x1 x2 x3 xs0 xs1)]
  unfold kernelRunC0
  dsimp only
  sl_unfold_words
  first
    | rw [View.canon_cons_unit_zero (S := S1024x1) hz2, View.readCov_unit_zero (S := S1024x1) _ hz2]
    | rw [View.canon_unit_zero hz2, View.readCov_unit_zero (S := S1024x1) _ hz2]
    | rw [View.canon_unit_zero hz2]
  simp only [View.readAt_eq_ld, harg2.read_unread, harg3.read_unread, harg4.read_unread, harg5.read_unread, harg8.read_unread, harg9.read_unread,
    View.ld_unit_zero (S := S1024x1024) hz2, View.ld_unit_zero (S := S512x1024) hz2, View.ld_unit_zero (S := S1024x1) hz2, View.ld_unit_zero (S := S1x512) hz2]

theorem pieceC0_5 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : condC0 i) (x0 : Vec F S1024x1024 .f32) (x1 : Vec F S512x1024 .f32) (x2 : Vec F S1024x1 .i32) (x3 : Vec F S1x512 .i32) (xs0 xs1 : Vec F S1024x1 .f32) :
    rdP (kernelRunC0 c i arg2 harg2 arg3 harg3 arg4 harg4 arg5 harg5 arg6 harg6 arg7 harg7 arg8 harg8 arg9 harg9 hc0 hc1 x0 x1 x2 x3 xs0 xs1).2.1 = k0_pay2 (k0_pay8 x0 x1 x2 x3) xs1 := by
  unfold rdP
  rw [View.read_writes_eq_canon _ _ _ (coverC0_5 c i arg2 harg2 arg3 harg3 arg4 harg4 arg5 harg5 arg6 harg6 arg7 harg7 arg8 harg8 arg9 harg9 hc0 hc1 x0 x1 x2 x3 xs0 xs1)]
  unfold kernelRunC0
  dsimp only
  sl_unfold_words
  first
    | rw [View.canon_cons_unit_zero (S := S1024x1) hz2, View.readCov_unit_zero (S := S1024x1) _ hz2]
    | rw [View.canon_unit_zero hz2, View.readCov_unit_zero (S := S1024x1) _ hz2]
    | rw [View.canon_unit_zero hz2]
  simp only [View.readAt_eq_ld, harg2.read_unread, harg3.read_unread, harg4.read_unread, harg5.read_unread, harg8.read_unread, harg9.read_unread,
    View.ld_unit_zero (S := S1024x1024) hz2, View.ld_unit_zero (S := S512x1024) hz2, View.ld_unit_zero (S := S1024x1) hz2, View.ld_unit_zero (S := S1x512) hz2]

theorem pieceC0_s0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : condC0 i) (x0 : Vec F S1024x1024 .f32) (x1 : Vec F S512x1024 .f32) (x2 : Vec F S1024x1 .i32) (x3 : Vec F S1x512 .i32) (xs0 xs1 : Vec F S1024x1 .f32) :
    rdP (kernelRunC0 c i arg2 harg2 arg3 harg3 arg4 harg4 arg5 harg5 arg6 harg6 arg7 harg7 arg8 harg8 arg9 harg9 hc0 hc1 x0 x1 x2 x3 xs0 xs1).2.2.1 = k0_pay1 (k0_pay7 x0 x1 x2 x3) xs0 := by
  unfold rdP
  rw [View.read_writes_eq_canon _ _ _ (scoverC0_0 c i arg2 harg2 arg3 harg3 arg4 harg4 arg5 harg5 arg6 harg6 arg7 harg7 arg8 harg8 arg9 harg9 hc0 hc1 x0 x1 x2 x3 xs0 xs1)]
  unfold kernelRunC0
  dsimp only
  sl_unfold_words
  first
    | rw [View.canon_cons_unit_zero (S := S1024x1) hz2, View.readCov_unit_zero (S := S1024x1) _ hz2]
    | rw [View.canon_unit_zero hz2, View.readCov_unit_zero (S := S1024x1) _ hz2]
    | rw [View.canon_unit_zero hz2]
  simp only [View.readAt_eq_ld, harg2.read_unread, harg3.read_unread, harg4.read_unread, harg5.read_unread, harg8.read_unread, harg9.read_unread,
    View.ld_unit_zero (S := S1024x1024) hz2, View.ld_unit_zero (S := S512x1024) hz2, View.ld_unit_zero (S := S1024x1) hz2, View.ld_unit_zero (S := S1x512) hz2]

theorem pieceC0_s1 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA0 i) (hc1 : condC0 i) (x0 : Vec F S1024x1024 .f32) (x1 : Vec F S512x1024 .f32) (x2 : Vec F S1024x1 .i32) (x3 : Vec F S1x512 .i32) (xs0 xs1 : Vec F S1024x1 .f32) :
    rdP (kernelRunC0 c i arg2 harg2 arg3 harg3 arg4 harg4 arg5 harg5 arg6 harg6 arg7 harg7 arg8 harg8 arg9 harg9 hc0 hc1 x0 x1 x2 x3 xs0 xs1).2.2.2.1 = k0_pay2 (k0_pay8 x0 x1 x2 x3) xs1 := by
  unfold rdP
  rw [View.read_writes_eq_canon _ _ _ (scoverC0_1 c i arg2 harg2 arg3 harg3 arg4 harg4 arg5 harg5 arg6 harg6 arg7 harg7 arg8 harg8 arg9 harg9 hc0 hc1 x0 x1 x2 x3 xs0 xs1)]
  unfold kernelRunC0
  dsimp only
  sl_unfold_words
  first
    | rw [View.canon_cons_unit_zero (S := S1024x1) hz2, View.readCov_unit_zero (S := S1024x1) _ hz2]
    | rw [View.canon_unit_zero hz2, View.readCov_unit_zero (S := S1024x1) _ hz2]
    | rw [View.canon_unit_zero hz2]
  simp only [View.readAt_eq_ld, harg2.read_unread, harg3.read_unread, harg4.read_unread, harg5.read_unread, harg8.read_unread, harg9.read_unread,
    View.ld_unit_zero (S := S1024x1024) hz2, View.ld_unit_zero (S := S512x1024) hz2, View.ld_unit_zero (S := S1024x1) hz2, View.ld_unit_zero (S := S1x512) hz2]

end Cert.KernelIdeal.Hand

end
-- ==== Proof.MiningSpec.lean ====
/-
  The mathematics both programs compute, over the extended reals.

  Rows `rv a` and `cv b` are vectors of 1024 extended reals. Their squared distance is expanded as
  `|rv a|² + |cv b|² - 2 ⟨rv a, cv b⟩`, clipped below at the float literal 1e-12 and square-rooted. With integer
  labels `rl a` and `cl b`, the hardest positive of row `a` is the largest distance to a column with the same label
  (the bottom element when there is none) and the easiest negative the smallest distance to a column with another
  label (the top element when there is none). Both are stated for any number of rows and columns, so that the same
  definitions describe one tile of columns and all of them; a maximum over all columns is the maximum over the
  tiles of the tiles' maxima, and likewise for the minimum (proved in the module on tiles).
-/
import Idealize.ShloMosaic.PureOps.Ideal
import Idealize.ShloMosaic.PureOps.Ideal.Laws
import Idealize.ShloMosaic.Lib.ValueIdx

noncomputable section

namespace Cert.Mining

open Idealize.ShloMosaic

/-- The clip literal: the float nearest 1e-12. -/
def eps : EReal := Ideal.ofBits .f32 0x2B8CBCCC#32
/-- The literal 2. -/
def two : EReal := Ideal.ofBits .f32 0x40000000#32

/-- The inner product of two rows of 1024 entries. -/
def dot1024 (x y : Fin 1024 → EReal) : EReal := ∑ k : Fin 1024, x k * y k

/-- The clipped distance between row `a` of `rv` and row `b` of `cv`. -/
def dist {A B : ℕ} (rv : Fin A → Fin 1024 → EReal) (cv : Fin B → Fin 1024 → EReal) (a : Fin A) (b : Fin B) : EReal :=
  Ideal.sqrt (max ((dot1024 (rv a) (rv a) + dot1024 (cv b) (cv b)) - two * dot1024 (rv a) (cv b)) eps)

/-- The largest distance from row `a` to a column carrying its label; `⊥` if there is none. -/
def hardPos {A B : ℕ} (rv : Fin A → Fin 1024 → EReal) (cv : Fin B → Fin 1024 → EReal)
    (rl : Fin A → BitVec 32) (cl : Fin B → BitVec 32) (a : Fin A) : EReal :=
  (Finset.univ : Finset (Fin B)).fold max ⊥ (fun b => if rl a = cl b then dist rv cv a b else ⊥)

/-- The smallest distance from row `a` to a column carrying another label; `⊤` if there is none. -/
def easyNeg {A B : ℕ} (rv : Fin A → Fin 1024 → EReal) (cv : Fin B → Fin 1024 → EReal)
    (rl : Fin A → BitVec 32) (cl : Fin B → BitVec 32) (a : Fin A) : EReal :=
  (Finset.univ : Finset (Fin B)).fold min ⊤ (fun b => if rl a = cl b then ⊤ else dist rv cv a b)

/-! ## The two halves of the input, and the loss -/

open Idealize.ShloMosaic.ValueIdx

/-- The first 4096 rows of the input (one modality), -/
def rgb (x : (⟨2, ![8192, 1024]⟩ : Shape).Idx → EReal) : Fin 4096 → Fin 1024 → EReal :=
  fun a k => x (ix2 (⟨a.val, by omega⟩ : Fin 8192) k)
/-- the last 4096 rows (the other modality), -/
def ir (x : (⟨2, ![8192, 1024]⟩ : Shape).Idx → EReal) : Fin 4096 → Fin 1024 → EReal :=
  fun a k => x (ix2 (⟨4096 + a.val, by omega⟩ : Fin 8192) k)
/-- and the labels of each half. -/
def trgb (t : (⟨1, ![8192]⟩ : Shape).Idx → BitVec 32) : Fin 4096 → BitVec 32 :=
  fun a => t (ix1 (⟨a.val, by omega⟩ : Fin 8192))
def tir (t : (⟨1, ![8192]⟩ : Shape).Idx → BitVec 32) : Fin 4096 → BitVec 32 :=
  fun a => t (ix1 (⟨4096 + a.val, by omega⟩ : Fin 8192))

/-- The margin 0.3, zero and 4096 as the float literals both programs hold. -/
def margin : EReal := Ideal.ofBits .f32 0x3E99999A#32
def zero : EReal := Ideal.ofBits .f32 0x00000000#32
def n4096 : EReal := Ideal.ofBits .f32 0x45800000#32

/-- A function of the row number as a vector of 4096 entries. -/
def vec4096 (f : Fin 4096 → EReal) : (⟨1, ![4096]⟩ : Shape).Idx → EReal := fun i => f (i 0)

/-- The mean over the rows of the hinge `max (margin - (an - ap)) 0`. -/
def hinge (ap an : (⟨1, ![4096]⟩ : Shape).Idx → EReal) : EReal :=
  Ideal.div (zero + ∑ i : (⟨1, ![4096]⟩ : Shape).Idx, max (margin - (an i - ap i)) zero) n4096

/-- The loss: the two sides' mean hinges added. -/
def loss (apR anR apI anI : (⟨1, ![4096]⟩ : Shape).Idx → EReal) : EReal := hinge apR anR + hinge apI anI

/-- The whole computation as a function of the input and its labels: one side mines over the rows of the first half
    against the second, the other over the rows of the second against the first. -/
def result (x : (⟨2, ![8192, 1024]⟩ : Shape).Idx → EReal) (t : (⟨1, ![8192]⟩ : Shape).Idx → BitVec 32) : EReal :=
  loss (vec4096 (hardPos (rgb x) (ir x) (tir t) (trgb t))) (vec4096 (easyNeg (rgb x) (ir x) (tir t) (trgb t)))
       (vec4096 (hardPos (ir x) (rgb x) (trgb t) (tir t))) (vec4096 (easyNeg (ir x) (rgb x) (trgb t) (tir t)))

end Cert.Mining

end
-- ==== Proof.KPay.lean ====
import proofs.«127731_j5145370820780_1_alg».proof.Proof.Gen.KernelIdeal.Skeleton
import proofs.«127731_j5145370820780_1_alg».proof.Proof.MiningSpec
import Idealize.ShloMosaic.Lib.ValueIdx
import Idealize.ShloMosaic.Lib.ValueLayout
import Idealize.ShloMosaic.Lib.Pipeline.Value
import Idealize.ShloMosaic.PureOps.Ideal.Laws

/-
  The kernel body's pure values read at an index, over the extended reals. The tile of clipped distances at
  `(r, b)` is the distance between row `r` of the left block and row `b` of the right one; the label mask at `(r, b)`
  is the equality test of the two labels; the masked row-wise maximum and minimum are the hardest positive and the
  easiest negative of the tile's columns; the remaining values are a pointwise maximum and the two infinite constants.
-/

noncomputable section

namespace Cert.Mining.KPay

open Cert.KernelIdeal Cert.KernelIdeal.Gen Idealize.ShloMosaic Idealize.ShloMosaic.ValueIdx

/-- The rows of a two-axis block of width 1024, as functions of the lane. -/
def rows {A : ℕ} (x : (⟨2, ![A, 1024]⟩ : Shape).Idx → EReal) : Fin A → Fin 1024 → EReal := fun a k => x (ix2 a k)
/-- The labels of a column vector of 1024 entries. -/
def colLab (l : (⟨2, ![1024, 1]⟩ : Shape).Idx → BitVec 32) : Fin 1024 → BitVec 32 := fun a => l (ix2 a 0)
/-- The labels of a row vector of 512 entries. -/
def rowLab (l : (⟨2, ![1, 512]⟩ : Shape).Idx → BitVec 32) : Fin 512 → BitVec 32 := fun b => l (ix2 0 b)

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Literals -/

theorem ofBits_negInf : Ideal.ofBits .f32 0xFF800000#32 = (⊥ : EReal) := by simp [Ideal.ofBits, Ideal.ieee]
theorem ofBits_posInf : Ideal.ofBits .f32 0x7F800000#32 = (⊤ : EReal) := by simp [Ideal.ofBits, Ideal.ieee]

/-- A select on an integer equality test is the conditional on the equality. -/
theorem select_cmpi_eq {α : Type} {w : ℕ} (x y : BitVec w) (a b : α) :
    Scalar.select (IntOp.cmpi .eq x y) a b = if x = y then a else b := by
  by_cases h : x = y
  · subst h; simp [Scalar.select, IntOp.cmpi]
  · have hb : (x == y) = false := beq_eq_false_iff_ne.mpr h
    simp [Scalar.select, IntOp.cmpi, hb, h]

/-! ## Row sums of squares -/

/-- The sum over the lanes of the squares of row `r` of a 1024 × 1024 block. -/
theorem rowSq_1024 (x : Vec Ideal S1024x1024 .f32) (hφ : FKind.Formats .f32)
    (hacc : (0x00000000#32 : BitVec 32) = FKind.add.neutral .f32 hφ) (r : Fin 1024) :
    multiReduction (F := Ideal) .add [1] S1024 (mulf x x) 0x00000000#32 reduces_S1024x1024_S1024 hφ hacc (ix1 r)
      = dot1024 (rows x r) (rows x r) := by
  refine (Ideal.multiReduction_add_single _ _ reduces_S1024x1024_S1024 hφ hacc (ix1 r)).trans ?_
  show ∑ k : Fin 1024, _ = ∑ k : Fin 1024, _
  refine Finset.sum_congr rfl fun k _ => ?_
  have e : reduces_S1024x1024_S1024.lift (ix1 r) k = ix2 r k := funext fun a => Fin.ext (by
    match a with
    | ⟨0, _⟩ => rfl
    | ⟨1, _⟩ => rfl)
  rw [e]; rfl

/-- The sum over the lanes of the squares of row `b` of a 512 × 1024 block. -/
theorem rowSq_512 (x : Vec Ideal S512x1024 .f32) (hφ : FKind.Formats .f32)
    (hacc : (0x00000000#32 : BitVec 32) = FKind.add.neutral .f32 hφ) (b : Fin 512) :
    multiReduction (F := Ideal) .add [1] S512 (mulf x x) 0x00000000#32 reduces_S512x1024_S512 hφ hacc (ix1 b)
      = dot1024 (rows x b) (rows x b) := by
  refine (Ideal.multiReduction_add_single _ _ reduces_S512x1024_S512 hφ hacc (ix1 b)).trans ?_
  show ∑ k : Fin 1024, _ = ∑ k : Fin 1024, _
  refine Finset.sum_congr rfl fun k _ => ?_
  have e : reduces_S512x1024_S512.lift (ix1 b) k = ix2 b k := funext fun a => Fin.ext (by
    match a with
    | ⟨0, _⟩ => rfl
    | ⟨1, _⟩ => rfl)
  rw [e]; rfl

/-! ## The inner products -/

theorem lhs0 (j : S1024x512.Idx) (q : dot_S1024x1024_S512x1024_S1024x512_1_1_0_0_n_n.contr.Idx) : (dot_S1024x1024_S512x1024_S1024x512_1_1_0_0_n_n.lhsIdx j q 0).val = (j 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs1 (j : S1024x512.Idx) (q : dot_S1024x1024_S512x1024_S1024x512_1_1_0_0_n_n.contr.Idx) : (dot_S1024x1024_S512x1024_S1024x512_1_1_0_0_n_n.lhsIdx j q 1).val = (q ⟨0, by decide⟩).val :=
  dot_S1024x1024_S512x1024_S1024x512_1_1_0_0_n_n.lhsIdx_val_of_single rfl j q
theorem rhs0 (j : S1024x512.Idx) (q : dot_S1024x1024_S512x1024_S1024x512_1_1_0_0_n_n.contr.Idx) : (dot_S1024x1024_S512x1024_S1024x512_1_1_0_0_n_n.rhsIdx j q 0).val = (j 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs1 (j : S1024x512.Idx) (q : dot_S1024x1024_S512x1024_S1024x512_1_1_0_0_n_n.contr.Idx) : (dot_S1024x1024_S512x1024_S1024x512_1_1_0_0_n_n.rhsIdx j q 1).val = (q ⟨0, by decide⟩).val :=
  dot_S1024x1024_S512x1024_S1024x512_1_1_0_0_n_n.rhsIdx_val_of_single rfl j q

/-- The matrix product into the zero accumulator, contracting the lane axis of both operands, read at `(r, b)`:
    the inner product of row `r` of the left operand and row `b` of the right. -/
theorem matmul_apply (x3 : Vec Ideal S1024x1024 .f32) (x5 : Vec Ideal S512x1024 .f32) (r : Fin 1024) (b : Fin 512) :
    matmul (F := Ideal) dot_S1024x1024_S512x1024_S1024x512_1_1_0_0_n_n none (truncf .bf16 x3 bitsLt_bf16_f32) (truncf .bf16 x5 bitsLt_bf16_f32)
        (constant S1024x512 .f32 0x00000000#32) (ix2 r b)
      = dot1024 (rows x3 r) (rows x5 b) := by
  simp only [matmul]
  rw [Ideal.matmul_constant_zero_apply, ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 r b) ((contrEquiv1 dot_S1024x1024_S512x1024_S1024x512_1_1_0_0_n_n 1024 rfl rfl).symm k) = ix2 r k := funext fun a => Fin.ext (by
    match a with
    | ⟨0, _⟩ => exact lhs0 _ _
    | ⟨1, _⟩ => exact (lhs1 _ _).trans hk)
  have er : dot_S1024x1024_S512x1024_S1024x512_1_1_0_0_n_n.rhsIdx (ix2 r b) ((contrEquiv1 dot_S1024x1024_S512x1024_S1024x512_1_1_0_0_n_n 1024 rfl rfl).symm k) = ix2 b k := funext fun a => Fin.ext (by
    match a with
    | ⟨0, _⟩ => exact rhs0 _ _
    | ⟨1, _⟩ => exact (rhs1 _ _).trans hk)
  rw [el, er]; rfl

/-! ## The distance tile -/

theorem sqrt_apply {s : Shape} {φ : FTy} (a : FVec Ideal s φ) (i : s.Idx) : sqrt a i = Ideal.sqrt (a i) := rfl

theorem pay5_apply (x3 : Vec Ideal S1024x1024 .f32) (x5 : Vec Ideal S512x1024 .f32) (r : Fin 1024) (b : Fin 512) :
    k0_pay5 (F := Ideal) x3 x5 (ix2 r b) = Cert.Mining.dist (rows x3) (rows x5) r b := by
  unfold k0_pay5
  simp only [shapeCast_self]
  simp only [sqrt_apply, maximumf_apply, subf_apply, addf_apply, mulf_apply, broadcast_apply]
  rw [broadcastTo_a1_ab_apply, broadcastTo_1b_ab_apply, shapeCast_a_a1_apply, shapeCast_a_1a_apply]
  unfold Cert.Mining.dist Cert.Mining.two Cert.Mining.eps
  exact congrArg Ideal.sqrt (congrArg (fun t : EReal => max t (Ideal.ofBits .f32 0x2B8CBCCC#32))
    (congrArg₂ (fun p q : EReal => p - q)
      (congrArg₂ (fun p q : EReal => p + q) (rowSq_1024 x3 _ _ r) (rowSq_512 x5 _ _ b))
      (congrArg (fun q : EReal => Ideal.ofBits .f32 0x40000000#32 * q) (matmul_apply x3 x5 r b))))

/-! ## The label mask -/

theorem pay6_apply (l25 : Vec Ideal S1024x1 .i32) (l27 : Vec Ideal S1x512 .i32) (r : Fin 1024) (b : Fin 512) :
    k0_pay6 (F := Ideal) l25 l27 (ix2 r b) = IntOp.cmpi .eq (colLab l25 r) (rowLab l27 b) := by
  unfold k0_pay6
  simp only [shapeCast_self]
  show IntOp.cmpi .eq (broadcastTo S1024x512 l25 broadcasts_S1024x1_S1024x512 (ix2 r b))
      (broadcastTo S1024x512 l27 broadcasts_S1x512_S1024x512 (ix2 r b)) = _
  rw [broadcastTo_a1_ab_apply, broadcastTo_1b_ab_apply]
  rfl

/-! ## The masked tiles and their row-wise extrema -/

/-- Row `r` of the 1024 × 512 tile with the column coordinate `b` inserted is `(r, b)`. -/
theorem lift_row (r : Fin 1024) (b : Fin 512) : reduces_S1024x512_S1024.lift (ix1 r) b = ix2 r b :=
  funext fun a => Fin.ext (by
    match a with
    | ⟨0, _⟩ => rfl
    | ⟨1, _⟩ => rfl)

/-- A row-wise minimum over one axis, read at the ideal values: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

theorem pay8_apply (x3 : Vec Ideal S1024x1024 .f32) (x5 : Vec Ideal S512x1024 .f32) (l25 : Vec Ideal S1024x1 .i32)
    (l27 : Vec Ideal S1x512 .i32) (r : Fin 1024) (b : Fin 512) :
    k0_pay8 (F := Ideal) x3 x5 l25 l27 (ix2 r b)
      = if colLab l25 r = rowLab l27 b then ⊤ else Cert.Mining.dist (rows x3) (rows x5) r b := by
  unfold k0_pay8
  rw [select_apply, pay6_apply, pay5_apply, broadcast_apply, select_cmpi_eq]
  exact congrArg (fun z : EReal => if colLab l25 r = rowLab l27 b then z else Cert.Mining.dist (rows x3) (rows x5) r b) ofBits_posInf

theorem pay7_apply (x3 : Vec Ideal S1024x1024 .f32) (x5 : Vec Ideal S512x1024 .f32) (l25 : Vec Ideal S1024x1 .i32)
    (l27 : Vec Ideal S1x512 .i32) (r : Fin 1024) :
    k0_pay7 (F := Ideal) x3 x5 l25 l27 (ix2 r 0)
      = Cert.Mining.hardPos (rows x3) (rows x5) (colLab l25) (rowLab l27) r := by
  unfold k0_pay7
  refine (shapeCast_a_a1_apply _ shapeCasts_S1024_S1024x1 r 0).trans ?_
  refine (Ideal.multiReduction_maximumf_single _ _ reduces_S1024x512_S1024 _ _ (ix1 r)).trans ?_
  unfold Cert.Mining.hardPos
  show Finset.fold max (Ideal.ofBits .f32 0xFF800000#32) _ (Finset.univ : Finset (Fin 512)) = _
  rw [ofBits_negInf]
  refine congrArg (fun f => Finset.fold max (⊥ : EReal) f (Finset.univ : Finset (Fin 512))) (funext fun (b : Fin 512) => ?_)
  show select (k0_pay6 l25 l27) (k0_pay5 x3 x5) (broadcast S1024x512 _) (reduces_S1024x512_S1024.lift (ix1 r) b) = _
  rw [lift_row, select_apply, pay6_apply, pay5_apply, broadcast_apply, select_cmpi_eq]
  exact congrArg (fun z : EReal => if colLab l25 r = rowLab l27 b then Cert.Mining.dist (rows x3) (rows x5) r b else z) ofBits_negInf

theorem pay2_pay8_apply (x3 : Vec Ideal S1024x1024 .f32) (x5 : Vec Ideal S512x1024 .f32) (l25 : Vec Ideal S1024x1 .i32)
    (l27 : Vec Ideal S1x512 .i32) (v45 : Vec Ideal S1024x1 .f32) (r : Fin 1024) :
    k0_pay2 (F := Ideal) (k0_pay8 x3 x5 l25 l27) v45 (ix2 r 0)
      = min (v45 (ix2 r 0)) (Cert.Mining.easyNeg (rows x3) (rows x5) (colLab l25) (rowLab l27) r) := by
  unfold k0_pay2
  simp only [shapeCast_self]
  rw [minimumf_apply]
  refine congrArg (min (v45 (ix2 r 0))) ?_
  refine (shapeCast_a_a1_apply _ shapeCasts_S1024_S1024x1 r 0).trans ?_
  refine (multiReduction_minimumf_single _ _ reduces_S1024x512_S1024 _ _ (ix1 r)).trans ?_
  unfold Cert.Mining.easyNeg
  show Finset.fold min (Ideal.ofBits .f32 0x7F800000#32) _ (Finset.univ : Finset (Fin 512)) = _
  rw [ofBits_posInf]
  refine congrArg (fun f => Finset.fold min (⊤ : EReal) f (Finset.univ : Finset (Fin 512))) (funext fun (b : Fin 512) => ?_)
  show k0_pay8 x3 x5 l25 l27 (reduces_S1024x512_S1024.lift (ix1 r) b) = _
  rw [lift_row, pay8_apply]

theorem pay1_apply (v35 : FVec Ideal S1024x1 .f32) (v40 : Vec Ideal S1024x1 .f32) (r : Fin 1024) :
    k0_pay1 (F := Ideal) v35 v40 (ix2 r 0) = max (v40 (ix2 r 0)) (v35 (ix2 r 0)) := by
  unfold k0_pay1
  simp only [shapeCast_self]
  rfl

theorem pay3_apply (j : S1024x1.Idx) : k0_pay3 (F := Ideal) j = (⊥ : EReal) := by
  unfold k0_pay3
  simp only [shapeCast_self]
  exact ofBits_negInf

theorem pay4_apply (j : S1024x1.Idx) : k0_pay4 (F := Ideal) j = (⊤ : EReal) := by
  unfold k0_pay4
  simp only [shapeCast_self]
  exact ofBits_posInf

/-! ## The second call's payloads: the same values under other names -/

namespace K1

theorem pay7_apply (x3 : Vec Ideal S1024x1024 .f32) (x5 : Vec Ideal S512x1024 .f32) (l25 : Vec Ideal S1024x1 .i32)
    (l27 : Vec Ideal S1x512 .i32) (r : Fin 1024) :
    k1_pay7 (F := Ideal) x3 x5 l25 l27 (ix2 r 0)
      = Cert.Mining.hardPos (rows x3) (rows x5) (colLab l25) (rowLab l27) r :=
  KPay.pay7_apply x3 x5 l25 l27 r

theorem pay2_pay8_apply (x3 : Vec Ideal S1024x1024 .f32) (x5 : Vec Ideal S512x1024 .f32) (l25 : Vec Ideal S1024x1 .i32)
    (l27 : Vec Ideal S1x512 .i32) (v45 : Vec Ideal S1024x1 .f32) (r : Fin 1024) :
    k1_pay2 (F := Ideal) (k1_pay8 x3 x5 l25 l27) v45 (ix2 r 0)
      = min (v45 (ix2 r 0)) (Cert.Mining.easyNeg (rows x3) (rows x5) (colLab l25) (rowLab l27) r) :=
  KPay.pay2_pay8_apply x3 x5 l25 l27 v45 r

theorem pay1_apply (v35 : FVec Ideal S1024x1 .f32) (v40 : Vec Ideal S1024x1 .f32) (r : Fin 1024) :
    k1_pay1 (F := Ideal) v35 v40 (ix2 r 0) = max (v40 (ix2 r 0)) (v35 (ix2 r 0)) :=
  KPay.pay1_apply v35 v40 r

theorem pay3_apply (j : S1024x1.Idx) : k1_pay3 (F := Ideal) j = (⊥ : EReal) := KPay.pay3_apply j

theorem pay4_apply (j : S1024x1.Idx) : k1_pay4 (F := Ideal) j = (⊤ : EReal) := KPay.pay4_apply j

end K1

end Cert.Mining.KPay
-- ==== Proof.MiningTiles.lean ====
/-
  The 4096 columns are cut into 8 tiles of 512 consecutive columns. A running maximum over the tiles, started at
  the bottom element, ends at the maximum over all columns, and a running minimum started at the top element ends
  at the minimum over all columns. Both facts are instances of one statement about a family of extended reals
  indexed by the columns: its supremum is the running maximum of the suprema of its tiles. The proof is by
  antisymmetry: every column lies in exactly one tile (column `b` is entry `b % 512` of tile `b / 512`), and
  every entry of a tile is a column.
-/
import proofs.«127731_j5145370820780_1_alg».proof.Proof.MiningSpec

noncomputable section

namespace Cert.Mining

/-- Tile j (taken modulo 8) of a family indexed by the 4096 columns. -/
def tile {α : Type} (f : Fin 4096 → α) (j : ℕ) : Fin 512 → α :=
  fun b => f ⟨(j % 8) * 512 + b.val, by
    have h1 := b.isLt
    have h2 : j % 8 < 8 := Nat.mod_lt j (by norm_num)
    omega⟩

/-- The running maximum of the first `n` terms of a sequence, started at the bottom element. -/
def accMax (f : ℕ → EReal) : ℕ → EReal
  | 0 => ⊥
  | n + 1 => max (accMax f n) (f n)

/-- The running minimum of the first `n` terms of a sequence, started at the top element. -/
def accMin (f : ℕ → EReal) : ℕ → EReal
  | 0 => ⊤
  | n + 1 => min (accMin f n) (f n)

theorem accMax_succ (f : ℕ → EReal) (n : ℕ) : accMax f (n + 1) = max (accMax f n) (f n) := rfl

theorem accMin_succ (f : ℕ → EReal) (n : ℕ) : accMin f (n + 1) = min (accMin f n) (f n) := rfl

/-- The running maximum only reads the terms below its length. -/
theorem accMax_congr {f g : ℕ → EReal} {n : ℕ} (h : ∀ j < n, f j = g j) : accMax f n = accMax g n := by
  induction n with
  | zero => rfl
  | succ n ih =>
    rw [accMax_succ, accMax_succ, ih (fun j hj => h j (Nat.lt_succ_of_lt hj)), h n (Nat.lt_succ_self n)]

/-- The running minimum only reads the terms below its length. -/
theorem accMin_congr {f g : ℕ → EReal} {n : ℕ} (h : ∀ j < n, f j = g j) : accMin f n = accMin g n := by
  induction n with
  | zero => rfl
  | succ n ih =>
    rw [accMin_succ, accMin_succ, ih (fun j hj => h j (Nat.lt_succ_of_lt hj)), h n (Nat.lt_succ_self n)]

/-- Every term below the length is at most the running maximum. -/
theorem le_accMax {f : ℕ → EReal} {n j : ℕ} (h : j < n) : f j ≤ accMax f n := by
  induction n with
  | zero => exact absurd h (Nat.not_lt_zero j)
  | succ n ih =>
    rw [accMax_succ]
    rcases Nat.lt_succ_iff_lt_or_eq.mp h with h' | h'
    · exact le_trans (ih h') (le_max_left _ _)
    · rw [h']; exact le_max_right _ _

/-- A bound on every term below the length bounds the running maximum. -/
theorem accMax_le {f : ℕ → EReal} {n : ℕ} {c : EReal} (h : ∀ j < n, f j ≤ c) : accMax f n ≤ c := by
  induction n with
  | zero => exact bot_le
  | succ n ih =>
    rw [accMax_succ]
    exact max_le (ih (fun j hj => h j (Nat.lt_succ_of_lt hj))) (h n (Nat.lt_succ_self n))

/-- The running minimum is at most every term below the length. -/
theorem accMin_le {f : ℕ → EReal} {n j : ℕ} (h : j < n) : accMin f n ≤ f j := by
  induction n with
  | zero => exact absurd h (Nat.not_lt_zero j)
  | succ n ih =>
    rw [accMin_succ]
    rcases Nat.lt_succ_iff_lt_or_eq.mp h with h' | h'
    · exact le_trans (min_le_left _ _) (ih h')
    · rw [h']; exact min_le_right _ _

/-- A lower bound on every term below the length is a lower bound on the running minimum. -/
theorem le_accMin {f : ℕ → EReal} {n : ℕ} {c : EReal} (h : ∀ j < n, c ≤ f j) : c ≤ accMin f n := by
  induction n with
  | zero => exact le_top
  | succ n ih =>
    rw [accMin_succ]
    exact le_min (ih (fun j hj => h j (Nat.lt_succ_of_lt hj))) (h n (Nat.lt_succ_self n))

/-- Column `b` is entry `b % 512` of tile `b / 512`. -/
theorem eq_tile {α : Type} (g : Fin 4096 → α) (b : Fin 4096) :
    g b = tile g (b.val / 512) ⟨b.val % 512, Nat.mod_lt _ (by norm_num)⟩ := by
  unfold tile
  congr 1
  apply Fin.ext
  have h := b.isLt
  show b.val = (b.val / 512) % 8 * 512 + b.val % 512
  omega

/-- The supremum over the columns is the running maximum of the suprema over the tiles. -/
theorem sup_eq_accMax (g : Fin 4096 → EReal) :
    (Finset.univ : Finset (Fin 4096)).sup g
      = accMax (fun j => (Finset.univ : Finset (Fin 512)).sup (tile g j)) 8 := by
  apply le_antisymm
  · apply Finset.sup_le
    intro b _
    have hj : b.val / 512 < 8 := by have h := b.isLt; omega
    refine le_trans ?_ (le_accMax (f := fun j => (Finset.univ : Finset (Fin 512)).sup (tile g j)) hj)
    rw [eq_tile g b]
    exact Finset.le_sup (f := tile g (b.val / 512)) (Finset.mem_univ _)
  · apply accMax_le
    intro j _
    apply Finset.sup_le
    intro b _
    exact Finset.le_sup (f := g) (Finset.mem_univ _)

/-- The infimum over the columns is the running minimum of the infima over the tiles. -/
theorem inf_eq_accMin (g : Fin 4096 → EReal) :
    (Finset.univ : Finset (Fin 4096)).inf g
      = accMin (fun j => (Finset.univ : Finset (Fin 512)).inf (tile g j)) 8 := by
  apply le_antisymm
  · apply le_accMin
    intro j _
    apply Finset.le_inf
    intro b _
    exact Finset.inf_le (f := g) (Finset.mem_univ _)
  · apply Finset.le_inf
    intro b _
    have hj : b.val / 512 < 8 := by have h := b.isLt; omega
    refine le_trans (accMin_le (f := fun j => (Finset.univ : Finset (Fin 512)).inf (tile g j)) hj) ?_
    rw [eq_tile g b]
    exact Finset.inf_le (f := tile g (b.val / 512)) (Finset.mem_univ _)

variable {A : ℕ} (rv : Fin A → Fin 1024 → EReal) (cv : Fin 4096 → Fin 1024 → EReal)
  (rl : Fin A → BitVec 32) (cl : Fin 4096 → BitVec 32) (a : Fin A)

/-- The hardest positive over all columns is the running maximum of the hardest positives of the tiles. -/
theorem hardPos_eq_accMax :
    hardPos rv cv rl cl a = accMax (fun j => hardPos rv (tile cv j) rl (tile cl j) a) 8 :=
  sup_eq_accMax (fun b => if rl a = cl b then dist rv cv a b else ⊥)

/-- The easiest negative over all columns is the running minimum of the easiest negatives of the tiles. -/
theorem easyNeg_eq_accMin :
    easyNeg rv cv rl cl a = accMin (fun j => easyNeg rv (tile cv j) rl (tile cl j) a) 8 :=
  inf_eq_accMin (fun b => if rl a = cl b then ⊤ else dist rv cv a b)

end Cert.Mining

end
-- ==== Proof.KI.R0Value.lean ====
import proofs.«127731_j5145370820780_1_alg».proof.Proof.KI.R0Pieces
import proofs.«127731_j5145370820780_1_alg».proof.Proof.KPay
import proofs.«127731_j5145370820780_1_alg».proof.Proof.MiningTiles
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Cert.Mining Idealize.ShloMosaic.ValueIdx

/-! # Region 0 at the ideal instance: its two output arrays as functions of its four input arrays

The region's row operand `rv` (4096 rows of 1024 entries), column operand `cv`, row labels `rl` and column labels `cl`
are the arrays its input windows move. Grid point `t` has row block `t / 8` (1024 rows) and column tile `t % 8` (512
columns). After the point the running maximum of row `r` of the block is the maximum over the tiles `0 … t % 8` of the
tile's hardest positive, the running minimum likewise; at the last tile they are the maximum and the minimum over all
4096 columns, and that is what the write-back puts into the output arrays. -/

section Region
variable (V : (c : Dev nD) → (b : Ref sig .tc) → Buf (Elt Ideal) ((c : Thread nD τ).loc b))

/-- The four input arrays as the region finds them, as functions of row, column and label positions. -/
def rvA0 (c : Dev nD) : Fin 4096 → Fin 1024 → EReal := fun a k => V c main_v0 (ix2 a k)
def cvA0 (c : Dev nD) : Fin 4096 → Fin 1024 → EReal := fun b k => V c main_v1 (ix2 b k)
def rlA0 (c : Dev nD) : Fin 4096 → BitVec 32 := fun a => V c main_v6 (ix2 a (0 : Fin 1))
def clA0 (c : Dev nD) : Fin 4096 → BitVec 32 := fun b => V c main_v5 (ix2 (0 : Fin 1) b)

/-- The printed index maps, decided over the grid: the row windows and the outputs follow the row block, the column
    windows the column tile. -/
theorem idx_facts0 : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, _)

/-- Row `r` of the row block of position `n`, as a row of the whole array. -/
def rowOf0 (n : ℕ) (r : Fin 1024) : Fin 4096 := ⟨1024 * (n / 8 % 4) + r.val, by omega⟩

/-! ## Each input block is a slice of its array -/

theorem iblk0_0_apply (c : Dev nD) (t : Fin cfg0.N) (r : Fin 1024) (k : Fin 1024) :
    (iblk0 V c 0 t : Vec Ideal S1024x1024 .f32) (ix2 r k) = rvA0 V c (rowOf0 t.val r) k := by
  obtain ⟨e00, e01, e10, e11, e20, e21, e30, e31, e40, e41, e50, e51⟩ := idx_facts0 t
  have hN : t.val < 32 := lt_of_lt_of_eq t.isLt (show cfg0.N = 32 from N_0)
  unfold iblk0
  rw [View.read_apply]
  show V c main_v0 _ = V c main_v0 _
  refine congrArg _ ?_
  funext a; apply Fin.ext
  match a with
  | ⟨0, _⟩ => show win0_0.index t (0 : Fin 2) * 1024 + 1 * r.val = 1024 * (t.val / 8 % 4) + r.val; omega
  | ⟨1, _⟩ => show win0_0.index t (1 : Fin 2) * 1024 + 1 * k.val = k.val; omega

theorem iblk0_1_apply (c : Dev nD) (t : Fin cfg0.N) (b : Fin 512) (k : Fin 1024) :
    (iblk0 V c 1 t : Vec Ideal S512x1024 .f32) (ix2 b k) = tile (cvA0 V c) (t.val % 8) b k := by
  obtain ⟨e00, e01, e10, e11, e20, e21, e30, e31, e40, e41, e50, e51⟩ := idx_facts0 t
  have hN : t.val < 32 := lt_of_lt_of_eq t.isLt (show cfg0.N = 32 from N_0)
  unfold iblk0
  rw [View.read_apply]
  show V c main_v1 _ = V c main_v1 _
  refine congrArg _ ?_
  funext a; apply Fin.ext
  match a with
  | ⟨0, _⟩ => show win0_1.index t (0 : Fin 2) * 512 + 1 * b.val = (t.val % 8 % 8) * 512 + b.val; omega
  | ⟨1, _⟩ => show win0_1.index t (1 : Fin 2) * 1024 + 1 * k.val = k.val; omega

theorem iblk0_2_apply (c : Dev nD) (t : Fin cfg0.N) (r : Fin 1024) :
    (iblk0 V c 2 t : Vec Ideal S1024x1 .i32) (ix2 r (0 : Fin 1)) = rlA0 V c (rowOf0 t.val r) := by
  obtain ⟨e00, e01, e10, e11, e20, e21, e30, e31, e40, e41, e50, e51⟩ := idx_facts0 t
  have hN : t.val < 32 := lt_of_lt_of_eq t.isLt (show cfg0.N = 32 from N_0)
  unfold iblk0
  rw [View.read_apply]
  show V c main_v6 _ = V c main_v6 _
  refine congrArg _ ?_
  funext a; apply Fin.ext
  match a with
  | ⟨0, _⟩ => show win0_2.index t (0 : Fin 2) * 1024 + 1 * r.val = 1024 * (t.val / 8 % 4) + r.val; omega
  | ⟨1, _⟩ => show win0_2.index t (1 : Fin 2) * 1 + 1 * 0 = 0; omega

theorem iblk0_3_apply (c : Dev nD) (t : Fin cfg0.N) (b : Fin 512) :
    (iblk0 V c 3 t : Vec Ideal S1x512 .i32) (ix2 (0 : Fin 1) b) = tile (clA0 V c) (t.val % 8) b := by
  obtain ⟨e00, e01, e10, e11, e20, e21, e30, e31, e40, e41, e50, e51⟩ := idx_facts0 t
  have hN : t.val < 32 := lt_of_lt_of_eq t.isLt (show cfg0.N = 32 from N_0)
  unfold iblk0
  rw [View.read_apply]
  show V c main_v5 _ = V c main_v5 _
  refine congrArg _ ?_
  funext a; apply Fin.ext
  match a with
  | ⟨0, _⟩ => show win0_3.index t (0 : Fin 2) * 1 + 1 * 0 = 0; omega
  | ⟨1, _⟩ => show win0_3.index t (1 : Fin 2) * 512 + 1 * b.val = (t.val % 8 % 8) * 512 + b.val; omega

/-! ## One tile's contribution -/

/-- The hardest positive only reads row `a` of the row operand and its label. -/
theorem hardPos_congr {A A' B : ℕ} {rv : Fin A → Fin 1024 → EReal} {rv' : Fin A' → Fin 1024 → EReal} {cv cv' : Fin B → Fin 1024 → EReal}
    {rl : Fin A → BitVec 32} {rl' : Fin A' → BitVec 32} {cl cl' : Fin B → BitVec 32} {a : Fin A} {a' : Fin A'}
    (h1 : rv a = rv' a') (h2 : ∀ b, cv b = cv' b) (h3 : rl a = rl' a') (h4 : ∀ b, cl b = cl' b) :
    hardPos rv cv rl cl a = hardPos rv' cv' rl' cl' a' := by
  unfold hardPos Cert.Mining.dist; simp only [h1, h2, h3, h4]
theorem easyNeg_congr {A A' B : ℕ} {rv : Fin A → Fin 1024 → EReal} {rv' : Fin A' → Fin 1024 → EReal} {cv cv' : Fin B → Fin 1024 → EReal}
    {rl : Fin A → BitVec 32} {rl' : Fin A' → BitVec 32} {cl cl' : Fin B → BitVec 32} {a : Fin A} {a' : Fin A'}
    (h1 : rv a = rv' a') (h2 : ∀ b, cv b = cv' b) (h3 : rl a = rl' a') (h4 : ∀ b, cl b = cl' b) :
    easyNeg rv cv rl cl a = easyNeg rv' cv' rl' cl' a' := by
  unfold easyNeg Cert.Mining.dist; simp only [h1, h2, h3, h4]

/-- The hardest positive / easiest negative of row `r` of position `n`'s block within column tile `j`. -/
def fPos0 (c : Dev nD) (n : ℕ) (r : Fin 1024) : ℕ → EReal :=
  fun j => hardPos (rvA0 V c) (tile (cvA0 V c) j) (rlA0 V c) (tile (clA0 V c) j) (rowOf0 n r)
def fNeg0 (c : Dev nD) (n : ℕ) (r : Fin 1024) : ℕ → EReal :=
  fun j => easyNeg (rvA0 V c) (tile (cvA0 V c) j) (rlA0 V c) (tile (clA0 V c) j) (rowOf0 n r)

/-- What the body computes from the four blocks at point `t` is the point's tile's contribution. -/
theorem tilePos0 (c : Dev nD) (t : Fin cfg0.N) (r : Fin 1024) :
    hardPos (KPay.rows (iblk0 V c 0 t : Vec Ideal S1024x1024 .f32)) (KPay.rows (iblk0 V c 1 t : Vec Ideal S512x1024 .f32))
      (KPay.colLab (iblk0 V c 2 t : Vec Ideal S1024x1 .i32)) (KPay.rowLab (iblk0 V c 3 t : Vec Ideal S1x512 .i32)) r
      = fPos0 V c t.val r (t.val % 8) :=
  hardPos_congr (funext fun k => iblk0_0_apply V c t r k) (fun b => funext fun k => iblk0_1_apply V c t b k)
    (iblk0_2_apply V c t r) (fun b => iblk0_3_apply V c t b)
theorem tileNeg0 (c : Dev nD) (t : Fin cfg0.N) (r : Fin 1024) :
    easyNeg (KPay.rows (iblk0 V c 0 t : Vec Ideal S1024x1024 .f32)) (KPay.rows (iblk0 V c 1 t : Vec Ideal S512x1024 .f32))
      (KPay.colLab (iblk0 V c 2 t : Vec Ideal S1024x1 .i32)) (KPay.rowLab (iblk0 V c 3 t : Vec Ideal S1x512 .i32)) r
      = fNeg0 V c t.val r (t.val % 8) :=
  easyNeg_congr (funext fun k => iblk0_0_apply V c t r k) (fun b => funext fun k => iblk0_1_apply V c t b k)
    (iblk0_2_apply V c t r) (fun b => iblk0_3_apply V c t b)

/-! ## The three cases, read at a row -/

theorem stepA0 (c : Dev nD) (t : Fin cfg0.N) (h0 : t.val % 8 = 0) (r : Fin 1024) :
    ((ptA0 V c t h0).2.2.1 : Vec Ideal S1024x1 .f32) (ix2 r (0 : Fin 1)) = max ⊥ (fPos0 V c t.val r (t.val % 8))
    ∧ ((ptA0 V c t h0).2.2.2 : Vec Ideal S1024x1 .f32) (ix2 r (0 : Fin 1)) = min ⊤ (fNeg0 V c t.val r (t.val % 8)) := by
  unfold ptA0; dsimp only
  rw [pieceA0_0, pieceA0_1]
  exact ⟨by rw [KPay.pay1_apply, KPay.pay7_apply, KPay.pay3_apply, tilePos0],
    by rw [KPay.pay2_pay8_apply, KPay.pay4_apply, tileNeg0]⟩
theorem stepB0 (c : Dev nD) (t : Fin cfg0.N) (h0 : ¬t.val % 8 = 0) (h1 : ¬t.val % 8 = 7) (xs0 xs1 : Vec Ideal S1024x1 .f32) (r : Fin 1024) :
    ((ptB0 V c t h0 h1 xs0 xs1).2.2.1 : Vec Ideal S1024x1 .f32) (ix2 r (0 : Fin 1)) = max (xs0 (ix2 r (0 : Fin 1))) (fPos0 V c t.val r (t.val % 8))
    ∧ ((ptB0 V c t h0 h1 xs0 xs1).2.2.2 : Vec Ideal S1024x1 .f32) (ix2 r (0 : Fin 1)) = min (xs1 (ix2 r (0 : Fin 1))) (fNeg0 V c t.val r (t.val % 8)) := by
  unfold ptB0; dsimp only
  rw [pieceB0_0, pieceB0_1]
  exact ⟨by rw [KPay.pay1_apply, KPay.pay7_apply, tilePos0], by rw [KPay.pay2_pay8_apply, tileNeg0]⟩
theorem stepC0 (c : Dev nD) (t : Fin cfg0.N) (h0 : ¬t.val % 8 = 0) (h1 : t.val % 8 = 7) (xs0 xs1 : Vec Ideal S1024x1 .f32) (r : Fin 1024) :
    ((ptC0 V c t h0 h1 xs0 xs1).2.2.1 : Vec Ideal S1024x1 .f32) (ix2 r (0 : Fin 1)) = max (xs0 (ix2 r (0 : Fin 1))) (fPos0 V c t.val r (t.val % 8))
    ∧ ((ptC0 V c t h0 h1 xs0 xs1).2.2.2 : Vec Ideal S1024x1 .f32) (ix2 r (0 : Fin 1)) = min (xs1 (ix2 r (0 : Fin 1))) (fNeg0 V c t.val r (t.val % 8))
    ∧ ((ptC0 V c t h0 h1 xs0 xs1).1 : Vec Ideal S1024x1 .f32) (ix2 r (0 : Fin 1)) = max (xs0 (ix2 r (0 : Fin 1))) (fPos0 V c t.val r (t.val % 8))
    ∧ ((ptC0 V c t h0 h1 xs0 xs1).2.1 : Vec Ideal S1024x1 .f32) (ix2 r (0 : Fin 1)) = min (xs1 (ix2 r (0 : Fin 1))) (fNeg0 V c t.val r (t.val % 8)) := by
  unfold ptC0; dsimp only
  rw [pieceC0_s0, pieceC0_s1, pieceC0_4, pieceC0_5]
  exact ⟨by rw [KPay.pay1_apply, KPay.pay7_apply, tilePos0], by rw [KPay.pay2_pay8_apply, tileNeg0],
    by rw [KPay.pay1_apply, KPay.pay7_apply, tilePos0], by rw [KPay.pay2_pay8_apply, tileNeg0]⟩

/-! ## The induction on the point -/

/-- Within a row block (a position that is not a first column) the row of the whole array does not move. -/
theorem rowOf0_succ (n : ℕ) (r : Fin 1024) (h : ¬(n + 1) % 8 = 0) : rowOf0 (n + 1) r = rowOf0 n r := by
  unfold rowOf0; apply Fin.ext
  show 1024 * ((n + 1) / 8 % 4) + r.val = 1024 * (n / 8 % 4) + r.val
  omega
theorem fPos0_succ (c : Dev nD) (n : ℕ) (r : Fin 1024) (h : ¬(n + 1) % 8 = 0) : fPos0 V c (n + 1) r = fPos0 V c n r := by
  unfold fPos0; rw [rowOf0_succ n r h]
theorem fNeg0_succ (c : Dev nD) (n : ℕ) (r : Fin 1024) (h : ¬(n + 1) % 8 = 0) : fNeg0 V c (n + 1) r = fNeg0 V c n r := by
  unfold fNeg0; rw [rowOf0_succ n r h]

/-- THE RUNNING COLUMNS after position `n`: the fold over the tiles `0 … n % 8` of the tiles' contributions. -/
theorem outs_inv0 (c : Dev nD) : ∀ (n : ℕ) (hn : n < cfg0.N) (r : Fin 1024),
    ((outsAt0 V c n hn).2.2.1 : Vec Ideal S1024x1 .f32) (ix2 r (0 : Fin 1)) = accMax (fPos0 V c n r) (n % 8 + 1)
    ∧ ((outsAt0 V c n hn).2.2.2 : Vec Ideal S1024x1 .f32) (ix2 r (0 : Fin 1)) = accMin (fNeg0 V c n r) (n % 8 + 1)
  | 0, hn, r => by
    obtain ⟨hA, hB⟩ := stepA0 V c ⟨0, hn⟩ (Nat.zero_mod _) r
    exact ⟨hA, hB⟩
  | n + 1, hn, r => by
    obtain ⟨ih0, ih1⟩ := outs_inv0 c n (Nat.lt_of_succ_lt hn) r
    by_cases h0 : (n + 1) % 8 = 0
    · rw [outsAt0_A V c ⟨n + 1, hn⟩ h0]
      obtain ⟨hA, hB⟩ := stepA0 V c ⟨n + 1, hn⟩ h0 r
      rw [hA, hB]; dsimp only; rw [h0]; exact ⟨rfl, rfl⟩
    · have e : (n + 1) % 8 = n % 8 + 1 := by omega
      by_cases h1 : (n + 1) % 8 = 7
      · rw [outsAt0_C V c ⟨n + 1, hn⟩ h0 h1]
        obtain ⟨hA, hB, -, -⟩ := stepC0 V c ⟨n + 1, hn⟩ h0 h1 (outsAt0 V c n (Nat.lt_of_succ_lt hn)).2.2.1 (outsAt0 V c n (Nat.lt_of_succ_lt hn)).2.2.2 r
        refine ⟨hA.trans ?_, hB.trans ?_⟩
        · dsimp only; rw [ih0, fPos0_succ V c n r h0, e]; rfl
        · dsimp only; rw [ih1, fNeg0_succ V c n r h0, e]; rfl
      · rw [outsAt0_B V c ⟨n + 1, hn⟩ h0 h1]
        obtain ⟨hA, hB⟩ := stepB0 V c ⟨n + 1, hn⟩ h0 h1 (outsAt0 V c n (Nat.lt_of_succ_lt hn)).2.2.1 (outsAt0 V c n (Nat.lt_of_succ_lt hn)).2.2.2 r
        refine ⟨hA.trans ?_, hB.trans ?_⟩
        · dsimp only; rw [ih0, fPos0_succ V c n r h0, e]; rfl
        · dsimp only; rw [ih1, fNeg0_succ V c n r h0, e]; rfl

/-- The two output arrays the region ends with: per row the hardest positive and the easiest negative over ALL columns. -/
def GPos0 (c : Dev nD) : (⟨2, ![4096, 1]⟩ : Shape).Idx → EReal := fun i => hardPos (rvA0 V c) (cvA0 V c) (rlA0 V c) (clA0 V c) (i 0)
def GNeg0 (c : Dev nD) : (⟨2, ![4096, 1]⟩ : Shape).Idx → EReal := fun i => easyNeg (rvA0 V c) (cvA0 V c) (rlA0 V c) (clA0 V c) (i 0)

/-- At a last-column point the output blocks hold the folds over all eight tiles. -/
theorem outs_last0 (c : Dev nD) (t : Fin cfg0.N) (h7 : t.val % 8 = 7) (r : Fin 1024) :
    ((outsAt0 V c t.val t.isLt).1 : Vec Ideal S1024x1 .f32) (ix2 r (0 : Fin 1)) = hardPos (rvA0 V c) (cvA0 V c) (rlA0 V c) (clA0 V c) (rowOf0 t.val r)
    ∧ ((outsAt0 V c t.val t.isLt).2.1 : Vec Ideal S1024x1 .f32) (ix2 r (0 : Fin 1)) = easyNeg (rvA0 V c) (cvA0 V c) (rlA0 V c) (clA0 V c) (rowOf0 t.val r) := by
  have h0 : ¬t.val % 8 = 0 := by omega
  have hlt : t.val - 1 < cfg0.N := Nat.lt_of_le_of_lt (Nat.sub_le _ _) t.isLt
  have e7 : (t.val - 1) % 8 + 1 = 7 := by omega
  have erow : rowOf0 (t.val - 1) r = rowOf0 t.val r := by
    unfold rowOf0; apply Fin.ext
    show 1024 * ((t.val - 1) / 8 % 4) + r.val = 1024 * (t.val / 8 % 4) + r.val
    omega
  have eP : fPos0 V c (t.val - 1) r = fPos0 V c t.val r := by unfold fPos0; rw [erow]
  have eN : fNeg0 V c (t.val - 1) r = fNeg0 V c t.val r := by unfold fNeg0; rw [erow]
  have hP : hardPos (rvA0 V c) (cvA0 V c) (rlA0 V c) (clA0 V c) (rowOf0 t.val r) = accMax (fPos0 V c t.val r) 8 :=
    hardPos_eq_accMax _ _ _ _ _
  have hNg : easyNeg (rvA0 V c) (cvA0 V c) (rlA0 V c) (clA0 V c) (rowOf0 t.val r) = accMin (fNeg0 V c t.val r) 8 :=
    easyNeg_eq_accMin _ _ _ _ _
  obtain ⟨ih0, ih1⟩ := outs_inv0 V c (t.val - 1) hlt r
  rw [outsAt0_C V c t h0 h7]
  obtain ⟨-, -, hA, hB⟩ := stepC0 V c t h0 h7 (outsAt0 V c (t.val - 1) hlt).2.2.1 (outsAt0 V c (t.val - 1) hlt).2.2.2 r
  refine ⟨hA.trans ?_, hB.trans ?_⟩
  · rw [ih0, eP, e7, h7, hP]; exact (accMax_succ _ 7).symm
  · rw [ih1, eN, e7, h7, hNg]; exact (accMin_succ _ 7).symm

/-! ## From the blocks to the arrays -/

theorem mem_blk0_4 (t : Fin cfg0.N) (i : S4096x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v8_0).slice (win0_4.rect t)).set ↔ _
  rw [View.set_slice_whole, Rect.mem_set_unit]
  exact Iff.rfl
theorem mem_blk0_5 (t : Fin cfg0.N) (i : S4096x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v8_1).slice (win0_5.rect t)).set ↔ _
  rw [View.set_slice_whole, Rect.mem_set_unit]
  exact Iff.rfl

/-- What a last-column point writes back is its block of the whole-array function. -/
theorem flushed0_4 (c : Dev nD) (t : Fin cfg0.N) (hf : (cfg0.win 4).flush t = true) :
    (dat0 V c).flushed 4 t = ((cfg0.win 4).blk t).view.read (Elt Ideal) (GPos0 V c) := by
  have h7 : t.val % 8 = 7 := (flush0_4 t).mp hf
  obtain ⟨e00, e01, e10, e11, e20, e21, e30, e31, e40, e41, e50, e51⟩ := idx_facts0 t
  have hN : t.val < 32 := lt_of_lt_of_eq t.isLt (show cfg0.N = 32 from N_0)
  show (cfg0.win 4).cut (grid0.coords t) ((dat0 V c).after 4 t) = _
  rw [after0_4]
  funext j
  obtain ⟨r, q, rfl⟩ : ∃ (r : Fin 1024) (q : Fin 1), j = ix2 r q := ⟨j 0, j 1, eq_ix2 j⟩
  obtain rfl : q = 0 := Subsingleton.elim _ _
  show ((outsAt0 V c t.val t.isLt).1 : Vec Ideal S1024x1 .f32) (ix2 r (0 : Fin 1)) = GPos0 V c (((cfg0.win 4).blk t).view.emb (ix2 r (0 : Fin 1)))
  rw [(outs_last0 V c t h7 r).1]
  unfold GPos0
  refine congrArg _ ?_
  apply Fin.ext
  show 1024 * (t.val / 8 % 4) + r.val = win0_4.index t (0 : Fin 2) * 1024 + 1 * r.val
  omega
theorem flushed0_5 (c : Dev nD) (t : Fin cfg0.N) (hf : (cfg0.win 5).flush t = true) :
    (dat0 V c).flushed 5 t = ((cfg0.win 5).blk t).view.read (Elt Ideal) (GNeg0 V c) := by
  have h7 : t.val % 8 = 7 := (flush0_5 t).mp hf
  obtain ⟨e00, e01, e10, e11, e20, e21, e30, e31, e40, e41, e50, e51⟩ := idx_facts0 t
  have hN : t.val < 32 := lt_of_lt_of_eq t.isLt (show cfg0.N = 32 from N_0)
  show (cfg0.win 5).cut (grid0.coords t) ((dat0 V c).after 5 t) = _
  rw [after0_5]
  funext j
  obtain ⟨r, q, rfl⟩ : ∃ (r : Fin 1024) (q : Fin 1), j = ix2 r q := ⟨j 0, j 1, eq_ix2 j⟩
  obtain rfl : q = 0 := Subsingleton.elim _ _
  show ((outsAt0 V c t.val t.isLt).2.1 : Vec Ideal S1024x1 .f32) (ix2 r (0 : Fin 1)) = GNeg0 V c (((cfg0.win 5).blk t).view.emb (ix2 r (0 : Fin 1)))
  rw [(outs_last0 V c t h7 r).2]
  unfold GNeg0
  refine congrArg _ ?_
  apply Fin.ext
  show 1024 * (t.val / 8 % 4) + r.val = win0_5.index t (0 : Fin 2) * 1024 + 1 * r.val
  omega

/-- Row `i` of an output array is written back by the last-column point of its row block. -/
def lastPt0 (i : S4096x1.Idx) : Fin cfg0.N := ⟨8 * ((i 0).val / 1024) + 7, by
  have hi : (i 0).val < 4096 := (i 0).isLt
  rw [show cfg0.N = 32 from N_0]; omega⟩

/-- THE OUTPUT ARRAYS after the region: per row the hardest positive and the easiest negative over all columns. -/
theorem final0_4 (c : Dev nD) : (dat0 V c).arrAt 4 cfg0.N = GPos0 V c :=
  (dat0 V c).arrAt_eq_of_cover 4 (GPos0 V c) (flushed0_4 V c) fun i => by
    have hi : (i 0).val < 4096 := (i 0).isLt
    have hi1 : (i 1).val < 1 := (i 1).isLt
    refine ⟨lastPt0 i, (flush0_4 _).mpr (by show (8 * ((i 0).val / 1024) + 7) % 8 = 7; omega), ?_⟩
    rw [mem_blk0_4]
    obtain ⟨e00, e01, e10, e11, e20, e21, e30, e31, e40, e41, e50, e51⟩ := idx_facts0 (lastPt0 i)
    have ev : (lastPt0 i).val = 8 * ((i 0).val / 1024) + 7 := rfl
    intro a
    match a with
    | ⟨0, _⟩ => show win0_4.index (lastPt0 i) (0 : Fin 2) * 1024 ≤ (i 0).val ∧ (i 0).val < win0_4.index (lastPt0 i) (0 : Fin 2) * 1024 + 1024; omega
    | ⟨1, _⟩ => show win0_4.index (lastPt0 i) (1 : Fin 2) * 1 ≤ (i 1).val ∧ (i 1).val < win0_4.index (lastPt0 i) (1 : Fin 2) * 1 + 1; omega
theorem final0_5 (c : Dev nD) : (dat0 V c).arrAt 5 cfg0.N = GNeg0 V c :=
  (dat0 V c).arrAt_eq_of_cover 5 (GNeg0 V c) (flushed0_5 V c) fun i => by
    have hi : (i 0).val < 4096 := (i 0).isLt
    have hi1 : (i 1).val < 1 := (i 1).isLt
    refine ⟨lastPt0 i, (flush0_5 _).mpr (by show (8 * ((i 0).val / 1024) + 7) % 8 = 7; omega), ?_⟩
    rw [mem_blk0_5]
    obtain ⟨e00, e01, e10, e11, e20, e21, e30, e31, e40, e41, e50, e51⟩ := idx_facts0 (lastPt0 i)
    have ev : (lastPt0 i).val = 8 * ((i 0).val / 1024) + 7 := rfl
    intro a
    match a with
    | ⟨0, _⟩ => show win0_5.index (lastPt0 i) (0 : Fin 2) * 1024 ≤ (i 0).val ∧ (i 0).val < win0_5.index (lastPt0 i) (0 : Fin 2) * 1024 + 1024; omega
    | ⟨1, _⟩ => show win0_5.index (lastPt0 i) (1 : Fin 2) * 1 ≤ (i 1).val ∧ (i 1).val < win0_5.index (lastPt0 i) (1 : Fin 2) * 1 + 1; omega

end Region

end Cert.KernelIdeal.Hand

end
-- ==== Proof.KI.R1Pieces.lean ====
import proofs.«127731_j5145370820780_1_alg».proof.Proof.KI.R1Frame
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: what each case leaves, as payload terms

The pieces the runs found, read back: in every case the running maximum ends at `max (what it held) (the tile's row
maxima)` and the running minimum at `min (what it held) (the tile's row minima)`, where "what it held" is the reset
value in the first column and the previous point's contents otherwise; in the last column the two output blocks end at
those same two columns. Stated over the payload names, at any float instance. -/

theorem hz2' : (![0, 0] : Fin 2 → Nat) = fun _ => 0 := funext fun a => by fin_cases a <;> rfl

theorem pieceA1_0 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : condA1 i) (hc1 : ¬condC1 i) (x0 : Vec F S1024x1024 .f32) (x1 : Vec F S512x1024 .f32) (x2 : Vec F S1024x1 .i32) (x3 : Vec F S1x512 .i32) :
    rdP1 (kernelRunA1 c i arg2 harg2 arg3 harg3 arg4 harg4 arg5 harg5 arg6 harg6 arg7 harg7 arg8 harg8 arg9 harg9 hc0 hc1 x0 x1 x2 x3).1 = k1_pay1 (k1_pay7 x0 x1 x2 x3) (k1_pay3 (F := F)) := by
  unfold rdP1
  rw [View.read_writes_eq_canon _ _ _ (scoverA1_0 c i arg2 harg2 arg3 harg3 arg4 harg4 arg5 harg5 arg6 harg6 arg7 harg7 arg8 harg8 arg9 harg9 hc0 hc1 x0 x1 x2 x3)]
  unfold kernelRunA1
  dsimp only
  sl_unfold_words
  first
    | rw [View.canon_cons_unit_zero (S := S1024x1) hz2', View.readCov_unit_zero (S := S1024x1) _ hz2']
    | rw [View.canon_unit_zero hz2', View.readCov_unit_zero (S := S1024x1) _ hz2']
    | rw [View.canon_unit_zero hz2']
  simp only [View.readAt_eq_ld, harg2.read_unread, harg3.read_unread, harg4.read_unread, harg5.read_unread, harg8.read_unread, harg9.read_unread,
    View.ld_unit_zero (S := S1024x1024) hz2', View.ld_unit_zero (S := S512x1024) hz2', View.ld_unit_zero (S := S1024x1) hz2', View.ld_unit_zero (S := S1x512) hz2']

theorem pieceA1_1 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : condA1 i) (hc1 : ¬condC1 i) (x0 : Vec F S1024x1024 .f32) (x1 : Vec F S512x1024 .f32) (x2 : Vec F S1024x1 .i32) (x3 : Vec F S1x512 .i32) :
    rdP1 (kernelRunA1 c i arg2 harg2 arg3 harg3 arg4 harg4 arg5 harg5 arg6 harg6 arg7 harg7 arg8 harg8 arg9 harg9 hc0 hc1 x0 x1 x2 x3).2.1 = k1_pay2 (k1_pay8 x0 x1 x2 x3) (k1_pay4 (F := F)) := by
  unfold rdP1
  rw [View.read_writes_eq_canon _ _ _ (scoverA1_1 c i arg2 harg2 arg3 harg3 arg4 harg4 arg5 harg5 arg6 harg6 arg7 harg7 arg8 harg8 arg9 harg9 hc0 hc1 x0 x1 x2 x3)]
  unfold kernelRunA1
  dsimp only
  sl_unfold_words
  first
    | rw [View.canon_cons_unit_zero (S := S1024x1) hz2', View.readCov_unit_zero (S := S1024x1) _ hz2']
    | rw [View.canon_unit_zero hz2', View.readCov_unit_zero (S := S1024x1) _ hz2']
    | rw [View.canon_unit_zero hz2']
  simp only [View.readAt_eq_ld, harg2.read_unread, harg3.read_unread, harg4.read_unread, harg5.read_unread, harg8.read_unread, harg9.read_unread,
    View.ld_unit_zero (S := S1024x1024) hz2', View.ld_unit_zero (S := S512x1024) hz2', View.ld_unit_zero (S := S1024x1) hz2', View.ld_unit_zero (S := S1x512) hz2']

theorem pieceB1_0 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : ¬condC1 i) (x0 : Vec F S1024x1024 .f32) (x1 : Vec F S512x1024 .f32) (x2 : Vec F S1024x1 .i32) (x3 : Vec F S1x512 .i32) (xs0 xs1 : Vec F S1024x1 .f32) :
    rdP1 (kernelRunB1 c i arg2 harg2 arg3 harg3 arg4 harg4 arg5 harg5 arg6 harg6 arg7 harg7 arg8 harg8 arg9 harg9 hc0 hc1 x0 x1 x2 x3 xs0 xs1).1 = k1_pay1 (k1_pay7 x0 x1 x2 x3) xs0 := by
  unfold rdP1
  rw [View.read_writes_eq_canon _ _ _ (scoverB1_0 c i arg2 harg2 arg3 harg3 arg4 harg4 arg5 harg5 arg6 harg6 arg7 harg7 arg8 harg8 arg9 harg9 hc0 hc1 x0 x1 x2 x3 xs0 xs1)]
  unfold kernelRunB1
  dsimp only
  sl_unfold_words
  first
    | rw [View.canon_cons_unit_zero (S := S1024x1) hz2', View.readCov_unit_zero (S := S1024x1) _ hz2']
    | rw [View.canon_unit_zero hz2', View.readCov_unit_zero (S := S1024x1) _ hz2']
    | rw [View.canon_unit_zero hz2']
  simp only [View.readAt_eq_ld, harg2.read_unread, harg3.read_unread, harg4.read_unread, harg5.read_unread, harg8.read_unread, harg9.read_unread,
    View.ld_unit_zero (S := S1024x1024) hz2', View.ld_unit_zero (S := S512x1024) hz2', View.ld_unit_zero (S := S1024x1) hz2', View.ld_unit_zero (S := S1x512) hz2']

theorem pieceB1_1 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : ¬condC1 i) (x0 : Vec F S1024x1024 .f32) (x1 : Vec F S512x1024 .f32) (x2 : Vec F S1024x1 .i32) (x3 : Vec F S1x512 .i32) (xs0 xs1 : Vec F S1024x1 .f32) :
    rdP1 (kernelRunB1 c i arg2 harg2 arg3 harg3 arg4 harg4 arg5 harg5 arg6 harg6 arg7 harg7 arg8 harg8 arg9 harg9 hc0 hc1 x0 x1 x2 x3 xs0 xs1).2.1 = k1_pay2 (k1_pay8 x0 x1 x2 x3) xs1 := by
  unfold rdP1
  rw [View.read_writes_eq_canon _ _ _ (scoverB1_1 c i arg2 harg2 arg3 harg3 arg4 harg4 arg5 harg5 arg6 harg6 arg7 harg7 arg8 harg8 arg9 harg9 hc0 hc1 x0 x1 x2 x3 xs0 xs1)]
  unfold kernelRunB1
  dsimp only
  sl_unfold_words
  first
    | rw [View.canon_cons_unit_zero (S := S1024x1) hz2', View.readCov_unit_zero (S := S1024x1) _ hz2']
    | rw [View.canon_unit_zero hz2', View.readCov_unit_zero (S := S1024x1) _ hz2']
    | rw [View.canon_unit_zero hz2']
  simp only [View.readAt_eq_ld, harg2.read_unread, harg3.read_unread, harg4.read_unread, harg5.read_unread, harg8.read_unread, harg9.read_unread,
    View.ld_unit_zero (S := S1024x1024) hz2', View.ld_unit_zero (S := S512x1024) hz2', View.ld_unit_zero (S := S1024x1) hz2', View.ld_unit_zero (S := S1x512) hz2']

theorem pieceC1_4 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : condC1 i) (x0 : Vec F S1024x1024 .f32) (x1 : Vec F S512x1024 .f32) (x2 : Vec F S1024x1 .i32) (x3 : Vec F S1x512 .i32) (xs0 xs1 : Vec F S1024x1 .f32) :
    rdP1 (kernelRunC1 c i arg2 harg2 arg3 harg3 arg4 harg4 arg5 harg5 arg6 harg6 arg7 harg7 arg8 harg8 arg9 harg9 hc0 hc1 x0 x1 x2 x3 xs0 xs1).1 = k1_pay1 (k1_pay7 x0 x1 x2 x3) xs0 := by
  unfold rdP1
  rw [View.read_writes_eq_canon _ _ _ (coverC1_4 c i arg2 harg2 arg3 harg3 arg4 harg4 arg5 harg5 arg6 harg6 arg7 harg7 arg8 harg8 arg9 harg9 hc0 hc1 x0 x1 x2 x3 xs0 xs1)]
  unfold kernelRunC1
  dsimp only
  sl_unfold_words
  first
    | rw [View.canon_cons_unit_zero (S := S1024x1) hz2', View.readCov_unit_zero (S := S1024x1) _ hz2']
    | rw [View.canon_unit_zero hz2', View.readCov_unit_zero (S := S1024x1) _ hz2']
    | rw [View.canon_unit_zero hz2']
  simp only [View.readAt_eq_ld, harg2.read_unread, harg3.read_unread, harg4.read_unread, harg5.read_unread, harg8.read_unread, harg9.read_unread,
    View.ld_unit_zero (S := S1024x1024) hz2', View.ld_unit_zero (S := S512x1024) hz2', View.ld_unit_zero (S := S1024x1) hz2', View.ld_unit_zero (S := S1x512) hz2']

theorem pieceC1_5 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : condC1 i) (x0 : Vec F S1024x1024 .f32) (x1 : Vec F S512x1024 .f32) (x2 : Vec F S1024x1 .i32) (x3 : Vec F S1x512 .i32) (xs0 xs1 : Vec F S1024x1 .f32) :
    rdP1 (kernelRunC1 c i arg2 harg2 arg3 harg3 arg4 harg4 arg5 harg5 arg6 harg6 arg7 harg7 arg8 harg8 arg9 harg9 hc0 hc1 x0 x1 x2 x3 xs0 xs1).2.1 = k1_pay2 (k1_pay8 x0 x1 x2 x3) xs1 := by
  unfold rdP1
  rw [View.read_writes_eq_canon _ _ _ (coverC1_5 c i arg2 harg2 arg3 harg3 arg4 harg4 arg5 harg5 arg6 harg6 arg7 harg7 arg8 harg8 arg9 harg9 hc0 hc1 x0 x1 x2 x3 xs0 xs1)]
  unfold kernelRunC1
  dsimp only
  sl_unfold_words
  first
    | rw [View.canon_cons_unit_zero (S := S1024x1) hz2', View.readCov_unit_zero (S := S1024x1) _ hz2']
    | rw [View.canon_unit_zero hz2', View.readCov_unit_zero (S := S1024x1) _ hz2']
    | rw [View.canon_unit_zero hz2']
  simp only [View.readAt_eq_ld, harg2.read_unread, harg3.read_unread, harg4.read_unread, harg5.read_unread, harg8.read_unread, harg9.read_unread,
    View.ld_unit_zero (S := S1024x1024) hz2', View.ld_unit_zero (S := S512x1024) hz2', View.ld_unit_zero (S := S1024x1) hz2', View.ld_unit_zero (S := S1x512) hz2']

theorem pieceC1_s0 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : condC1 i) (x0 : Vec F S1024x1024 .f32) (x1 : Vec F S512x1024 .f32) (x2 : Vec F S1024x1 .i32) (x3 : Vec F S1x512 .i32) (xs0 xs1 : Vec F S1024x1 .f32) :
    rdP1 (kernelRunC1 c i arg2 harg2 arg3 harg3 arg4 harg4 arg5 harg5 arg6 harg6 arg7 harg7 arg8 harg8 arg9 harg9 hc0 hc1 x0 x1 x2 x3 xs0 xs1).2.2.1 = k1_pay1 (k1_pay7 x0 x1 x2 x3) xs0 := by
  unfold rdP1
  rw [View.read_writes_eq_canon _ _ _ (scoverC1_0 c i arg2 harg2 arg3 harg3 arg4 harg4 arg5 harg5 arg6 harg6 arg7 harg7 arg8 harg8 arg9 harg9 hc0 hc1 x0 x1 x2 x3 xs0 xs1)]
  unfold kernelRunC1
  dsimp only
  sl_unfold_words
  first
    | rw [View.canon_cons_unit_zero (S := S1024x1) hz2', View.readCov_unit_zero (S := S1024x1) _ hz2']
    | rw [View.canon_unit_zero hz2', View.readCov_unit_zero (S := S1024x1) _ hz2']
    | rw [View.canon_unit_zero hz2']
  simp only [View.readAt_eq_ld, harg2.read_unread, harg3.read_unread, harg4.read_unread, harg5.read_unread, harg8.read_unread, harg9.read_unread,
    View.ld_unit_zero (S := S1024x1024) hz2', View.ld_unit_zero (S := S512x1024) hz2', View.ld_unit_zero (S := S1024x1) hz2', View.ld_unit_zero (S := S1x512) hz2']

theorem pieceC1_s1 (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬condA1 i) (hc1 : condC1 i) (x0 : Vec F S1024x1024 .f32) (x1 : Vec F S512x1024 .f32) (x2 : Vec F S1024x1 .i32) (x3 : Vec F S1x512 .i32) (xs0 xs1 : Vec F S1024x1 .f32) :
    rdP1 (kernelRunC1 c i arg2 harg2 arg3 harg3 arg4 harg4 arg5 harg5 arg6 harg6 arg7 harg7 arg8 harg8 arg9 harg9 hc0 hc1 x0 x1 x2 x3 xs0 xs1).2.2.2.1 = k1_pay2 (k1_pay8 x0 x1 x2 x3) xs1 := by
  unfold rdP1
  rw [View.read_writes_eq_canon _ _ _ (scoverC1_1 c i arg2 harg2 arg3 harg3 arg4 harg4 arg5 harg5 arg6 harg6 arg7 harg7 arg8 harg8 arg9 harg9 hc0 hc1 x0 x1 x2 x3 xs0 xs1)]
  unfold kernelRunC1
  dsimp only
  sl_unfold_words
  first
    | rw [View.canon_cons_unit_zero (S := S1024x1) hz2', View.readCov_unit_zero (S := S1024x1) _ hz2']
    | rw [View.canon_unit_zero hz2', View.readCov_unit_zero (S := S1024x1) _ hz2']
    | rw [View.canon_unit_zero hz2']
  simp only [View.readAt_eq_ld, harg2.read_unread, harg3.read_unread, harg4.read_unread, harg5.read_unread, harg8.read_unread, harg9.read_unread,
    View.ld_unit_zero (S := S1024x1024) hz2', View.ld_unit_zero (S := S512x1024) hz2', View.ld_unit_zero (S := S1024x1) hz2', View.ld_unit_zero (S := S1x512) hz2']

end Cert.KernelIdeal.Hand

end
-- ==== Proof.KI.R1Value.lean ====
import proofs.«127731_j5145370820780_1_alg».proof.Proof.KI.R1Pieces
import proofs.«127731_j5145370820780_1_alg».proof.Proof.KPay
import proofs.«127731_j5145370820780_1_alg».proof.Proof.MiningTiles
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Cert.Mining Idealize.ShloMosaic.ValueIdx

/-! # Region 1 at the ideal instance: its two output arrays as functions of its four input arrays

The region's row operand `rv` (4096 rows of 1024 entries), column operand `cv`, row labels `rl` and column labels `cl`
are the arrays its input windows move. Grid point `t` has row block `t / 8` (1024 rows) and column tile `t % 8` (512
columns). After the point the running maximum of row `r` of the block is the maximum over the tiles `0 … t % 8` of the
tile's hardest positive, the running minimum likewise; at the last tile they are the maximum and the minimum over all
4096 columns, and that is what the write-back puts into the output arrays. -/

section Region
variable (V : (c : Dev nD) → (b : Ref sig .tc) → Buf (Elt Ideal) ((c : Thread nD τ).loc b))

/-- The four input arrays as the region finds them, as functions of row, column and label positions. -/
def rvA1 (c : Dev nD) : Fin 4096 → Fin 1024 → EReal := fun a k => V c main_v1 (ix2 a k)
def cvA1 (c : Dev nD) : Fin 4096 → Fin 1024 → EReal := fun b k => V c main_v0 (ix2 b k)
def rlA1 (c : Dev nD) : Fin 4096 → BitVec 32 := fun a => V c main_v4 (ix2 a (0 : Fin 1))
def clA1 (c : Dev nD) : Fin 4096 → BitVec 32 := fun b => V c main_v7 (ix2 (0 : Fin 1) b)

/-- The printed index maps, decided over the grid: the row windows and the outputs follow the row block, the column
    windows the column tile. -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = t.val / 8 ∧ win1_4.index t (1 : Fin 2) = 0
    ∧ win1_5.index t (0 : Fin 2) = t.val / 8 ∧ win1_5.index t (1 : Fin 2) = 0 :=
  (by decide +kernel : ∀ t : Fin grid1.N, _)

/-- Row `r` of the row block of position `n`, as a row of the whole array. -/
def rowOf1 (n : ℕ) (r : Fin 1024) : Fin 4096 := ⟨1024 * (n / 8 % 4) + r.val, by omega⟩

/-! ## Each input block is a slice of its array -/

theorem iblk1_0_apply (c : Dev nD) (t : Fin cfg1.N) (r : Fin 1024) (k : Fin 1024) :
    (iblk1 V c 0 t : Vec Ideal S1024x1024 .f32) (ix2 r k) = rvA1 V c (rowOf1 t.val r) k := by
  obtain ⟨e00, e01, e10, e11, e20, e21, e30, e31, e40, e41, e50, e51⟩ := idx_facts1 t
  have hN : t.val < 32 := lt_of_lt_of_eq t.isLt (show cfg1.N = 32 from N_1)
  unfold iblk1
  rw [View.read_apply]
  show V c main_v1 _ = V c main_v1 _
  refine congrArg _ ?_
  funext a; apply Fin.ext
  match a with
  | ⟨0, _⟩ => show win1_0.index t (0 : Fin 2) * 1024 + 1 * r.val = 1024 * (t.val / 8 % 4) + r.val; omega
  | ⟨1, _⟩ => show win1_0.index t (1 : Fin 2) * 1024 + 1 * k.val = k.val; omega

theorem iblk1_1_apply (c : Dev nD) (t : Fin cfg1.N) (b : Fin 512) (k : Fin 1024) :
    (iblk1 V c 1 t : Vec Ideal S512x1024 .f32) (ix2 b k) = tile (cvA1 V c) (t.val % 8) b k := by
  obtain ⟨e00, e01, e10, e11, e20, e21, e30, e31, e40, e41, e50, e51⟩ := idx_facts1 t
  have hN : t.val < 32 := lt_of_lt_of_eq t.isLt (show cfg1.N = 32 from N_1)
  unfold iblk1
  rw [View.read_apply]
  show V c main_v0 _ = V c main_v0 _
  refine congrArg _ ?_
  funext a; apply Fin.ext
  match a with
  | ⟨0, _⟩ => show win1_1.index t (0 : Fin 2) * 512 + 1 * b.val = (t.val % 8 % 8) * 512 + b.val; omega
  | ⟨1, _⟩ => show win1_1.index t (1 : Fin 2) * 1024 + 1 * k.val = k.val; omega

theorem iblk1_2_apply (c : Dev nD) (t : Fin cfg1.N) (r : Fin 1024) :
    (iblk1 V c 2 t : Vec Ideal S1024x1 .i32) (ix2 r (0 : Fin 1)) = rlA1 V c (rowOf1 t.val r) := by
  obtain ⟨e00, e01, e10, e11, e20, e21, e30, e31, e40, e41, e50, e51⟩ := idx_facts1 t
  have hN : t.val < 32 := lt_of_lt_of_eq t.isLt (show cfg1.N = 32 from N_1)
  unfold iblk1
  rw [View.read_apply]
  show V c main_v4 _ = V c main_v4 _
  refine congrArg _ ?_
  funext a; apply Fin.ext
  match a with
  | ⟨0, _⟩ => show win1_2.index t (0 : Fin 2) * 1024 + 1 * r.val = 1024 * (t.val / 8 % 4) + r.val; omega
  | ⟨1, _⟩ => show win1_2.index t (1 : Fin 2) * 1 + 1 * 0 = 0; omega

theorem iblk1_3_apply (c : Dev nD) (t : Fin cfg1.N) (b : Fin 512) :
    (iblk1 V c 3 t : Vec Ideal S1x512 .i32) (ix2 (0 : Fin 1) b) = tile (clA1 V c) (t.val % 8) b := by
  obtain ⟨e00, e01, e10, e11, e20, e21, e30, e31, e40, e41, e50, e51⟩ := idx_facts1 t
  have hN : t.val < 32 := lt_of_lt_of_eq t.isLt (show cfg1.N = 32 from N_1)
  unfold iblk1
  rw [View.read_apply]
  show V c main_v7 _ = V c main_v7 _
  refine congrArg _ ?_
  funext a; apply Fin.ext
  match a with
  | ⟨0, _⟩ => show win1_3.index t (0 : Fin 2) * 1 + 1 * 0 = 0; omega
  | ⟨1, _⟩ => show win1_3.index t (1 : Fin 2) * 512 + 1 * b.val = (t.val % 8 % 8) * 512 + b.val; omega

/-! ## One tile's contribution -/

/-- The hardest positive only reads row `a` of the row operand and its label. -/
theorem hardPos_congr1 {A A' B : ℕ} {rv : Fin A → Fin 1024 → EReal} {rv' : Fin A' → Fin 1024 → EReal} {cv cv' : Fin B → Fin 1024 → EReal}
    {rl : Fin A → BitVec 32} {rl' : Fin A' → BitVec 32} {cl cl' : Fin B → BitVec 32} {a : Fin A} {a' : Fin A'}
    (h1 : rv a = rv' a') (h2 : ∀ b, cv b = cv' b) (h3 : rl a = rl' a') (h4 : ∀ b, cl b = cl' b) :
    hardPos rv cv rl cl a = hardPos rv' cv' rl' cl' a' := by
  unfold hardPos Cert.Mining.dist; simp only [h1, h2, h3, h4]
theorem easyNeg_congr1 {A A' B : ℕ} {rv : Fin A → Fin 1024 → EReal} {rv' : Fin A' → Fin 1024 → EReal} {cv cv' : Fin B → Fin 1024 → EReal}
    {rl : Fin A → BitVec 32} {rl' : Fin A' → BitVec 32} {cl cl' : Fin B → BitVec 32} {a : Fin A} {a' : Fin A'}
    (h1 : rv a = rv' a') (h2 : ∀ b, cv b = cv' b) (h3 : rl a = rl' a') (h4 : ∀ b, cl b = cl' b) :
    easyNeg rv cv rl cl a = easyNeg rv' cv' rl' cl' a' := by
  unfold easyNeg Cert.Mining.dist; simp only [h1, h2, h3, h4]

/-- The hardest positive / easiest negative of row `r` of position `n`'s block within column tile `j`. -/
def fPos1 (c : Dev nD) (n : ℕ) (r : Fin 1024) : ℕ → EReal :=
  fun j => hardPos (rvA1 V c) (tile (cvA1 V c) j) (rlA1 V c) (tile (clA1 V c) j) (rowOf1 n r)
def fNeg1 (c : Dev nD) (n : ℕ) (r : Fin 1024) : ℕ → EReal :=
  fun j => easyNeg (rvA1 V c) (tile (cvA1 V c) j) (rlA1 V c) (tile (clA1 V c) j) (rowOf1 n r)

/-- What the body computes from the four blocks at point `t` is the point's tile's contribution. -/
theorem tilePos1 (c : Dev nD) (t : Fin cfg1.N) (r : Fin 1024) :
    hardPos (KPay.rows (iblk1 V c 0 t : Vec Ideal S1024x1024 .f32)) (KPay.rows (iblk1 V c 1 t : Vec Ideal S512x1024 .f32))
      (KPay.colLab (iblk1 V c 2 t : Vec Ideal S1024x1 .i32)) (KPay.rowLab (iblk1 V c 3 t : Vec Ideal S1x512 .i32)) r
      = fPos1 V c t.val r (t.val % 8) :=
  hardPos_congr1 (funext fun k => iblk1_0_apply V c t r k) (fun b => funext fun k => iblk1_1_apply V c t b k)
    (iblk1_2_apply V c t r) (fun b => iblk1_3_apply V c t b)
theorem tileNeg1 (c : Dev nD) (t : Fin cfg1.N) (r : Fin 1024) :
    easyNeg (KPay.rows (iblk1 V c 0 t : Vec Ideal S1024x1024 .f32)) (KPay.rows (iblk1 V c 1 t : Vec Ideal S512x1024 .f32))
      (KPay.colLab (iblk1 V c 2 t : Vec Ideal S1024x1 .i32)) (KPay.rowLab (iblk1 V c 3 t : Vec Ideal S1x512 .i32)) r
      = fNeg1 V c t.val r (t.val % 8) :=
  easyNeg_congr1 (funext fun k => iblk1_0_apply V c t r k) (fun b => funext fun k => iblk1_1_apply V c t b k)
    (iblk1_2_apply V c t r) (fun b => iblk1_3_apply V c t b)

/-! ## The three cases, read at a row -/

theorem stepA1 (c : Dev nD) (t : Fin cfg1.N) (h0 : t.val % 8 = 0) (r : Fin 1024) :
    ((ptA1 V c t h0).2.2.1 : Vec Ideal S1024x1 .f32) (ix2 r (0 : Fin 1)) = max ⊥ (fPos1 V c t.val r (t.val % 8))
    ∧ ((ptA1 V c t h0).2.2.2 : Vec Ideal S1024x1 .f32) (ix2 r (0 : Fin 1)) = min ⊤ (fNeg1 V c t.val r (t.val % 8)) := by
  unfold ptA1; dsimp only
  rw [pieceA1_0, pieceA1_1]
  exact ⟨by rw [KPay.K1.pay1_apply, KPay.K1.pay7_apply, KPay.K1.pay3_apply, tilePos1],
    by rw [KPay.K1.pay2_pay8_apply, KPay.K1.pay4_apply, tileNeg1]⟩
theorem stepB1 (c : Dev nD) (t : Fin cfg1.N) (h0 : ¬t.val % 8 = 0) (h1 : ¬t.val % 8 = 7) (xs0 xs1 : Vec Ideal S1024x1 .f32) (r : Fin 1024) :
    ((ptB1 V c t h0 h1 xs0 xs1).2.2.1 : Vec Ideal S1024x1 .f32) (ix2 r (0 : Fin 1)) = max (xs0 (ix2 r (0 : Fin 1))) (fPos1 V c t.val r (t.val % 8))
    ∧ ((ptB1 V c t h0 h1 xs0 xs1).2.2.2 : Vec Ideal S1024x1 .f32) (ix2 r (0 : Fin 1)) = min (xs1 (ix2 r (0 : Fin 1))) (fNeg1 V c t.val r (t.val % 8)) := by
  unfold ptB1; dsimp only
  rw [pieceB1_0, pieceB1_1]
  exact ⟨by rw [KPay.K1.pay1_apply, KPay.K1.pay7_apply, tilePos1], by rw [KPay.K1.pay2_pay8_apply, tileNeg1]⟩
theorem stepC1 (c : Dev nD) (t : Fin cfg1.N) (h0 : ¬t.val % 8 = 0) (h1 : t.val % 8 = 7) (xs0 xs1 : Vec Ideal S1024x1 .f32) (r : Fin 1024) :
    ((ptC1 V c t h0 h1 xs0 xs1).2.2.1 : Vec Ideal S1024x1 .f32) (ix2 r (0 : Fin 1)) = max (xs0 (ix2 r (0 : Fin 1))) (fPos1 V c t.val r (t.val % 8))
    ∧ ((ptC1 V c t h0 h1 xs0 xs1).2.2.2 : Vec Ideal S1024x1 .f32) (ix2 r (0 : Fin 1)) = min (xs1 (ix2 r (0 : Fin 1))) (fNeg1 V c t.val r (t.val % 8))
    ∧ ((ptC1 V c t h0 h1 xs0 xs1).1 : Vec Ideal S1024x1 .f32) (ix2 r (0 : Fin 1)) = max (xs0 (ix2 r (0 : Fin 1))) (fPos1 V c t.val r (t.val % 8))
    ∧ ((ptC1 V c t h0 h1 xs0 xs1).2.1 : Vec Ideal S1024x1 .f32) (ix2 r (0 : Fin 1)) = min (xs1 (ix2 r (0 : Fin 1))) (fNeg1 V c t.val r (t.val % 8)) := by
  unfold ptC1; dsimp only
  rw [pieceC1_s0, pieceC1_s1, pieceC1_4, pieceC1_5]
  exact ⟨by rw [KPay.K1.pay1_apply, KPay.K1.pay7_apply, tilePos1], by rw [KPay.K1.pay2_pay8_apply, tileNeg1],
    by rw [KPay.K1.pay1_apply, KPay.K1.pay7_apply, tilePos1], by rw [KPay.K1.pay2_pay8_apply, tileNeg1]⟩

/-! ## The induction on the point -/

/-- Within a row block (a position that is not a first column) the row of the whole array does not move. -/
theorem rowOf1_succ (n : ℕ) (r : Fin 1024) (h : ¬(n + 1) % 8 = 0) : rowOf1 (n + 1) r = rowOf1 n r := by
  unfold rowOf1; apply Fin.ext
  show 1024 * ((n + 1) / 8 % 4) + r.val = 1024 * (n / 8 % 4) + r.val
  omega
theorem fPos1_succ (c : Dev nD) (n : ℕ) (r : Fin 1024) (h : ¬(n + 1) % 8 = 0) : fPos1 V c (n + 1) r = fPos1 V c n r := by
  unfold fPos1; rw [rowOf1_succ n r h]
theorem fNeg1_succ (c : Dev nD) (n : ℕ) (r : Fin 1024) (h : ¬(n + 1) % 8 = 0) : fNeg1 V c (n + 1) r = fNeg1 V c n r := by
  unfold fNeg1; rw [rowOf1_succ n r h]

/-- THE RUNNING COLUMNS after position `n`: the fold over the tiles `0 … n % 8` of the tiles' contributions. -/
theorem outs_inv1 (c : Dev nD) : ∀ (n : ℕ) (hn : n < cfg1.N) (r : Fin 1024),
    ((outsAt1 V c n hn).2.2.1 : Vec Ideal S1024x1 .f32) (ix2 r (0 : Fin 1)) = accMax (fPos1 V c n r) (n % 8 + 1)
    ∧ ((outsAt1 V c n hn).2.2.2 : Vec Ideal S1024x1 .f32) (ix2 r (0 : Fin 1)) = accMin (fNeg1 V c n r) (n % 8 + 1)
  | 0, hn, r => by
    obtain ⟨hA, hB⟩ := stepA1 V c ⟨0, hn⟩ (Nat.zero_mod _) r
    exact ⟨hA, hB⟩
  | n + 1, hn, r => by
    obtain ⟨ih0, ih1⟩ := outs_inv1 c n (Nat.lt_of_succ_lt hn) r
    by_cases h0 : (n + 1) % 8 = 0
    · rw [outsAt1_A V c ⟨n + 1, hn⟩ h0]
      obtain ⟨hA, hB⟩ := stepA1 V c ⟨n + 1, hn⟩ h0 r
      rw [hA, hB]; dsimp only; rw [h0]; exact ⟨rfl, rfl⟩
    · have e : (n + 1) % 8 = n % 8 + 1 := by omega
      by_cases h1 : (n + 1) % 8 = 7
      · rw [outsAt1_C V c ⟨n + 1, hn⟩ h0 h1]
        obtain ⟨hA, hB, -, -⟩ := stepC1 V c ⟨n + 1, hn⟩ h0 h1 (outsAt1 V c n (Nat.lt_of_succ_lt hn)).2.2.1 (outsAt1 V c n (Nat.lt_of_succ_lt hn)).2.2.2 r
        refine ⟨hA.trans ?_, hB.trans ?_⟩
        · dsimp only; rw [ih0, fPos1_succ V c n r h0, e]; rfl
        · dsimp only; rw [ih1, fNeg1_succ V c n r h0, e]; rfl
      · rw [outsAt1_B V c ⟨n + 1, hn⟩ h0 h1]
        obtain ⟨hA, hB⟩ := stepB1 V c ⟨n + 1, hn⟩ h0 h1 (outsAt1 V c n (Nat.lt_of_succ_lt hn)).2.2.1 (outsAt1 V c n (Nat.lt_of_succ_lt hn)).2.2.2 r
        refine ⟨hA.trans ?_, hB.trans ?_⟩
        · dsimp only; rw [ih0, fPos1_succ V c n r h0, e]; rfl
        · dsimp only; rw [ih1, fNeg1_succ V c n r h0, e]; rfl

/-- The two output arrays the region ends with: per row the hardest positive and the easiest negative over ALL columns. -/
def GPos1 (c : Dev nD) : (⟨2, ![4096, 1]⟩ : Shape).Idx → EReal := fun i => hardPos (rvA1 V c) (cvA1 V c) (rlA1 V c) (clA1 V c) (i 0)
def GNeg1 (c : Dev nD) : (⟨2, ![4096, 1]⟩ : Shape).Idx → EReal := fun i => easyNeg (rvA1 V c) (cvA1 V c) (rlA1 V c) (clA1 V c) (i 0)

/-- At a last-column point the output blocks hold the folds over all eight tiles. -/
theorem outs_last1 (c : Dev nD) (t : Fin cfg1.N) (h7 : t.val % 8 = 7) (r : Fin 1024) :
    ((outsAt1 V c t.val t.isLt).1 : Vec Ideal S1024x1 .f32) (ix2 r (0 : Fin 1)) = hardPos (rvA1 V c) (cvA1 V c) (rlA1 V c) (clA1 V c) (rowOf1 t.val r)
    ∧ ((outsAt1 V c t.val t.isLt).2.1 : Vec Ideal S1024x1 .f32) (ix2 r (0 : Fin 1)) = easyNeg (rvA1 V c) (cvA1 V c) (rlA1 V c) (clA1 V c) (rowOf1 t.val r) := by
  have h0 : ¬t.val % 8 = 0 := by omega
  have hlt : t.val - 1 < cfg1.N := Nat.lt_of_le_of_lt (Nat.sub_le _ _) t.isLt
  have e7 : (t.val - 1) % 8 + 1 = 7 := by omega
  have erow : rowOf1 (t.val - 1) r = rowOf1 t.val r := by
    unfold rowOf1; apply Fin.ext
    show 1024 * ((t.val - 1) / 8 % 4) + r.val = 1024 * (t.val / 8 % 4) + r.val
    omega
  have eP : fPos1 V c (t.val - 1) r = fPos1 V c t.val r := by unfold fPos1; rw [erow]
  have eN : fNeg1 V c (t.val - 1) r = fNeg1 V c t.val r := by unfold fNeg1; rw [erow]
  have hP : hardPos (rvA1 V c) (cvA1 V c) (rlA1 V c) (clA1 V c) (rowOf1 t.val r) = accMax (fPos1 V c t.val r) 8 :=
    hardPos_eq_accMax _ _ _ _ _
  have hNg : easyNeg (rvA1 V c) (cvA1 V c) (rlA1 V c) (clA1 V c) (rowOf1 t.val r) = accMin (fNeg1 V c t.val r) 8 :=
    easyNeg_eq_accMin _ _ _ _ _
  obtain ⟨ih0, ih1⟩ := outs_inv1 V c (t.val - 1) hlt r
  rw [outsAt1_C V c t h0 h7]
  obtain ⟨-, -, hA, hB⟩ := stepC1 V c t h0 h7 (outsAt1 V c (t.val - 1) hlt).2.2.1 (outsAt1 V c (t.val - 1) hlt).2.2.2 r
  refine ⟨hA.trans ?_, hB.trans ?_⟩
  · rw [ih0, eP, e7, h7, hP]; exact (accMax_succ _ 7).symm
  · rw [ih1, eN, e7, h7, hNg]; exact (accMin_succ _ 7).symm

/-! ## From the blocks to the arrays -/

theorem mem_blk1_4 (t : Fin cfg1.N) (i : S4096x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v11_0).slice (win1_4.rect t)).set ↔ _
  rw [View.set_slice_whole, Rect.mem_set_unit]
  exact Iff.rfl
theorem mem_blk1_5 (t : Fin cfg1.N) (i : S4096x1.Idx) :
    i ∈ ((cfg1.win 5).blk t).view.set ↔ ∀ a : Fin 2, win1_5.index t a * S1024x1.size a ≤ (i a).val ∧ (i a).val < win1_5.index t a * S1024x1.size a + S1024x1.size a := by
  show i ∈ ((View.whole main_v11_1).slice (win1_5.rect t)).set ↔ _
  rw [View.set_slice_whole, Rect.mem_set_unit]
  exact Iff.rfl

/-- What a last-column point writes back is its block of the whole-array function. -/
theorem flushed1_4 (c : Dev nD) (t : Fin cfg1.N) (hf : (cfg1.win 4).flush t = true) :
    (dat1 V c).flushed 4 t = ((cfg1.win 4).blk t).view.read (Elt Ideal) (GPos1 V c) := by
  have h7 : t.val % 8 = 7 := (flush1_4 t).mp hf
  obtain ⟨e00, e01, e10, e11, e20, e21, e30, e31, e40, e41, e50, e51⟩ := idx_facts1 t
  have hN : t.val < 32 := lt_of_lt_of_eq t.isLt (show cfg1.N = 32 from N_1)
  show (cfg1.win 4).cut (grid1.coords t) ((dat1 V c).after 4 t) = _
  rw [after1_4]
  funext j
  obtain ⟨r, q, rfl⟩ : ∃ (r : Fin 1024) (q : Fin 1), j = ix2 r q := ⟨j 0, j 1, eq_ix2 j⟩
  obtain rfl : q = 0 := Subsingleton.elim _ _
  show ((outsAt1 V c t.val t.isLt).1 : Vec Ideal S1024x1 .f32) (ix2 r (0 : Fin 1)) = GPos1 V c (((cfg1.win 4).blk t).view.emb (ix2 r (0 : Fin 1)))
  rw [(outs_last1 V c t h7 r).1]
  unfold GPos1
  refine congrArg _ ?_
  apply Fin.ext
  show 1024 * (t.val / 8 % 4) + r.val = win1_4.index t (0 : Fin 2) * 1024 + 1 * r.val
  omega
theorem flushed1_5 (c : Dev nD) (t : Fin cfg1.N) (hf : (cfg1.win 5).flush t = true) :
    (dat1 V c).flushed 5 t = ((cfg1.win 5).blk t).view.read (Elt Ideal) (GNeg1 V c) := by
  have h7 : t.val % 8 = 7 := (flush1_5 t).mp hf
  obtain ⟨e00, e01, e10, e11, e20, e21, e30, e31, e40, e41, e50, e51⟩ := idx_facts1 t
  have hN : t.val < 32 := lt_of_lt_of_eq t.isLt (show cfg1.N = 32 from N_1)
  show (cfg1.win 5).cut (grid1.coords t) ((dat1 V c).after 5 t) = _
  rw [after1_5]
  funext j
  obtain ⟨r, q, rfl⟩ : ∃ (r : Fin 1024) (q : Fin 1), j = ix2 r q := ⟨j 0, j 1, eq_ix2 j⟩
  obtain rfl : q = 0 := Subsingleton.elim _ _
  show ((outsAt1 V c t.val t.isLt).2.1 : Vec Ideal S1024x1 .f32) (ix2 r (0 : Fin 1)) = GNeg1 V c (((cfg1.win 5).blk t).view.emb (ix2 r (0 : Fin 1)))
  rw [(outs_last1 V c t h7 r).2]
  unfold GNeg1
  refine congrArg _ ?_
  apply Fin.ext
  show 1024 * (t.val / 8 % 4) + r.val = win1_5.index t (0 : Fin 2) * 1024 + 1 * r.val
  omega

/-- Row `i` of an output array is written back by the last-column point of its row block. -/
def lastPt1 (i : S4096x1.Idx) : Fin cfg1.N := ⟨8 * ((i 0).val / 1024) + 7, by
  have hi : (i 0).val < 4096 := (i 0).isLt
  rw [show cfg1.N = 32 from N_1]; omega⟩

/-- THE OUTPUT ARRAYS after the region: per row the hardest positive and the easiest negative over all columns. -/
theorem final1_4 (c : Dev nD) : (dat1 V c).arrAt 4 cfg1.N = GPos1 V c :=
  (dat1 V c).arrAt_eq_of_cover 4 (GPos1 V c) (flushed1_4 V c) fun i => by
    have hi : (i 0).val < 4096 := (i 0).isLt
    have hi1 : (i 1).val < 1 := (i 1).isLt
    refine ⟨lastPt1 i, (flush1_4 _).mpr (by show (8 * ((i 0).val / 1024) + 7) % 8 = 7; omega), ?_⟩
    rw [mem_blk1_4]
    obtain ⟨e00, e01, e10, e11, e20, e21, e30, e31, e40, e41, e50, e51⟩ := idx_facts1 (lastPt1 i)
    have ev : (lastPt1 i).val = 8 * ((i 0).val / 1024) + 7 := rfl
    intro a
    match a with
    | ⟨0, _⟩ => show win1_4.index (lastPt1 i) (0 : Fin 2) * 1024 ≤ (i 0).val ∧ (i 0).val < win1_4.index (lastPt1 i) (0 : Fin 2) * 1024 + 1024; omega
    | ⟨1, _⟩ => show win1_4.index (lastPt1 i) (1 : Fin 2) * 1 ≤ (i 1).val ∧ (i 1).val < win1_4.index (lastPt1 i) (1 : Fin 2) * 1 + 1; omega
theorem final1_5 (c : Dev nD) : (dat1 V c).arrAt 5 cfg1.N = GNeg1 V c :=
  (dat1 V c).arrAt_eq_of_cover 5 (GNeg1 V c) (flushed1_5 V c) fun i => by
    have hi : (i 0).val < 4096 := (i 0).isLt
    have hi1 : (i 1).val < 1 := (i 1).isLt
    refine ⟨lastPt1 i, (flush1_5 _).mpr (by show (8 * ((i 0).val / 1024) + 7) % 8 = 7; omega), ?_⟩
    rw [mem_blk1_5]
    obtain ⟨e00, e01, e10, e11, e20, e21, e30, e31, e40, e41, e50, e51⟩ := idx_facts1 (lastPt1 i)
    have ev : (lastPt1 i).val = 8 * ((i 0).val / 1024) + 7 := rfl
    intro a
    match a with
    | ⟨0, _⟩ => show win1_5.index (lastPt1 i) (0 : Fin 2) * 1024 ≤ (i 0).val ∧ (i 0).val < win1_5.index (lastPt1 i) (0 : Fin 2) * 1024 + 1024; omega
    | ⟨1, _⟩ => show win1_5.index (lastPt1 i) (1 : Fin 2) * 1 ≤ (i 1).val ∧ (i 1).val < win1_5.index (lastPt1 i) (1 : Fin 2) * 1 + 1; omega

end Region

end Cert.KernelIdeal.Hand

end
-- ==== Proof.KI.Value.lean ====
import proofs.«127731_j5145370820780_1_alg».proof.Proof.KI.Run
import proofs.«127731_j5145370820780_1_alg».proof.Proof.KI.FrameOf
import proofs.«127731_j5145370820780_1_alg».proof.Proof.KI.R0Value
import proofs.«127731_j5145370820780_1_alg».proof.Proof.KI.R1Value
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Cert.Mining Idealize.ShloMosaic.ValueIdx
open Idealize.ShloMosaic.StableHlo

/-! # The kernel program's result as the specification's function of its two arguments -/

/-- Running one list of host operations after another is running their concatenation. -/
theorem after_append' {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- An `[a, 1]` array cast to `[a]` reads, at `i`, the operand's one column at `i`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

variable (m : (ℓ : Loc nD τ sig) → Buf (Elt Ideal) ℓ) (ρ : Dev nD → PrngReg)

/-! ## The arrays the host writes before the first region -/

theorem V1_v0 (c : Dev nD) : (V1 m ρ c main_v0 : S4096x1024.Idx → EReal)
    = extractStridedSlice S4096x1024 ![0, 0] (m ((c : Thread nD τ).loc main_arg0)) slices_S8192x1024_S4096x1024_0_0 := by
  show StableHlo.after hostOps0 (W0 m ρ c) (Proc.devRef .tc main_v0) = _
  after_results
  all_goals rfl
theorem V1_v1 (c : Dev nD) : (V1 m ρ c main_v1 : S4096x1024.Idx → EReal)
    = extractStridedSlice S4096x1024 ![4096, 0] (m ((c : Thread nD τ).loc main_arg0)) slices_S8192x1024_S4096x1024_4096_0 := by
  show StableHlo.after hostOps0 (W0 m ρ c) (Proc.devRef .tc main_v1) = _
  after_results
  all_goals rfl
theorem V1_v4 (c : Dev nD) : (V1 m ρ c main_v4 : S4096x1.Idx → BitVec 32)
    = shapeCast S4096x1 (extractStridedSlice S4096 ![0] (m ((c : Thread nD τ).loc main_arg1)) slices_S8192_S4096_0) shapeCasts_S4096_S4096x1 := by
  show StableHlo.after hostOps0 (W0 m ρ c) (Proc.devRef .tc main_v4) = _
  after_results
  all_goals rfl
theorem V1_v5 (c : Dev nD) : (V1 m ρ c main_v5 : S1x4096.Idx → BitVec 32)
    = shapeCast S1x4096 (extractStridedSlice S4096 ![0] (m ((c : Thread nD τ).loc main_arg1)) slices_S8192_S4096_0) shapeCasts_S4096_S1x4096 := by
  show StableHlo.after hostOps0 (W0 m ρ c) (Proc.devRef .tc main_v5) = _
  after_results
  all_goals rfl
theorem V1_v6 (c : Dev nD) : (V1 m ρ c main_v6 : S4096x1.Idx → BitVec 32)
    = shapeCast S4096x1 (extractStridedSlice S4096 ![4096] (m ((c : Thread nD τ).loc main_arg1)) slices_S8192_S4096_4096) shapeCasts_S4096_S4096x1 := by
  show StableHlo.after hostOps0 (W0 m ρ c) (Proc.devRef .tc main_v6) = _
  after_results
  all_goals rfl
theorem V1_v7 (c : Dev nD) : (V1 m ρ c main_v7 : S1x4096.Idx → BitVec 32)
    = shapeCast S1x4096 (extractStridedSlice S4096 ![4096] (m ((c : Thread nD τ).loc main_arg1)) slices_S8192_S4096_4096) shapeCasts_S4096_S1x4096 := by
  show StableHlo.after hostOps0 (W0 m ρ c) (Proc.devRef .tc main_v7) = _
  after_results
  all_goals rfl

/-- The two halves of the first argument and of the labels, read off those arrays. -/
theorem v0_at (c : Dev nD) (a : Fin 4096) (k : Fin 1024) : V1 m ρ c main_v0 (ix2 a k) = rgb (m ((c : Thread nD τ).loc main_arg0)) a k := by
  rw [V1_v0]
  exact extractStridedSlice_apply ![0, 0] _ slices_S8192x1024_S4096x1024_0_0 (ix2 a k) (ix2 (⟨a.val, by omega⟩ : Fin 8192) k) (fun ax => match ax with
    | ⟨0, _⟩ => by show a.val = 0 + a.val; omega
    | ⟨1, _⟩ => by show k.val = 0 + k.val; omega)
theorem v1_at (c : Dev nD) (a : Fin 4096) (k : Fin 1024) : V1 m ρ c main_v1 (ix2 a k) = ir (m ((c : Thread nD τ).loc main_arg0)) a k := by
  rw [V1_v1]
  exact extractStridedSlice_apply ![4096, 0] _ slices_S8192x1024_S4096x1024_4096_0 (ix2 a k) (ix2 (⟨4096 + a.val, by omega⟩ : Fin 8192) k) (fun ax => match ax with
    | ⟨0, _⟩ => by show 4096 + a.val = 4096 + a.val; omega
    | ⟨1, _⟩ => by show k.val = 0 + k.val; omega)
theorem v4_at (c : Dev nD) (a : Fin 4096) : V1 m ρ c main_v4 (ix2 a (0 : Fin 1)) = trgb (m ((c : Thread nD τ).loc main_arg1)) a := by
  rw [V1_v4, KPay.shapeCast_a_a1_apply]
  exact extractStridedSlice_apply ![0] _ slices_S8192_S4096_0 (ix1 a) (ix1 (⟨a.val, by omega⟩ : Fin 8192)) (fun ax => match ax with
    | ⟨0, _⟩ => by show a.val = 0 + a.val; omega)
theorem v6_at (c : Dev nD) (a : Fin 4096) : V1 m ρ c main_v6 (ix2 a (0 : Fin 1)) = tir (m ((c : Thread nD τ).loc main_arg1)) a := by
  rw [V1_v6, KPay.shapeCast_a_a1_apply]
  exact extractStridedSlice_apply ![4096] _ slices_S8192_S4096_4096 (ix1 a) (ix1 (⟨4096 + a.val, by omega⟩ : Fin 8192)) (fun ax => match ax with
    | ⟨0, _⟩ => by show 4096 + a.val = 4096 + a.val; omega)
theorem v5_at (c : Dev nD) (b : Fin 4096) : V1 m ρ c main_v5 (ix2 (0 : Fin 1) b) = trgb (m ((c : Thread nD τ).loc main_arg1)) b := by
  rw [V1_v5, shapeCast_a_1a_apply]
  exact extractStridedSlice_apply ![0] _ slices_S8192_S4096_0 (ix1 b) (ix1 (⟨b.val, by omega⟩ : Fin 8192)) (fun ax => match ax with
    | ⟨0, _⟩ => by show b.val = 0 + b.val; omega)
theorem v7_at (c : Dev nD) (b : Fin 4096) : V1 m ρ c main_v7 (ix2 (0 : Fin 1) b) = tir (m ((c : Thread nD τ).loc main_arg1)) b := by
  rw [V1_v7, shapeCast_a_1a_apply]
  exact extractStridedSlice_apply ![4096] _ slices_S8192_S4096_4096 (ix1 b) (ix1 (⟨4096 + b.val, by omega⟩ : Fin 8192)) (fun ax => match ax with
    | ⟨0, _⟩ => by show 4096 + b.val = 4096 + b.val; omega)

/-- Region 0's operands: rows of the first half against rows of the second, labels of the second half along the rows
    and of the first half along the columns. -/
theorem rvA0_V1 (c : Dev nD) : rvA0 (V1 m ρ) c = rgb (m ((c : Thread nD τ).loc main_arg0)) := funext fun a => funext fun k => v0_at m ρ c a k
theorem cvA0_V1 (c : Dev nD) : cvA0 (V1 m ρ) c = ir (m ((c : Thread nD τ).loc main_arg0)) := funext fun a => funext fun k => v1_at m ρ c a k
theorem rlA0_V1 (c : Dev nD) : rlA0 (V1 m ρ) c = tir (m ((c : Thread nD τ).loc main_arg1)) := funext fun a => v6_at m ρ c a
theorem clA0_V1 (c : Dev nD) : clA0 (V1 m ρ) c = trgb (m ((c : Thread nD τ).loc main_arg1)) := funext fun b => v5_at m ρ c b

/-! ## The arrays region 1 is entered with: what the host wrote before region 0, untouched since -/

theorem V3_of_W2 (c : Dev nD) (b : Ref sig .tc) (h : b ∉ hostOps1_W) : V3 m ρ c b = W2 m ρ c (Proc.devRef .tc b) :=
  StableHlo.after_of_writes_sub hostOps1 _ hostOps1_writes h
theorem V3_v0 (c : Dev nD) : V3 m ρ c main_v0 = V1 m ρ c main_v0 :=
  (V3_of_W2 m ρ c main_v0 (by decide)).trans ((W2_arr m ρ c 0).trans (((dat0 (V1 m ρ) c).arrAt_in 0 rfl _).trans (A_eq0 (V1 m ρ) c 0)))
theorem V3_v1 (c : Dev nD) : V3 m ρ c main_v1 = V1 m ρ c main_v1 :=
  (V3_of_W2 m ρ c main_v1 (by decide)).trans ((W2_arr m ρ c 1).trans (((dat0 (V1 m ρ) c).arrAt_in 1 rfl _).trans (A_eq0 (V1 m ρ) c 1)))
theorem V3_v4 (c : Dev nD) : V3 m ρ c main_v4 = V1 m ρ c main_v4 :=
  (V3_of_W2 m ρ c main_v4 (by decide)).trans (W2_of_ne m ρ c main_v4 (by decide))
theorem V3_v7 (c : Dev nD) : V3 m ρ c main_v7 = V1 m ρ c main_v7 :=
  (V3_of_W2 m ρ c main_v7 (by decide)).trans (W2_of_ne m ρ c main_v7 (by decide))

/-- Region 1's operands: rows of the second half against rows of the first, labels of the first half along the rows
    and of the second half along the columns. -/
theorem rvA1_V3 (c : Dev nD) : rvA1 (V3 m ρ) c = ir (m ((c : Thread nD τ).loc main_arg0)) := funext fun a => funext fun k => by
  show V3 m ρ c main_v1 (ix2 a k) = _
  rw [V3_v1]; exact v1_at m ρ c a k
theorem cvA1_V3 (c : Dev nD) : cvA1 (V3 m ρ) c = rgb (m ((c : Thread nD τ).loc main_arg0)) := funext fun a => funext fun k => by
  show V3 m ρ c main_v0 (ix2 a k) = _
  rw [V3_v0]; exact v0_at m ρ c a k
theorem rlA1_V3 (c : Dev nD) : rlA1 (V3 m ρ) c = trgb (m ((c : Thread nD τ).loc main_arg1)) := funext fun a => by
  show V3 m ρ c main_v4 (ix2 a (0 : Fin 1)) = _
  rw [V3_v4]; exact v4_at m ρ c a
theorem clA1_V3 (c : Dev nD) : clA1 (V3 m ρ) c = tir (m ((c : Thread nD τ).loc main_arg1)) := funext fun b => by
  show V3 m ρ c main_v7 (ix2 (0 : Fin 1) b) = _
  rw [V3_v7]; exact v7_at m ρ c b

/-! ## The four arrays the regions leave -/

theorem out0_pos (c : Dev nD) : (W2 m ρ c (Proc.devRef .tc main_v8_0) : S4096x1.Idx → EReal)
    = fun i => hardPos (rgb (m ((c : Thread nD τ).loc main_arg0))) (ir (m ((c : Thread nD τ).loc main_arg0))) (tir (m ((c : Thread nD τ).loc main_arg1))) (trgb (m ((c : Thread nD τ).loc main_arg1))) (i 0) :=
  (W2_arr m ρ c 4).trans ((final0_4 (V1 m ρ) c).trans (by unfold GPos0; rw [rvA0_V1, cvA0_V1, rlA0_V1, clA0_V1]; rfl))
theorem out0_neg (c : Dev nD) : (W2 m ρ c (Proc.devRef .tc main_v8_1) : S4096x1.Idx → EReal)
    = fun i => easyNeg (rgb (m ((c : Thread nD τ).loc main_arg0))) (ir (m ((c : Thread nD τ).loc main_arg0))) (tir (m ((c : Thread nD τ).loc main_arg1))) (trgb (m ((c : Thread nD τ).loc main_arg1))) (i 0) :=
  (W2_arr m ρ c 5).trans ((final0_5 (V1 m ρ) c).trans (by unfold GNeg0; rw [rvA0_V1, cvA0_V1, rlA0_V1, clA0_V1]; rfl))
theorem out1_pos (c : Dev nD) : (W4 m ρ c (Proc.devRef .tc main_v11_0) : S4096x1.Idx → EReal)
    = fun i => hardPos (ir (m ((c : Thread nD τ).loc main_arg0))) (rgb (m ((c : Thread nD τ).loc main_arg0))) (trgb (m ((c : Thread nD τ).loc main_arg1))) (tir (m ((c : Thread nD τ).loc main_arg1))) (i 0) :=
  (W4_arr m ρ c 4).trans ((final1_4 (V3 m ρ) c).trans (by unfold GPos1; rw [rvA1_V3, cvA1_V3, rlA1_V3, clA1_V3]; rfl))
theorem out1_neg (c : Dev nD) : (W4 m ρ c (Proc.devRef .tc main_v11_1) : S4096x1.Idx → EReal)
    = fun i => easyNeg (ir (m ((c : Thread nD τ).loc main_arg0))) (rgb (m ((c : Thread nD τ).loc main_arg0))) (trgb (m ((c : Thread nD τ).loc main_arg1))) (tir (m ((c : Thread nD τ).loc main_arg1))) (i 0) :=
  (W4_arr m ρ c 5).trans ((final1_5 (V3 m ρ) c).trans (by unfold GNeg1; rw [rvA1_V3, cvA1_V3, rlA1_V3, clA1_V3]; rfl))

/-- A column `[4096, 1]` holding a function of the row, cast to a vector, is that function as a vector. -/
theorem cast_col (f : Fin 4096 → EReal) :
    shapeCast S4096 (fun i : S4096x1.Idx => f (i 0)) shapeCasts_S4096x1_S4096 = vec4096 f := by
  funext j
  obtain ⟨a, rfl⟩ : ∃ a : Fin 4096, j = ix1 a := ⟨j 0, eq_ix1 j⟩
  exact shapeCast_a1_a_apply (fun i : (⟨2, ![4096, 1]⟩ : Shape).Idx => f (i 0)) shapeCasts_S4096x1_S4096 a

/-! ## The host operations after the second region -/

/-- One side's mean hinge, as the host computes it from the two vectors. -/
def hingeK (ap an : FVec Ideal S4096 .f32) : FVec Ideal S_ .f32 :=
  Host.divf
    (Host.reduceAdd
      (maximumf (subf (broadcastInDim S4096 ![] bcast_S_S4096 (constant (F := Ideal) S_ .f32 0x3E99999A#32)) (subf an ap))
        (broadcastInDim S4096 ![] bcast_S_S4096 (constant (F := Ideal) S_ .f32 0x00000000#32)))
      (constant (F := Ideal) S_ .f32 0x00000000#32) reducesTo_S4096_S_d0 h_S_)
    (constant (F := Ideal) S_ .f32 0x45800000#32)

theorem hingeK_apply (ap an : FVec Ideal S4096 .f32) (i : S_.Idx) :
    hingeK ap an i = Cert.Mining.hinge ap an := by
  unfold hingeK
  generalize hy : (maximumf (subf (broadcastInDim S4096 ![] bcast_S_S4096 (constant (F := Ideal) S_ .f32 0x3E99999A#32)) (subf an ap))
        (broadcastInDim S4096 ![] bcast_S_S4096 (constant (F := Ideal) S_ .f32 0x00000000#32)) : FVec Ideal S4096 .f32) = y
  have hsum : Host.reduceAdd (F := Ideal) y (constant (F := Ideal) S_ .f32 0x00000000#32) reducesTo_S4096_S_d0 h_S_ i
      = (constant (F := Ideal) S_ .f32 0x00000000#32) (Shape.Idx.first h_S_) + ∑ j : S4096.Idx, y j := by
    simp only [Host.reduceAdd, Ideal.hostReduceAdd_def]
    exact Ideal.hostReduceAdd_total reducesTo_S4096_S_d0 (fun b => b.elim0) y _ i
  show FloatOps.hostDivf (Host.reduceAdd (F := Ideal) y (constant (F := Ideal) S_ .f32 0x00000000#32) reducesTo_S4096_S_d0 h_S_ i)
      ((constant (F := Ideal) S_ .f32 0x45800000#32) i) = _
  rw [hsum]
  subst hy
  rfl

/-- The five stretches after the second region, as one list. -/
abbrev tailOps : List (HloOp τ sig (Elt Ideal)) := hostOps2 ++ (hostOps2_1 ++ (hostOps2_2 ++ (hostOps2_3 ++ hostOps2_4)))

theorem W9_eq_tail (c : Dev nD) : W9 m ρ c = StableHlo.after tailOps (W4 m ρ c) := by
  show StableHlo.after hostOps2_4 (StableHlo.after hostOps2_3 (StableHlo.after hostOps2_2 (StableHlo.after hostOps2_1 (StableHlo.after hostOps2 (W4 m ρ c))))) = _
  simp only [tailOps, after_append']

theorem W4_v9 (c : Dev nD) : W4 m ρ c (Proc.devRef .tc main_v9) = shapeCast S4096 (W2 m ρ c (Proc.devRef .tc main_v8_0) : S4096x1.Idx → EReal) shapeCasts_S4096x1_S4096 :=
  (W4_of_ne m ρ c main_v9 (by decide)).trans (by
    show StableHlo.after hostOps1 (W2 m ρ c) (Proc.devRef .tc main_v9) = _
    after_results
    all_goals rfl)
theorem W4_v10 (c : Dev nD) : W4 m ρ c (Proc.devRef .tc main_v10) = shapeCast S4096 (W2 m ρ c (Proc.devRef .tc main_v8_1) : S4096x1.Idx → EReal) shapeCasts_S4096x1_S4096 :=
  (W4_of_ne m ρ c main_v10 (by decide)).trans (by
    show StableHlo.after hostOps1 (W2 m ρ c) (Proc.devRef .tc main_v10) = _
    after_results
    all_goals rfl)

/-- The four arrays cast to vectors are the specification's four vectors. -/
theorem v9_eq (c : Dev nD) : shapeCast S4096 (W2 m ρ c (Proc.devRef .tc main_v8_0) : S4096x1.Idx → EReal) shapeCasts_S4096x1_S4096 = vec4096 (hardPos (rgb (m ((c : Thread nD τ).loc main_arg0))) (ir (m ((c : Thread nD τ).loc main_arg0))) (tir (m ((c : Thread nD τ).loc main_arg1))) (trgb (m ((c : Thread nD τ).loc main_arg1)))) :=
  (congrArg (fun x : S4096x1.Idx → EReal => shapeCast S4096 x shapeCasts_S4096x1_S4096) (out0_pos m ρ c)).trans (cast_col _)
theorem v10_eq (c : Dev nD) : shapeCast S4096 (W2 m ρ c (Proc.devRef .tc main_v8_1) : S4096x1.Idx → EReal) shapeCasts_S4096x1_S4096 = vec4096 (easyNeg (rgb (m ((c : Thread nD τ).loc main_arg0))) (ir (m ((c : Thread nD τ).loc main_arg0))) (tir (m ((c : Thread nD τ).loc main_arg1))) (trgb (m ((c : Thread nD τ).loc main_arg1)))) :=
  (congrArg (fun x : S4096x1.Idx → EReal => shapeCast S4096 x shapeCasts_S4096x1_S4096) (out0_neg m ρ c)).trans (cast_col _)
theorem v12_eq (c : Dev nD) : shapeCast S4096 (W4 m ρ c (Proc.devRef .tc main_v11_0) : S4096x1.Idx → EReal) shapeCasts_S4096x1_S4096 = vec4096 (hardPos (ir (m ((c : Thread nD τ).loc main_arg0))) (rgb (m ((c : Thread nD τ).loc main_arg0))) (trgb (m ((c : Thread nD τ).loc main_arg1))) (tir (m ((c : Thread nD τ).loc main_arg1)))) :=
  (congrArg (fun x : S4096x1.Idx → EReal => shapeCast S4096 x shapeCasts_S4096x1_S4096) (out1_pos m ρ c)).trans (cast_col _)
theorem v13_eq (c : Dev nD) : shapeCast S4096 (W4 m ρ c (Proc.devRef .tc main_v11_1) : S4096x1.Idx → EReal) shapeCasts_S4096x1_S4096 = vec4096 (easyNeg (ir (m ((c : Thread nD τ).loc main_arg0))) (rgb (m ((c : Thread nD τ).loc main_arg0))) (trgb (m ((c : Thread nD τ).loc main_arg1))) (tir (m ((c : Thread nD τ).loc main_arg1)))) :=
  (congrArg (fun x : S4096x1.Idx → EReal => shapeCast S4096 x shapeCasts_S4096x1_S4096) (out1_neg m ρ c)).trans (cast_col _)

set_option maxHeartbeats 4000000 in
/-- The result buffer after the last stretch: the two sides' mean hinges of the four arrays, added. -/
theorem W9_result (c : Dev nD) : (W9 m ρ c (Proc.devRef .tc main_v26) : FVec Ideal S_ .f32)
    = addf (F := Ideal) (s := S_) (φ := .f32)
        (hingeK (shapeCast S4096 (W2 m ρ c (Proc.devRef .tc main_v8_0) : S4096x1.Idx → EReal) shapeCasts_S4096x1_S4096) (shapeCast S4096 (W2 m ρ c (Proc.devRef .tc main_v8_1) : S4096x1.Idx → EReal) shapeCasts_S4096x1_S4096))
        (hingeK (shapeCast S4096 (W4 m ρ c (Proc.devRef .tc main_v11_0) : S4096x1.Idx → EReal) shapeCasts_S4096x1_S4096) (shapeCast S4096 (W4 m ρ c (Proc.devRef .tc main_v11_1) : S4096x1.Idx → EReal) shapeCasts_S4096x1_S4096)) := by
  rw [W9_eq_tail]
  simp only [tailOps, hostOps2, hostOps2_1, hostOps2_2, hostOps2_3, hostOps2_4, List.cons_append, List.nil_append]
  after_results_simp
  rw [W4_v9, W4_v10]
  rfl

/-- THE RESULT: the specification's function of the two arguments as launched. -/
theorem result_value (c : Dev nD) : (W9 m ρ c (Proc.devRef .tc main_v26) : S_.Idx → EReal)
    = fun _ => Cert.Mining.result (m ((c : Thread nD τ).loc main_arg0)) (m ((c : Thread nD τ).loc main_arg1)) := by
  refine (W9_result m ρ c).trans ?_
  rw [v9_eq, v10_eq, v12_eq, v13_eq]
  funext i
  show hingeK _ _ i + hingeK _ _ i = _
  rw [hingeK_apply, hingeK_apply]
  rfl

/-- The run, read: the result at the specification's value, the arguments unchanged. -/
theorem run_value : θ_run defs (onTc (τ := τ) (main (F := Ideal))) ⟨m, fun _ => 0, ρ⟩ (fun r => ∀ c : Dev nD,
      r.2.mem ((c.tc : Thread nD τ).loc main_v26) = (fun _ => Cert.Mining.result (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v26 (by decide))).trans (result_value m ρ c),
     (h c _ (mem_uc main_arg0 (by decide))).trans (W9_keep m ρ c main_arg0 (by decide) (by decide) (by decide) (by decide) (by decide) (by decide) (by decide) (by decide) (by decide)),
     (h c _ (mem_uc main_arg1 (by decide))).trans (W9_keep m ρ c main_arg1 (by decide) (by decide) (by decide) (by decide) (by decide) (by decide) (by decide) (by decide) (by decide))⟩) (run_all m ρ)

end Cert.KernelIdeal.Hand

end
-- ==== Proof.RefValue.lean ====
/-
  The reference program's result as the specification's function of its two arguments.

  The program forms one 4096 × 4096 matrix: entry `(i, j)` is the clipped distance between row `i` of the first half
  of the input and row `j` of the second half, expanded as the two squared norms minus twice the inner product,
  clipped below and square-rooted. Its mask at `(i, j)` compares the first half's label of `j` with the second half's
  label of `i`. Masked entries are replaced by `-∞` before a maximum and by `+∞` before a minimum. Reducing along `j`
  gives, for each row `i` of the first half, its hardest positive and easiest negative among the second half;
  reducing along `i` gives the same for each row `j` of the second half among the first, because the distance is
  symmetric (addition and multiplication of extended reals commute) and equality of labels is symmetric. Each side's
  hinge terms are summed from the literal zero, divided by 4096, and the two means are added.
-/
import proofs.«127731_j5145370820780_1_alg».proof.Proof.Gen.ReferenceIdeal.Read
import proofs.«127731_j5145370820780_1_alg».proof.Proof.MiningSpec
import Idealize.ShloMosaic.Lib.ValueIdx
import Idealize.ShloMosaic.Lib.Pipeline.Value
import Idealize.ShloMosaic.PureOps.Ideal.Laws
import Idealize.ShloMosaic.PureOps.Reduce

noncomputable section

namespace Cert.Mining.Ref

open Cert.ReferenceIdeal Cert.ReferenceIdeal.Gen Cert.ReferenceIdeal.Read Idealize.ShloMosaic Idealize.ShloMosaic.ValueIdx

/-- The squared norm of row `a` of the first half. -/
theorem v3_at (x0 : (⟨S8192x1024, .f32⟩ : BufTy).Contents (Elt Ideal)) (a : Fin 4096) :
    val_main_v3 (F := Ideal) x0 (ix1 a) = dot1024 (rgb x0 a) (rgb x0 a) := by
  rw [val_main_v3_apply, val_main_cst_apply]
  simp only [Ideal.ofBits_def, Ideal.ofBits_zero_f32, zero_add]
  unfold dot1024
  refine Finset.sum_congr rfl fun k _ => ?_
  rw [val_main_v2_apply, val_main_v0_apply]
  simp only [Ideal.mulf_def]
  have e : idx_main_v0 (idx_main_v3 (ix1 a) k) = ix2 (⟨a.val, by omega⟩ : Fin 8192) k :=
    funext fun c => Fin.ext (by match c with | ⟨0, _⟩ => rfl | ⟨1, _⟩ => rfl)
  rw [e]; rfl

/-- The squared norm of row `b` of the second half. -/
theorem v6_at (x0 : (⟨S8192x1024, .f32⟩ : BufTy).Contents (Elt Ideal)) (b : Fin 4096) :
    val_main_v6 (F := Ideal) x0 (ix1 b) = dot1024 (ir x0 b) (ir x0 b) := by
  rw [val_main_v6_apply, val_main_cst_0_apply]
  simp only [Ideal.ofBits_def, Ideal.ofBits_zero_f32, zero_add]
  unfold dot1024
  refine Finset.sum_congr rfl fun k _ => ?_
  rw [val_main_v5_apply, val_main_v1_apply]
  simp only [Ideal.mulf_def]
  have e : idx_main_v1 (idx_main_v6 (ix1 b) k) = ix2 (⟨4096 + b.val, by omega⟩ : Fin 8192) k :=
    funext fun c => Fin.ext (by match c with | ⟨0, _⟩ => rfl | ⟨1, _⟩ => rfl)
  rw [e]; rfl

/-- The inner product of row `i` of the first half with row `j` of the second. -/
theorem v12_at (x0 : (⟨S8192x1024, .f32⟩ : BufTy).Contents (Elt Ideal)) (i j : Fin 4096) :
    val_main_v12 (F := Ideal) x0 (ix2 i j) = dot1024 (rgb x0 i) (ir x0 j) := by
  rw [val_main_v12_apply]
  unfold dot1024
  refine Finset.sum_congr rfl fun k _ => ?_
  rw [val_main_v0_apply, val_main_v11_apply, val_main_v1_apply]
  have el : idx_main_v0 (lidx_main_v12 (ix2 i j) k) = ix2 (⟨i.val, by omega⟩ : Fin 8192) k :=
    funext fun c => Fin.ext (by match c with | ⟨0, _⟩ => rfl | ⟨1, _⟩ => rfl)
  have er : idx_main_v1 (idx_main_v11 (ridx_main_v12 (ix2 i j) k)) = ix2 (⟨4096 + j.val, by omega⟩ : Fin 8192) k :=
    funext fun c => Fin.ext (by match c with | ⟨0, _⟩ => rfl | ⟨1, _⟩ => rfl)
  rw [el, er]; rfl

theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]

/-- The distance matrix at `(i, j)`: the clipped distance between row `i` of the first half and row `j` of the
    second. -/
theorem v17_at (x0 : (⟨S8192x1024, .f32⟩ : BufTy).Contents (Elt Ideal)) (i j : Fin 4096) :
    val_main_v17 (F := Ideal) x0 (ix2 i j) = dist (rgb x0) (ir x0) i j := by
  rw [val_main_v17_apply, val_main_v16_apply, val_main_call0_v1_apply, val_main_call0_v0_apply, val_main_cst_2_apply,
    val_main_v15_apply, val_main_v10_apply, val_main_v8_apply, val_main_v4_apply, val_main_v9_apply, val_main_v7_apply,
    val_main_v14_apply, val_main_v13_apply, val_main_cst_1_apply, v12_at]
  have e8 : idx_main_v4 (idx_main_v8 (ix2 i j)) = ix1 i :=
    funext fun c => Fin.ext (by match c with | ⟨0, _⟩ => rfl)
  have e9 : idx_main_v7 (idx_main_v9 (ix2 i j)) = ix1 j :=
    funext fun c => Fin.ext (by match c with | ⟨0, _⟩ => rfl)
  rw [e8, e9, v3_at, v6_at]
  simp only [Ideal.hostUnary_sqrt_def, Ideal.maximumf_def, Ideal.subf_def, Ideal.addf_def, Ideal.mulf_def, Ideal.ofBits_def]
  unfold dist eps two
  rw [max_comm]

/-- The label mask at `(i, j)` selects on "the second half's label of `i` is the first half's label of `j`". -/
theorem select_v24_at {α : Type} (x1 : (⟨S8192, .i32⟩ : BufTy).Contents (Elt Ideal)) (i j : Fin 4096) (p q : α) :
    Scalar.select (val_main_v24 (F := Ideal) x1 (ix2 i j)) p q = if tir x1 i = trgb x1 j then p else q := by
  rw [val_main_v24_apply, val_main_v22_apply, val_main_v19_apply, val_main_v18_apply, val_main_v23_apply,
    val_main_v21_apply, val_main_v20_apply]
  have e1 : idx_main_v18 (idx_main_v19 (idx_main_v22 (ix2 i j))) = ix1 (⟨j.val, by omega⟩ : Fin 8192) :=
    funext fun c => Fin.ext (by match c with | ⟨0, _⟩ => rfl)
  have e2 : idx_main_v20 (idx_main_v21 (idx_main_v23 (ix2 i j))) = ix1 (⟨4096 + i.val, by omega⟩ : Fin 8192) :=
    funext fun c => Fin.ext (by match c with | ⟨0, _⟩ => rfl)
  rw [e1, e2]
  show Scalar.select (IntOp.cmpi .eq (trgb x1 j) (tir x1 i)) p q = _
  unfold Scalar.select IntOp.cmpi
  by_cases h : tir x1 i = trgb x1 j
  · rw [if_pos h, h]; simp
  · rw [if_neg h]
    have hb : (trgb x1 j == tir x1 i) = false := beq_eq_false_iff_ne.2 (fun e => h e.symm)
    simp [hb]

theorem hred1 : S4096x4096.Reduces [1] S4096 := by decide
theorem hred0 : S4096x4096.Reduces [0] S4096 := by decide

theorem lift1 (a b : Fin 4096) : hred1.lift (ix1 a) b = ix2 a b :=
  funext fun c => Fin.ext (by match c with | ⟨0, _⟩ => rfl | ⟨1, _⟩ => rfl)
theorem lift0 (a b : Fin 4096) : hred0.lift (ix1 a) b = ix2 b a :=
  funext fun c => Fin.ext (by match c with | ⟨0, _⟩ => rfl | ⟨1, _⟩ => rfl)

/-- The hardest positive of row `a` of the first half against the second half. -/
theorem v26_at (x0 : (⟨S8192x1024, .f32⟩ : BufTy).Contents (Elt Ideal)) (x1 : (⟨S8192, .i32⟩ : BufTy).Contents (Elt Ideal))
    (a : Fin 4096) :
    val_main_v26 (F := Ideal) x0 x1 (ix1 a) = hardPos (rgb x0) (ir x0) (tir x1) (trgb x1) a := by
  unfold val_main_v26
  rw [Host.reduce_eq_fold_single FloatOps.maximumf _ _ reducesTo_S4096x4096_S4096_d1 hred1 h_S_, val_main_cst_4_apply]
  unfold hardPos
  have hf : (val_main_v25 (F := Ideal) x0 x1 ∘ hred1.lift (ix1 a))
      = fun b : Fin 4096 => if tir x1 a = trgb x1 b then dist (rgb x0) (ir x0) a b else ⊥ := by
    refine funext fun (b : Fin 4096) => ?_
    show val_main_v25 (F := Ideal) x0 x1 (hred1.lift (ix1 a) b) = _
    rw [lift1, val_main_v25_apply, select_v24_at, v17_at, val_main_call1_v1_apply, val_main_call1_v0_apply,
      val_main_cst_3_apply]
    simp only [Ideal.ofBits_def, ofBits_neg_inf]
  rw [hf]
  show Finset.fold max (Ideal.ofBits .f32 0xFF800000#32) _ _ = _
  rw [ofBits_neg_inf]
  rfl

/-- The easiest negative of row `a` of the first half against the second half. -/
theorem v28_at (x0 : (⟨S8192x1024, .f32⟩ : BufTy).Contents (Elt Ideal)) (x1 : (⟨S8192, .i32⟩ : BufTy).Contents (Elt Ideal))
    (a : Fin 4096) :
    val_main_v28 (F := Ideal) x0 x1 (ix1 a) = easyNeg (rgb x0) (ir x0) (tir x1) (trgb x1) a := by
  unfold val_main_v28
  rw [Host.reduce_eq_fold_single FloatOps.minimumf _ _ reducesTo_S4096x4096_S4096_d1 hred1 h_S_, val_main_cst_6_apply]
  unfold easyNeg
  have hf : (val_main_v27 (F := Ideal) x0 x1 ∘ hred1.lift (ix1 a))
      = fun b : Fin 4096 => if tir x1 a = trgb x1 b then ⊤ else dist (rgb x0) (ir x0) a b := by
    refine funext fun (b : Fin 4096) => ?_
    show val_main_v27 (F := Ideal) x0 x1 (hred1.lift (ix1 a) b) = _
    rw [lift1, val_main_v27_apply, select_v24_at, v17_at, val_main_call2_v1_apply, val_main_call2_v0_apply,
      val_main_cst_5_apply]
    simp only [Ideal.ofBits_def, ofBits_pos_inf]
  rw [hf]
  show Finset.fold min (Ideal.ofBits .f32 0x7F800000#32) _ _ = _
  rw [ofBits_pos_inf]
  rfl

/-- The inner product is symmetric. -/
theorem dot1024_comm (x y : Fin 1024 → EReal) : dot1024 x y = dot1024 y x := by
  unfold dot1024
  exact Finset.sum_congr rfl fun k _ => mul_comm _ _

/-- The clipped distance is symmetric in its two families of rows. -/
theorem dist_symm {A B : ℕ} (rv : Fin A → Fin 1024 → EReal) (cv : Fin B → Fin 1024 → EReal) (a : Fin A) (b : Fin B) :
    dist rv cv a b = dist cv rv b a := by
  unfold dist
  rw [add_comm (dot1024 (rv a) (rv a)), dot1024_comm (rv a) (cv b)]

/-- The hardest positive of row `a` of the second half against the first half. -/
theorem v30_at (x0 : (⟨S8192x1024, .f32⟩ : BufTy).Contents (Elt Ideal)) (x1 : (⟨S8192, .i32⟩ : BufTy).Contents (Elt Ideal))
    (a : Fin 4096) :
    val_main_v30 (F := Ideal) x0 x1 (ix1 a) = hardPos (ir x0) (rgb x0) (trgb x1) (tir x1) a := by
  unfold val_main_v30
  rw [Host.reduce_eq_fold_single FloatOps.maximumf _ _ reducesTo_S4096x4096_S4096_d0 hred0 h_S_, val_main_cst_8_apply]
  unfold hardPos
  have hf : (val_main_v29 (F := Ideal) x0 x1 ∘ hred0.lift (ix1 a))
      = fun b : Fin 4096 => if trgb x1 a = tir x1 b then dist (ir x0) (rgb x0) a b else ⊥ := by
    refine funext fun (b : Fin 4096) => ?_
    show val_main_v29 (F := Ideal) x0 x1 (hred0.lift (ix1 a) b) = _
    rw [lift0, val_main_v29_apply, select_v24_at, v17_at, val_main_call3_v1_apply, val_main_call3_v0_apply,
      val_main_cst_7_apply, dist_symm]
    simp only [Ideal.ofBits_def, ofBits_neg_inf, eq_comm]
  rw [hf]
  show Finset.fold max (Ideal.ofBits .f32 0xFF800000#32) _ _ = _
  rw [ofBits_neg_inf]
  rfl

/-- The easiest negative of row `a` of the second half against the first half. -/
theorem v32_at (x0 : (⟨S8192x1024, .f32⟩ : BufTy).Contents (Elt Ideal)) (x1 : (⟨S8192, .i32⟩ : BufTy).Contents (Elt Ideal))
    (a : Fin 4096) :
    val_main_v32 (F := Ideal) x0 x1 (ix1 a) = easyNeg (ir x0) (rgb x0) (trgb x1) (tir x1) a := by
  unfold val_main_v32
  rw [Host.reduce_eq_fold_single FloatOps.minimumf _ _ reducesTo_S4096x4096_S4096_d0 hred0 h_S_, val_main_cst_10_apply]
  unfold easyNeg
  have hf : (val_main_v31 (F := Ideal) x0 x1 ∘ hred0.lift (ix1 a))
      = fun b : Fin 4096 => if trgb x1 a = tir x1 b then ⊤ else dist (ir x0) (rgb x0) a b := by
    refine funext fun (b : Fin 4096) => ?_
    show val_main_v31 (F := Ideal) x0 x1 (hred0.lift (ix1 a) b) = _
    rw [lift0, val_main_v31_apply, select_v24_at, v17_at, val_main_call4_v1_apply, val_main_call4_v0_apply,
      val_main_cst_9_apply, dist_symm]
    simp only [Ideal.ofBits_def, ofBits_pos_inf, eq_comm]
  rw [hf]
  show Finset.fold min (Ideal.ofBits .f32 0x7F800000#32) _ _ = _
  rw [ofBits_pos_inf]
  rfl

/-! ## The four mined vectors as whole vectors -/

theorem v26_eq (x0 : (⟨S8192x1024, .f32⟩ : BufTy).Contents (Elt Ideal)) (x1 : (⟨S8192, .i32⟩ : BufTy).Contents (Elt Ideal)) :
    val_main_v26 (F := Ideal) x0 x1 = vec4096 (hardPos (rgb x0) (ir x0) (tir x1) (trgb x1)) :=
  funext fun j => (congrArg (val_main_v26 (F := Ideal) x0 x1) (eq_ix1 j)).trans (v26_at x0 x1 (j 0))

theorem v28_eq (x0 : (⟨S8192x1024, .f32⟩ : BufTy).Contents (Elt Ideal)) (x1 : (⟨S8192, .i32⟩ : BufTy).Contents (Elt Ideal)) :
    val_main_v28 (F := Ideal) x0 x1 = vec4096 (easyNeg (rgb x0) (ir x0) (tir x1) (trgb x1)) :=
  funext fun j => (congrArg (val_main_v28 (F := Ideal) x0 x1) (eq_ix1 j)).trans (v28_at x0 x1 (j 0))

theorem v30_eq (x0 : (⟨S8192x1024, .f32⟩ : BufTy).Contents (Elt Ideal)) (x1 : (⟨S8192, .i32⟩ : BufTy).Contents (Elt Ideal)) :
    val_main_v30 (F := Ideal) x0 x1 = vec4096 (hardPos (ir x0) (rgb x0) (trgb x1) (tir x1)) :=
  funext fun j => (congrArg (val_main_v30 (F := Ideal) x0 x1) (eq_ix1 j)).trans (v30_at x0 x1 (j 0))

theorem v32_eq (x0 : (⟨S8192x1024, .f32⟩ : BufTy).Contents (Elt Ideal)) (x1 : (⟨S8192, .i32⟩ : BufTy).Contents (Elt Ideal)) :
    val_main_v32 (F := Ideal) x0 x1 = vec4096 (easyNeg (ir x0) (rgb x0) (trgb x1) (tir x1)) :=
  funext fun j => (congrArg (val_main_v32 (F := Ideal) x0 x1) (eq_ix1 j)).trans (v32_at x0 x1 (j 0))

/-! ## The tail: the two mean hinges, added -/

/-- The first side's hinge term at row `j`. -/
theorem v36_at (x0 : (⟨S8192x1024, .f32⟩ : BufTy).Contents (Elt Ideal)) (x1 : (⟨S8192, .i32⟩ : BufTy).Contents (Elt Ideal))
    (j : S4096.Idx) :
    val_main_v36 (F := Ideal) x0 x1 j
      = max (margin - (vec4096 (easyNeg (rgb x0) (ir x0) (tir x1) (trgb x1)) j
          - vec4096 (hardPos (rgb x0) (ir x0) (tir x1) (trgb x1)) j)) zero := by
  rw [val_main_v36_apply, val_main_v35_apply, val_main_v34_apply, val_main_cst_11_apply, val_main_v33_apply,
    val_main_call5_v0_apply, val_main_call5_cst_apply, v28_eq, v26_eq]
  rfl

/-- The second side's hinge term at row `j`. -/
theorem v42_at (x0 : (⟨S8192x1024, .f32⟩ : BufTy).Contents (Elt Ideal)) (x1 : (⟨S8192, .i32⟩ : BufTy).Contents (Elt Ideal))
    (j : S4096.Idx) :
    val_main_v42 (F := Ideal) x0 x1 j
      = max (margin - (vec4096 (easyNeg (ir x0) (rgb x0) (trgb x1) (tir x1)) j
          - vec4096 (hardPos (ir x0) (rgb x0) (trgb x1) (tir x1)) j)) zero := by
  rw [val_main_v42_apply, val_main_v41_apply, val_main_v40_apply, val_main_cst_14_apply, val_main_v39_apply,
    val_main_call6_v0_apply, val_main_call6_cst_apply, v32_eq, v30_eq]
  rfl

/-- The reference program's result, as a function of its two arguments, is the specification's. -/
theorem result_eq (x0 : (⟨S8192x1024, .f32⟩ : BufTy).Contents (Elt Ideal)) (x1 : (⟨S8192, .i32⟩ : BufTy).Contents (Elt Ideal)) :
    val_main_v45 (F := Ideal) x0 x1 = fun _ => Cert.Mining.result x0 x1 := by
  funext i
  rw [val_main_v45_apply, val_main_v38_apply, val_main_v44_apply, val_main_v37_apply, val_main_v43_apply,
    val_main_cst_12_apply, val_main_cst_15_apply, val_main_cst_13_apply, val_main_cst_16_apply]
  simp only [v36_at, v42_at]
  rfl

/-! ## The run's term for the result -/

open Idealize.ShloMosaic.TcCoe Idealize.SL.Sem in
/-- The term the run states for the result buffer is the constant scalar holding the specification's value at the
    launch contents of the two arguments. -/
theorem res_main_v45_eq_result (m : (ℓ : Loc nD τ sig) → Buf (Elt Ideal) ℓ) (c : Dev nD) :
    Cert.ReferenceIdeal.Value.res_main_v45 m c
      = fun _ => Cert.Mining.result (m ((c.tc : Thread nD τ).loc main_arg0)) (m ((c.tc : Thread nD τ).loc main_arg1)) :=
  (val_main_v45_eq m c).trans (result_eq _ _)

end Cert.Mining.Ref

end
-- ==== Proof.lean ====
/-
  Two programs compute one loss from an input of 8192 rows of 1024 floats and 8192 integer labels. The first 4096
  rows are one modality, the last 4096 the other. For a row `a` of one half and a row `b` of the other, the distance is
  `sqrt (max (|a|² + |b|² - 2 ⟨a, b⟩) 1e-12)`; `a`'s hardest positive is the largest distance to a row of the other
  half carrying `a`'s label (the bottom element if there is none), its easiest negative the smallest distance to a row
  of the other half carrying another label (the top element if there is none). The loss is the mean over the rows of
  the first half of `max (0.3 - (negative - positive)) 0`, plus the same mean over the rows of the second half.

  The reference forms the whole 4096 × 4096 distance matrix once and reduces it along its rows for one half and along
  its columns for the other. The kernel program runs one tiled kernel twice, with the roles of the two halves
  exchanged: on a 4 × 8 grid, 1024 rows at a time against 512 columns at a time, it keeps a running maximum and a
  running minimum per row in two buffers that live across the eight column tiles — reset at the first tile, folded at
  every tile, copied to the output block at the last tile.

  Over the extended reals the two agree, and only because `+` and `·` commute and a maximum over all columns is the
  maximum of the tiles' maxima: `max (x, eps) = max (eps, x)`; `|a|² + |b|²` and `⟨a, b⟩` are symmetric in the two
  rows, which turns the reference's reduction along columns into the kernel's second call; label equality is
  symmetric; the running maximum started at the bottom element ends at the maximum over all 4096 columns, the running
  minimum started at the top element at the minimum. No step needs an entry to be finite, so the precondition is never
  opened.

  The kernel program's frame — it terminates, faults nowhere and leaves its arguments as launched — is proved once at
  any float instance and cited at the word-level instance and at the ideal one: each of the two kernel calls is a
  pipeline whose invariant carries the two running buffers from grid point to grid point at the contents the point
  before left in them, the body being run once in each of its three cases (first tile, middle tile, last tile). The
  reference's frame is its run with the result dropped. The ideal pass rewrote nothing, so there is nothing to
  preserve beyond `True`.
-/
import proofs.«127731_j5145370820780_1_alg».proof.Defs
import proofs.«127731_j5145370820780_1_alg».proof.Proof.Gen.Kernel
import proofs.«127731_j5145370820780_1_alg».proof.Proof.Gen.KernelIdeal
import proofs.«127731_j5145370820780_1_alg».proof.Proof.Gen.ReferenceIdeal
import proofs.«127731_j5145370820780_1_alg».proof.Proof.Gen.ReferenceIdeal.Run
import proofs.«127731_j5145370820780_1_alg».proof.Proof.Gen.ReferenceIdeal.Read
import proofs.«127731_j5145370820780_1_alg».proof.Proof.Gen.Pre_finite_inputs
import proofs.«127731_j5145370820780_1_alg».proof.Proof.KB.FrameOf
import proofs.«127731_j5145370820780_1_alg».proof.Proof.KI.Value
import proofs.«127731_j5145370820780_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Hand.frame (F := Bits) m ρ
/-- So does its idealization. -/
theorem frame_ki : Cert.frame_KernelIdeal := fun m ρ _ => Cert.KernelIdeal.Hand.frame (F := Ideal) m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance both programs end with the loss of the arguments as launched: the kernel program by its
    two pipelines' running maxima and minima, the reference by its two reductions of one distance matrix. -/
theorem algebraic : Cert.algebraic_KernelIdeal_ReferenceIdeal := by
  intro m ρ m' ρ' _ hagree
  refine ⟨fun c => fun _ => Cert.Mining.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨?_, (h c).2⟩) (Cert.ReferenceIdeal.Value.run (F := Ideal) m' ρ')
  rw [(h c).1, Cert.Mining.Ref.res_main_v45_eq_result, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
